-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x24 : Shape := ⟨2, ![64, 24]⟩
abbrev S24 : Shape := ⟨1, ![24]⟩
abbrev S24x24 : Shape := ⟨2, ![24, 24]⟩
abbrev S64x8 : Shape := ⟨2, ![64, 8]⟩
abbrev S8 : Shape := ⟨1, ![8]⟩
abbrev S8x2 : Shape := ⟨2, ![8, 2]⟩
abbrev S2 : Shape := ⟨1, ![2]⟩
abbrev S24x1 : Shape := ⟨2, ![24, 1]⟩
abbrev S1 : Shape := ⟨1, ![1]⟩
abbrev S1x3 : Shape := ⟨2, ![1, 3]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_
  bcast_S_S24x24 : S_.BroadcastsInDim S24x24 (![] : Fin 0 → Fin S24x24.rank)
  reducesTo_S24x24_S_d0_1 : S24x24.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_
  bcast_S_S24x1 : S_.BroadcastsInDim S24x1 (![] : Fin 0 → Fin S24x1.rank)
  reducesTo_S24x1_S_d0_1 : S24x1.ReducesTo [0, 1] S_
  bcast_S_S1 : S_.BroadcastsInDim S1 (![] : Fin 0 → Fin S1.rank)
  reducesTo_S1_S_d0 : S1.ReducesTo [0] S_
  bcast_S_S1x3 : S_.BroadcastsInDim S1x3 (![] : Fin 0 → Fin S1x3.rank)
  reducesTo_S1x3_S_d0_1 : S1x3.ReducesTo [0, 1] S_

variable [Facts]

def fn_part5 {F : FTy → Type} [FloatOps F] (main_arg18 : FVec F S1 .f32) (main_arg19 : FVec F S1x3 .f32) (main_v83 : IVec S_ 1) (main_v84 : FVec F S24x1 .f32) (main_cst_32 : FVec F S_ .f32) : IVec S_ 1 :=
  let main_v85 : FVec F S24x1 .f32 := broadcastInDim S24x1 ![] bcast_S_S24x1 main_cst_32
  let main_v86 : IVec S24x1 1 := cmpf .olt main_v84 main_v85
  let main_c_33 : IVec S_ 1 := constantI S_ 1 1#1
  let main_v87 : IVec S_ 1 := (fun x v => Host.reduce IntOp.andi x v reducesTo_S24x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S1x3 .f32 := Host.absf main_arg19
  let main_cst_36 : FVec F S_ .f32 := constant S_ .f32 0x7F800000#32
  let main_v95 : FVec F S1x3 .f32 := broadcastInDim S1x3 ![] bcast_S_S1x3 main_cst_36
  let main_v96 : IVec S1x3 1 := cmpf .olt main_v94 main_v95
  let main_c_37 : IVec S_ 1 := constantI S_ 1 1#1
  let main_v97 : IVec S_ 1 := (fun x v => Host.reduce IntOp.andi x v reducesTo_S1x3_S_d0_1 h_S_) main_v96 main_c_37
  let main_v98 : IVec S_ 1 := andi main_v93 main_v97
  main_v98

def fn_part4 {F : FTy → Type} [FloatOps F] (main_arg14 : FVec F S1 .f32) (main_arg15 : FVec F S24x1 .f32) (main_arg16 : FVec F S1 .f32) (main_arg17 : FVec F S24x1 .f32) (main_arg18 : FVec F S1 .f32) (main_arg19 : FVec F S1x3 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S24x1 .f32 := Host.absf main_arg15
  let main_cst_28 : FVec F S_ .f32 := constant S_ .f32 0x7F800000#32
  let main_v75 : FVec F S24x1 .f32 := broadcastInDim S24x1 ![] bcast_S_S24x1 main_cst_28
  let main_v76 : IVec S24x1 1 := cmpf .olt main_v74 main_v75
  let main_c_29 : IVec S_ 1 := constantI S_ 1 1#1
  let main_v77 : IVec S_ 1 := (fun x v => Host.reduce IntOp.andi x v reducesTo_S24x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S24x1 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S8x2 .f32) (main_arg12 : FVec F S2 .f32) (main_arg13 : FVec F S24x1 .f32) (main_arg14 : FVec F S1 .f32) (main_arg15 : FVec F S24x1 .f32) (main_arg16 : FVec F S1 .f32) (main_arg17 : FVec F S24x1 .f32) (main_arg18 : FVec F S1 .f32) (main_arg19 : FVec F S1x3 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x2 .f32 := Host.absf main_arg11
  let main_cst_20 : FVec F S_ .f32 := constant S_ .f32 0x7F800000#32
  let main_v55 : FVec F S8x2 .f32 := broadcastInDim S8x2 ![] bcast_S_S8x2 main_cst_20
  let main_v56 : IVec S8x2 1 := cmpf .olt main_v54 main_v55
  let main_c_21 : IVec S_ 1 := constantI S_ 1 1#1
  let main_v57 : IVec S_ 1 := (fun x v => Host.reduce IntOp.andi x v reducesTo_S8x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : FVec F S24x1 .f32 := Host.absf main_arg13
  let main_cst_24 : FVec F S_ .f32 := constant S_ .f32 0x7F800000#32
  let main_v65 : FVec F S24x1 .f32 := broadcastInDim S24x1 ![] bcast_S_S24x1 main_cst_24
  let main_v66 : IVec S24x1 1 := cmpf .olt main_v64 main_v65
  let main_c_25 : IVec S_ 1 := constantI S_ 1 1#1
  let main_v67 : IVec S_ 1 := (fun x v => Host.reduce IntOp.andi x v reducesTo_S24x1_S_d0_1 h_S_) main_v66 main_c_25
  fn_part4 (F := F) main_arg14 main_arg15 main_arg16 main_arg17 main_arg18 main_arg19 main_v63 main_v67

def fn_part2 {F : FTy → Type} [FloatOps F] (main_arg7 : FVec F S24x24 .f32) (main_arg8 : FVec F S24 .f32) (main_arg9 : FVec F S64x8 .f32) (main_arg10 : FVec F S8 .f32) (main_arg11 : FVec F S8x2 .f32) (main_arg12 : FVec F S2 .f32) (main_arg13 : FVec F S24x1 .f32) (main_arg14 : FVec F S1 .f32) (main_arg15 : FVec F S24x1 .f32) (main_arg16 : FVec F S1 .f32) (main_arg17 : FVec F S24x1 .f32) (main_arg18 : FVec F S1 .f32) (main_arg19 : FVec F S1x3 .f32) (main_v33 : IVec S_ 1) : IVec S_ 1 :=
  let main_v34 : FVec F S24x24 .f32 := Host.absf main_arg7
  let main_cst_12 : FVec F S_ .f32 := constant S_ .f32 0x7F800000#32
  let main_v35 : FVec F S24x24 .f32 := broadcastInDim S24x24 ![] bcast_S_S24x24 main_cst_12
  let main_v36 : IVec S24x24 1 := cmpf .olt main_v34 main_v35
  let main_c_13 : IVec S_ 1 := constantI S_ 1 1#1
  let main_v37 : IVec S_ 1 := (fun x v => Host.reduce IntOp.andi x v reducesTo_S24x24_S_d0_1 h_S_) main_v36 main_c_13
  let main_v38 : IVec S_ 1 := andi main_v33 main_v37
  let main_v39 : FVec F S24 .f32 := Host.absf main_arg8
  let main_cst_14 : FVec F S_ .f32 := constant S_ .f32 0x7F800000#32
  let main_v40 : FVec F S24 .f32 := broadcastInDim S24 ![] bcast_S_S24 main_cst_14
  let main_v41 : IVec S24 1 := cmpf .olt main_v39 main_v40
  let main_c_15 : IVec S_ 1 := constantI S_ 1 1#1
  let main_v42 : IVec S_ 1 := (fun x v => Host.reduce IntOp.andi x v reducesTo_S24_S_d0 h_S_) main_v41 main_c_15
  let main_v43 : IVec S_ 1 := andi main_v38 main_v42
  let main_v44 : FVec F S64x8 .f32 := Host.absf main_arg9
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S24 .f32) (main_arg5 : FVec F S24x24 .f32) (main_arg6 : FVec F S24 .f32) (main_arg7 : FVec F S24x24 .f32) (main_arg8 : FVec F S24 .f32) (main_arg9 : FVec F S64x8 .f32) (main_arg10 : FVec F S8 .f32) (main_arg11 : FVec F S8x2 .f32) (main_arg12 : FVec F S2 .f32) (main_arg13 : FVec F S24x1 .f32) (main_arg14 : FVec F S1 .f32) (main_arg15 : FVec F S24x1 .f32) (main_arg16 : FVec F S1 .f32) (main_arg17 : FVec F S24x1 .f32) (main_arg18 : FVec F S1 .f32) (main_arg19 : FVec F S1x3 .f32) (main_v13 : IVec S_ 1) (main_v16 : IVec S24x24 1) : IVec S_ 1 :=
  let main_c_5 : IVec S_ 1 := constantI S_ 1 1#1
  let main_v17 : IVec S_ 1 := (fun x v => Host.reduce IntOp.andi x v reducesTo_S24x24_S_d0_1 h_S_) main_v16 main_c_5
  let main_v18 : IVec S_ 1 := andi main_v13 main_v17
  let main_v19 : FVec F S24 .f32 := Host.absf main_arg4
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  let main_v24 : FVec F S24x24 .f32 := Host.absf main_arg5
  let main_cst_8 : FVec F S_ .f32 := constant S_ .f32 0x7F800000#32
  let main_v25 : FVec F S24x24 .f32 := broadcastInDim S24x24 ![] bcast_S_S24x24 main_cst_8
  let main_v26 : IVec S24x24 1 := cmpf .olt main_v24 main_v25
  let main_c_9 : IVec S_ 1 := constantI S_ 1 1#1
  let main_v27 : IVec S_ 1 := (fun x v => Host.reduce IntOp.andi x v reducesTo_S24x24_S_d0_1 h_S_) main_v26 main_c_9
  let main_v28 : IVec S_ 1 := andi main_v23 main_v27
  let main_v29 : FVec F S24 .f32 := Host.absf main_arg6
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S1048576x64 .f32) (main_arg1 : FVec F S64x24 .f32) (main_arg2 : FVec F S24 .f32) (main_arg3 : FVec F S24x24 .f32) (main_arg4 : FVec F S24 .f32) (main_arg5 : FVec F S24x24 .f32) (main_arg6 : FVec F S24 .f32) (main_arg7 : FVec F S24x24 .f32) (main_arg8 : FVec F S24 .f32) (main_arg9 : FVec F S64x8 .f32) (main_arg10 : FVec F S8 .f32) (main_arg11 : FVec F S8x2 .f32) (main_arg12 : FVec F S2 .f32) (main_arg13 : FVec F S24x1 .f32) (main_arg14 : FVec F S1 .f32) (main_arg15 : FVec F S24x1 .f32) (main_arg16 : FVec F S1 .f32) (main_arg17 : FVec F S24x1 .f32) (main_arg18 : FVec F S1 .f32) (main_arg19 : FVec F S1x3 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x24 .f32 := Host.absf main_arg1
  let main_cst_0 : FVec F S_ .f32 := constant S_ .f32 0x7F800000#32
  let main_v5 : FVec F S64x24 .f32 := broadcastInDim S64x24 ![] bcast_S_S64x24 main_cst_0
  let main_v6 : IVec S64x24 1 := cmpf .olt main_v4 main_v5
  let main_c_1 : IVec S_ 1 := constantI S_ 1 1#1
  let main_v7 : IVec S_ 1 := (fun x v => Host.reduce IntOp.andi x v reducesTo_S64x24_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S24x24 .f32 := Host.absf main_arg3
  let main_cst_4 : FVec F S_ .f32 := constant S_ .f32 0x7F800000#32
  let main_v15 : FVec F S24x24 .f32 := broadcastInDim S24x24 ![] bcast_S_S24x24 main_cst_4
  let main_v16 : IVec S24x24 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S1048576x64 : Shape := ⟨2, ![1048576, 64]⟩
abbrev S64x24 : Shape := ⟨2, ![64, 24]⟩
abbrev S24 : Shape := ⟨1, ![24]⟩
abbrev S24x24 : Shape := ⟨2, ![24, 24]⟩
abbrev S64x8 : Shape := ⟨2, ![64, 8]⟩
abbrev S8 : Shape := ⟨1, ![8]⟩
abbrev S8x2 : Shape := ⟨2, ![8, 2]⟩
abbrev S2 : Shape := ⟨1, ![2]⟩
abbrev S24x1 : Shape := ⟨2, ![24, 1]⟩
abbrev S1 : Shape := ⟨1, ![1]⟩
abbrev S1x3 : Shape := ⟨2, ![1, 3]⟩
abbrev S64x32 : Shape := ⟨2, ![64, 32]⟩
abbrev S32 : Shape := ⟨1, ![32]⟩
abbrev S1x32 : Shape := ⟨2, ![1, 32]⟩
abbrev S24x48 : Shape := ⟨2, ![24, 48]⟩
abbrev S48 : Shape := ⟨1, ![48]⟩
abbrev S1x48 : Shape := ⟨2, ![1, 48]⟩
abbrev S24x3 : Shape := ⟨2, ![24, 3]⟩
abbrev S3 : Shape := ⟨1, ![3]⟩
abbrev S1x24 : Shape := ⟨2, ![1, 24]⟩
abbrev S1x2 : Shape := ⟨2, ![1, 2]⟩
abbrev S1048576x3 : Shape := ⟨2, ![1048576, 3]⟩
abbrev S16384x64 : Shape := ⟨2, ![16384, 64]⟩
abbrev S16384x3 : Shape := ⟨2, ![16384, 3]⟩
abbrev S16384x32 : Shape := ⟨2, ![16384, 32]⟩
abbrev S16384x24 : Shape := ⟨2, ![16384, 24]⟩
abbrev S16384x8 : Shape := ⟨2, ![16384, 8]⟩
abbrev S16384x2 : Shape := ⟨2, ![16384, 2]⟩
abbrev S16384x1 : Shape := ⟨2, ![16384, 1]⟩
abbrev S16384x48 : Shape := ⟨2, ![16384, 48]⟩

abbrev nBuf : Space → Nat
  | .hbm => 33
  | .vmem => 14
  | .smem => 0
  | _ => 0

abbrev bufTy : (tb : Table) → Fin (tcTables nBuf tb) → BufTy
  | .hbm, ⟨0, _⟩ => ⟨S1048576x64, .f32⟩
  | .hbm, ⟨1, _⟩ => ⟨S64x24, .f32⟩
  | .hbm, ⟨2, _⟩ => ⟨S24, .f32⟩
  | .hbm, ⟨3, _⟩ => ⟨S24x24, .f32⟩
  | .hbm, ⟨4, _⟩ => ⟨S24, .f32⟩
  | .hbm, ⟨5, _⟩ => ⟨S24x24, .f32⟩
  | .hbm, ⟨6, _⟩ => ⟨S24, .f32⟩
  | .hbm, ⟨7, _⟩ => ⟨S24x24, .f32⟩
  | .hbm, ⟨8, _⟩ => ⟨S24, .f32⟩
  | .hbm, ⟨9, _⟩ => ⟨S64x8, .f32⟩
  | .hbm, ⟨10, _⟩ => ⟨S8, .f32⟩
  | .hbm, ⟨11, _⟩ => ⟨S8x2, .f32⟩
  | .hbm, ⟨12, _⟩ => ⟨S2, .f32⟩
  | .hbm, ⟨13, _⟩ => ⟨S24x1, .f32⟩
  | .hbm, ⟨14, _⟩ => ⟨S1, .f32⟩
  | .hbm, ⟨15, _⟩ => ⟨S24x1, .f32⟩
  | .hbm, ⟨16, _⟩ => ⟨S1, .f32⟩
  | .hbm, ⟨17, _⟩ => ⟨S24x1, .f32⟩
  | .hbm, ⟨18, _⟩ => ⟨S1, .f32⟩
  | .hbm, ⟨19, _⟩ => ⟨S1x3, .f32⟩
  | .hbm, ⟨20, _⟩ => ⟨S64x32, .f32⟩
  | .hbm, ⟨21, _⟩ => ⟨S32, .f32⟩
  | .hbm, ⟨22, _⟩ => ⟨S1x32, .f32⟩
  | .hbm, ⟨23, _⟩ => ⟨S24x48, .f32⟩
  | .hbm, ⟨24, _⟩ => ⟨S48, .f32⟩
  | .hbm, ⟨25, _⟩ => ⟨S1x48, .f32⟩
  | .hbm, ⟨26, _⟩ => ⟨S24x3, .f32⟩
  | .hbm, ⟨27, _⟩ => ⟨S3, .f32⟩
  | .hbm, ⟨28, _⟩ => ⟨S1x3, .f32⟩
  | .hbm, ⟨29, _⟩ => ⟨S1x3, .f32⟩
  | .hbm, ⟨30, _⟩ => ⟨S1x24, .f32⟩
  | .hbm, ⟨31, _⟩ => ⟨S1x2, .f32⟩
  | .hbm, ⟨32, _⟩ => ⟨S1048576x3, .f32⟩
  | .local _ .vmem, ⟨0, _⟩ => ⟨S16384x64, .f32⟩
  | .local _ .vmem, ⟨1, _⟩ => ⟨S16384x64, .f32⟩
  | .local _ .vmem, ⟨2, _⟩ => ⟨S64x32, .f32⟩
  | .local _ .vmem, ⟨3, _⟩ => ⟨S1x32, .f32⟩
  | .local _ .vmem, ⟨4, _⟩ => ⟨S24x24, .f32⟩
  | .local _ .vmem, ⟨5, _⟩ => ⟨S1x24, .f32⟩
  | .local _ .vmem, ⟨6, _⟩ => ⟨S24x48, .f32⟩
  | .local _ .vmem, ⟨7, _⟩ => ⟨S1x48, .f32⟩
  | .local _ .vmem, ⟨8, _⟩ => ⟨S8x2, .f32⟩
  | .local _ .vmem, ⟨9, _⟩ => ⟨S1x2, .f32⟩
  | .local _ .vmem, ⟨10, _⟩ => ⟨S24x3, .f32⟩
  | .local _ .vmem, ⟨11, _⟩ => ⟨S1x3, .f32⟩
  | .local _ .vmem, ⟨12, _⟩ => ⟨S16384x3, .f32⟩
  | .local _ .vmem, ⟨13, _⟩ => ⟨S16384x3, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S24x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16384x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S64x24_S64x8_S64x32_d1 : Shape.Concatenates [S64x24, S64x8] S64x32 1
  concatenates_S24_S8_S32_d0 : Shape.Concatenates [S24, S8] S32 0
  shapeCasts_S32_S1x32 : S32.ShapeCasts S1x32
  concatenates_S24x24_S24x24_S24x48_d1 : Shape.Concatenates [S24x24, S24x24] S24x48 1
  concatenates_S24_S24_S48_d0 : Shape.Concatenates [S24, S24] S48 0
  shapeCasts_S48_S1x48 : S48.ShapeCasts S1x48
  concatenates_S24x1_S24x1_S24x1_S24x3_d1 : Shape.Concatenates [S24x1, S24x1, S24x1] S24x3 1
  concatenates_S1_S1_S1_S3_d0 : Shape.Concatenates [S1, S1, S1] S3 0
  shapeCasts_S3_S1x3 : S3.ShapeCasts S1x3
  shapeCasts_S24_S1x24 : S24.ShapeCasts S1x24
  shapeCasts_S2_S1x2 : S2.ShapeCasts S1x2
  inb_S16384x64_S16384x64_0_0 : ∀ a, (![0, 0] : Fin 2 → Nat) a + S16384x64.size a ≤ S16384x64.size a
  h_S16384x64 : 0 < S16384x64.numel
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16384x32 : S1x32.Broadcasts S16384x32
  slices_S16384x32_o0_0_S16384x24 : S16384x32.Slices ![0, 0] S16384x24
  slices_S16384x32_o0_24_S16384x8 : S16384x32.Slices ![0, 24] S16384x8
  inb_S24x24_S24x24_0_0 : ∀ a, (![0, 0] : Fin 2 → Nat) a + S24x24.size a ≤ S24x24.size a
  h_S24x24 : 0 < S24x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S16384x24 : S1x24.Broadcasts S16384x24
  inb_S8x2_S8x2_0_0 : ∀ a, (![0, 0] : Fin 2 → Nat) a + S8x2.size a ≤ S8x2.size a
  h_S8x2 : 0 < S8x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S16384x2 : S1x2.Broadcasts S16384x2
  slices_S16384x2_o0_0_S16384x1 : S16384x2.Slices ![0, 0] S16384x1
  slices_S16384x2_o0_1_S16384x1 : S16384x2.Slices ![0, 1] S16384x1
  inb_S24x48_S24x48_0_0 : ∀ a, (![0, 0] : Fin 2 → Nat) a + S24x48.size a ≤ S24x48.size a
  h_S24x48 : 0 < S24x48.numel
  shapeCasts_S24x48_S24x48 : S24x48.ShapeCasts S24x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S16384x48 : S1x48.Broadcasts S16384x48
  slices_S16384x48_o0_0_S16384x24 : S16384x48.Slices ![0, 0] S16384x24
  slices_S16384x48_o0_24_S16384x24 : S16384x48.Slices ![0, 24] S16384x24
  broadcasts_S16384x1_S16384x24 : S16384x1.Broadcasts S16384x24
  inb_S24x3_S24x3_0_0 : ∀ a, (![0, 0] : Fin 2 → Nat) a + S24x3.size a ≤ S24x3.size a
  h_S24x3 : 0 < S24x3.numel
  shapeCasts_S24x3_S24x3 : S24x3.ShapeCasts S24x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S16384x3 : S1x3.Broadcasts S16384x3
  inb_S16384x3_S16384x3_0_0 : ∀ a, (![0, 0] : Fin 2 → Nat) a + S16384x3.size a ≤ S16384x3.size a
  h_S16384x3 : 0 < S16384x3.numel
  dot_S16384x64_S64x32_S16384x32_1_0_0_1_n_n_wf : DotDims.WF S16384x64 S64x32 S16384x32 [1] [0] [0] [1] [] []
  dot_S16384x24_S24x24_S16384x24_1_0_0_1_n_n_wf : DotDims.WF S16384x24 S24x24 S16384x24 [1] [0] [0] [1] [] []
  dot_S16384x8_S8x2_S16384x2_1_0_0_1_n_n_wf : DotDims.WF S16384x8 S8x2 S16384x2 [1] [0] [0] [1] [] []
  dot_S16384x24_S24x48_S16384x48_1_0_0_1_n_n_wf : DotDims.WF S16384x24 S24x48 S16384x48 [1] [0] [0] [1] [] []
  dot_S16384x24_S24x3_S16384x3_1_0_0_1_n_n_wf : DotDims.WF S16384x24 S24x3 S16384x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S1048576x64.size a
  hwx0_0 : ∀ i : grid0.Coords, EltTy.bits .f32 = 32 ∨ (Rect.block (s := S1048576x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x24.size a ≤ S24x24.size a
  hwx0_3 : ∀ i : grid0.Coords, EltTy.bits .f32 = 32 ∨ (Rect.block (s := S24x24) S24x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x24.size a ≤ S1x24.size a
  hwx0_4 : ∀ i : grid0.Coords, EltTy.bits .f32 = 32 ∨ (Rect.block (s := S1x24) S1x24.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x48.size a ≤ S24x48.size a
  hwx0_5 : ∀ i : grid0.Coords, EltTy.bits .f32 = 32 ∨ (Rect.block (s := S24x48) S24x48.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x48.size a ≤ S1x48.size a
  hwx0_6 : ∀ i : grid0.Coords, EltTy.bits .f32 = 32 ∨ (Rect.block (s := S1x48) S1x48.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x2.size a ≤ S8x2.size a
  hwx0_7 : ∀ i : grid0.Coords, EltTy.bits .f32 = 32 ∨ (Rect.block (s := S8x2) S8x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S24x3.size a ≤ S24x3.size a
  hwx0_9 : ∀ i : grid0.Coords, EltTy.bits .f32 = 32 ∨ (Rect.block (s := S24x3) S24x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16384x3.size a ≤ S1048576x3.size a
  hwx0_11 : ∀ i : grid0.Coords, EltTy.bits .f32 = 32 ∨ (Rect.block (s := S1048576x3) S16384x3.size (cc0_transform_11 i) (hinb0_11 i)).WholeWords (EltTy.packing .f32)

variable [Facts₀]

def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x24_S24x24_S16384x24_1_0_0_1_n_n : DotDims S16384x24 S24x24 S16384x24 where
  lhsContracting := [1]
  rhsContracting := [0]
  lhsNonContracting := [0]
  rhsNonContracting := [1]
  lhsBatch := []
  rhsBatch := []
  wf := dot_S16384x24_S24x24_S16384x24_1_0_0_1_n_n_wf
def dot_S16384x8_S8x2_S16384x2_1_0_0_1_n_n : DotDims S16384x8 S8x2 S16384x2 where
  lhsContracting := [1]
  rhsContracting := [0]
  lhsNonContracting := [0]
  rhsNonContracting := [1]
  lhsBatch := []
  rhsBatch := []
  wf := dot_S16384x8_S8x2_S16384x2_1_0_0_1_n_n_wf
def dot_S16384x24_S24x48_S16384x48_1_0_0_1_n_n : DotDims S16384x24 S24x48 S16384x48 where
  lhsContracting := [1]
  rhsContracting := [0]
  lhsNonContracting := [0]
  rhsNonContracting := [1]
  lhsBatch := []
  rhsBatch := []
  wf := dot_S16384x24_S24x48_S16384x48_1_0_0_1_n_n_wf
def dot_S16384x24_S24x3_S16384x3_1_0_0_1_n_n : DotDims S16384x24 S24x3 S16384x3 where
  lhsContracting := [1]
  rhsContracting := [0]
  lhsNonContracting := [0]
  rhsNonContracting := [1]
  lhsBatch := []
  rhsBatch := []
  wf := dot_S16384x24_S24x3_S16384x3_1_0_0_1_n_n_wf

abbrev win0_0 : Pipeline.Window sig grid0 :=
  Pipeline.Window.ofSpec (Memref.whole main_arg0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S24x48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S8x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S24x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S16384x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x24 : Shape := ⟨2, ![64, 24]⟩
abbrev S24 : Shape := ⟨1, ![24]⟩
abbrev S24x24 : Shape := ⟨2, ![24, 24]⟩
abbrev S64x8 : Shape := ⟨2, ![64, 8]⟩
abbrev S8 : Shape := ⟨1, ![8]⟩
abbrev S8x2 : Shape := ⟨2, ![8, 2]⟩
abbrev S2 : Shape := ⟨1, ![2]⟩
abbrev S24x1 : Shape := ⟨2, ![24, 1]⟩
abbrev S1 : Shape := ⟨1, ![1]⟩
abbrev S1x3 : Shape := ⟨2, ![1, 3]⟩
abbrev S1048576x24 : Shape := ⟨2, ![1048576, 24]⟩
abbrev S1x24 : Shape := ⟨2, ![1, 24]⟩
abbrev S1048576x8 : Shape := ⟨2, ![1048576, 8]⟩
abbrev S1x8 : Shape := ⟨2, ![1, 8]⟩
abbrev S1048576x2 : Shape := ⟨2, ![1048576, 2]⟩
abbrev S1x2 : Shape := ⟨2, ![1, 2]⟩
abbrev S_ : Shape := ⟨0, ![]⟩
abbrev S1048576 : Shape := ⟨1, ![1048576]⟩
abbrev S1048576x1 : Shape := ⟨2, ![1048576, 1]⟩
abbrev S1x1 : Shape := ⟨2, ![1, 1]⟩
abbrev S1048576x3 : Shape := ⟨2, ![1048576, 3]⟩

abbrev nBuf : Space → Nat
  | .hbm => 85
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x24, .f32⟩
  | .hbm, ⟨2, _⟩ => ⟨S24, .f32⟩
  | .hbm, ⟨3, _⟩ => ⟨S24x24, .f32⟩
  | .hbm, ⟨4, _⟩ => ⟨S24, .f32⟩
  | .hbm, ⟨5, _⟩ => ⟨S24x24, .f32⟩
  | .hbm, ⟨6, _⟩ => ⟨S24, .f32⟩
  | .hbm, ⟨7, _⟩ => ⟨S24x24, .f32⟩
  | .hbm, ⟨8, _⟩ => ⟨S24, .f32⟩
  | .hbm, ⟨9, _⟩ => ⟨S64x8, .f32⟩
  | .hbm, ⟨10, _⟩ => ⟨S8, .f32⟩
  | .hbm, ⟨11, _⟩ => ⟨S8x2, .f32⟩
  | .hbm, ⟨12, _⟩ => ⟨S2, .f32⟩
  | .hbm, ⟨13, _⟩ => ⟨S24x1, .f32⟩
  | .hbm, ⟨14, _⟩ => ⟨S1, .f32⟩
  | .hbm, ⟨15, _⟩ => ⟨S24x1, .f32⟩
  | .hbm, ⟨16, _⟩ => ⟨S1, .f32⟩
  | .hbm, ⟨17, _⟩ => ⟨S24x1, .f32⟩
  | .hbm, ⟨18, _⟩ => ⟨S1, .f32⟩
  | .hbm, ⟨19, _⟩ => ⟨S1x3, .f32⟩
  | .hbm, ⟨20, _⟩ => ⟨S1048576x24, .f32⟩
  | .hbm, ⟨21, _⟩ => ⟨S1x24, .f32⟩
  | .hbm, ⟨22, _⟩ => ⟨S1048576x24, .f32⟩
  | .hbm, ⟨23, _⟩ => ⟨S1048576x24, .f32⟩
  | .hbm, ⟨24, _⟩ => ⟨S1048576x24, .f32⟩
  | .hbm, ⟨25, _⟩ => ⟨S1048576x24, .f32⟩
  | .hbm, ⟨26, _⟩ => ⟨S1x24, .f32⟩
  | .hbm, ⟨27, _⟩ => ⟨S1048576x24, .f32⟩
  | .hbm, ⟨28, _⟩ => ⟨S1048576x24, .f32⟩
  | .hbm, ⟨29, _⟩ => ⟨S1048576x24, .f32⟩
  | .hbm, ⟨30, _⟩ => ⟨S1048576x24, .f32⟩
  | .hbm, ⟨31, _⟩ => ⟨S1x24, .f32⟩
  | .hbm, ⟨32, _⟩ => ⟨S1048576x24, .f32⟩
  | .hbm, ⟨33, _⟩ => ⟨S1048576x24, .f32⟩
  | .hbm, ⟨34, _⟩ => ⟨S1048576x24, .f32⟩
  | .hbm, ⟨35, _⟩ => ⟨S1048576x24, .f32⟩
  | .hbm, ⟨36, _⟩ => ⟨S1x24, .f32⟩
  | .hbm, ⟨37, _⟩ => ⟨S1048576x24, .f32⟩
  | .hbm, ⟨38, _⟩ => ⟨S1048576x24, .f32⟩
  | .hbm, ⟨39, _⟩ => ⟨S1048576x24, .f32⟩
  | .hbm, ⟨40, _⟩ => ⟨S1048576x8, .f32⟩
  | .hbm, ⟨41, _⟩ => ⟨S1x8, .f32⟩
  | .hbm, ⟨42, _⟩ => ⟨S1048576x8, .f32⟩
  | .hbm, ⟨43, _⟩ => ⟨S1048576x8, .f32⟩
  | .hbm, ⟨44, _⟩ => ⟨S1048576x8, .f32⟩
  | .hbm, ⟨45, _⟩ => ⟨S1048576x2, .f32⟩
  | .hbm, ⟨46, _⟩ => ⟨S1x2, .f32⟩
  | .hbm, ⟨47, _⟩ => ⟨S1048576x2, .f32⟩
  | .hbm, ⟨48, _⟩ => ⟨S1048576x2, .f32⟩
  | .hbm, ⟨49, _⟩ => ⟨S_, .f32⟩
  | .hbm, ⟨50, _⟩ => ⟨S1048576, .f32⟩
  | .hbm, ⟨51, _⟩ => ⟨S_, .f32⟩
  | .hbm, ⟨52, _⟩ => ⟨S1048576, .f32⟩
  | .hbm, ⟨53, _⟩ => ⟨S1048576, .f32⟩
  | .hbm, ⟨54, _⟩ => ⟨S1048576x1, .f32⟩
  | .hbm, ⟨55, _⟩ => ⟨S1048576x2, .f32⟩
  | .hbm, ⟨56, _⟩ => ⟨S1048576x2, .f32⟩
  | .hbm, ⟨57, _⟩ => ⟨S1048576x2, .f32⟩
  | .hbm, ⟨58, _⟩ => ⟨S_, .f32⟩
  | .hbm, ⟨59, _⟩ => ⟨S1048576, .f32⟩
  | .hbm, ⟨60, _⟩ => ⟨S1048576x1, .f32⟩
  | .hbm, ⟨61, _⟩ => ⟨S1048576x2, .f32⟩
  | .hbm, ⟨62, _⟩ => ⟨S1048576x2, .f32⟩
  | .hbm, ⟨63, _⟩ => ⟨S1048576x1, .f32⟩
  | .hbm, ⟨64, _⟩ => ⟨S1048576x24, .f32⟩
  | .hbm, ⟨65, _⟩ => ⟨S1048576x24, .f32⟩
  | .hbm, ⟨66, _⟩ => ⟨S1048576x1, .f32⟩
  | .hbm, ⟨67, _⟩ => ⟨S1048576x24, .f32⟩
  | .hbm, ⟨68, _⟩ => ⟨S1048576x24, .f32⟩
  | .hbm, ⟨69, _⟩ => ⟨S1048576x24, .f32⟩
  | .hbm, ⟨70, _⟩ => ⟨S1048576x1, .f32⟩
  | .hbm, ⟨71, _⟩ => ⟨S1x1, .f32⟩
  | .hbm, ⟨72, _⟩ => ⟨S1048576x1, .f32⟩
  | .hbm, ⟨73, _⟩ => ⟨S1048576x1, .f32⟩
  | .hbm, ⟨74, _⟩ => ⟨S1048576x1, .f32⟩
  | .hbm, ⟨75, _⟩ => ⟨S1x1, .f32⟩
  | .hbm, ⟨76, _⟩ => ⟨S1048576x1, .f32⟩
  | .hbm, ⟨77, _⟩ => ⟨S1048576x1, .f32⟩
  | .hbm, ⟨78, _⟩ => ⟨S1048576x1, .f32⟩
  | .hbm, ⟨79, _⟩ => ⟨S1x1, .f32⟩
  | .hbm, ⟨80, _⟩ => ⟨S1048576x1, .f32⟩
  | .hbm, ⟨81, _⟩ => ⟨S1048576x1, .f32⟩
  | .hbm, ⟨82, _⟩ => ⟨S1048576x3, .f32⟩
  | .hbm, ⟨83, _⟩ => ⟨S1048576x3, .f32⟩
  | .hbm, ⟨84, _⟩ => ⟨S1048576x3, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst : Ref sig .tc := ⟨.hbm, 49, rfl⟩
abbrev main_v29 : Ref sig .tc := ⟨.hbm, 50, rfl⟩
abbrev main_cst_0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  bcast_S24_S1x24_1 : S24.BroadcastsInDim S1x24 (![1] : Fin 1 → Fin S1x24.rank)
  bcast_S1x24_S1048576x24_0_1 : S1x24.BroadcastsInDim S1048576x24 (![0, 1] : Fin 2 → Fin S1048576x24.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  reducesTo_S1048576x2_S1048576_d1 : S1048576x2.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x2_0_1 : S1048576x1.BroadcastsInDim S1048576x2 (![0, 1] : Fin 2 → Fin S1048576x2.rank)
  slices_S1048576x2_S1048576x1_0_0 : S1048576x2.Slices ![0, 0] S1048576x1
  bcast_S1048576x1_S1048576x24_0_1 : S1048576x1.BroadcastsInDim S1048576x24 (![0, 1] : Fin 2 → Fin S1048576x24.rank)
  slices_S1048576x2_S1048576x1_0_1 : S1048576x2.Slices ![0, 1] S1048576x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  concatenates_S1048576x1_S1048576x1_S1048576x1_S1048576x3_d1 : Shape.Concatenates [S1048576x1, S1048576x1, S1048576x1] S1048576x3 1
  bcast_S1x3_S1048576x3_0_1 : S1x3.BroadcastsInDim S1048576x3 (![0, 1] : Fin 2 → Fin S1048576x3.rank)
  dot_S1048576x64_S64x24_S1048576x24_1_0_0_1_n_n_wf : DotDims.WF S1048576x64 S64x24 S1048576x24 [1] [0] [0] [1] [] []
  dot_S1048576x24_S24x24_S1048576x24_1_0_0_1_n_n_wf : DotDims.WF S1048576x24 S24x24 S1048576x24 [1] [0] [0] [1] [] []
  dot_S1048576x64_S64x8_S1048576x8_1_0_0_1_n_n_wf : DotDims.WF S1048576x64 S64x8 S1048576x8 [1] [0] [0] [1] [] []
  dot_S1048576x8_S8x2_S1048576x2_1_0_0_1_n_n_wf : DotDims.WF S1048576x8 S8x2 S1048576x2 [1] [0] [0] [1] [] []
  dot_S1048576x24_S24x1_S1048576x1_1_0_0_1_n_n_wf : DotDims.WF S1048576x24 S24x1 S1048576x1 [1] [0] [0] [1] [] []

variable [Facts₀]

def dot_S1048576x64_S64x24_S1048576x24_1_0_0_1_n_n : DotDims S1048576x64 S64x24 S1048576x24 where
  lhsContracting := [1]
  rhsContracting := [0]
  lhsNonContracting := [0]
  rhsNonContracting := [1]
  lhsBatch := []
  rhsBatch := []
  wf := dot_S1048576x64_S64x24_S1048576x24_1_0_0_1_n_n_wf
def dot_S1048576x24_S24x24_S1048576x24_1_0_0_1_n_n : DotDims S1048576x24 S24x24 S1048576x24 where
  lhsContracting := [1]
  rhsContracting := [0]
  lhsNonContracting := [0]
  rhsNonContracting := [1]
  lhsBatch := []
  rhsBatch := []
  wf := dot_S1048576x24_S24x24_S1048576x24_1_0_0_1_n_n_wf
def dot_S1048576x64_S64x8_S1048576x8_1_0_0_1_n_n : DotDims S1048576x64 S64x8 S1048576x8 where
  lhsContracting := [1]
  rhsContracting := [0]
  lhsNonContracting := [0]
  rhsNonContracting := [1]
  lhsBatch := []
  rhsBatch := []
  wf := dot_S1048576x64_S64x8_S1048576x8_1_0_0_1_n_n_wf
def dot_S1048576x8_S8x2_S1048576x2_1_0_0_1_n_n : DotDims S1048576x8 S8x2 S1048576x2 where
  lhsContracting := [1]
  rhsContracting := [0]
  lhsNonContracting := [0]
  rhsNonContracting := [1]
  lhsBatch := []
  rhsBatch := []
  wf := dot_S1048576x8_S8x2_S1048576x2_1_0_0_1_n_n_wf
def dot_S1048576x24_S24x1_S1048576x1_1_0_0_1_n_n : DotDims S1048576x24 S24x1 S1048576x1 where
  lhsContracting := [1]
  rhsContracting := [0]
  lhsNonContracting := [0]
  rhsNonContracting := [1]
  lhsBatch := []
  rhsBatch := []
  wf := dot_S1048576x24_S24x1_S1048576x1_1_0_0_1_n_n_wf

class Facts : Prop extends Facts₀ where

variable [Facts]
-- ==== Proof.FrameKernel.lean ====
/-
  The frame of the program: its @main is twelve host operations that lay the fused parameters out (joins of the
  separate weight matrices and bias vectors, re-shapes of vectors to one-row matrices, one addition) and then ONE
  pipelined call over 64 grid points. At point `t` the pipeline hands the body block `t` (16384 rows) of the batch,
  the whole of each of the ten parameter arrays, and a buffer for block `t` of the result; the body loads the eleven
  inputs whole, computes, and overwrites the result buffer whole with ONE store. So:

  * every input's staging buffer holds, at every point, that window's block of the array as the call found it
    (`iblk`): the batch's block is fetched at every point, a parameter array once, at the first point, and its
    block index never moves;
  * the result buffer after the body is that one store's value over the input blocks (`out0_11`), nothing of what
    the buffer held before: the store's rectangle is the whole buffer;
  * no host operation writes an argument array and the call writes only the result's array, so every argument
    ends as launched.

  The run is the library's frame launch theorem applied to this proof data; its post names the result array
  after the run, which the value proof reads.
-/
import proofs.«101308_j75230647156978_2_alg».proof.Proof.Gen.Kernel.Launch
import proofs.«101308_j75230647156978_2_alg».proof.Proof.Gen.Kernel.Skeleton
import proofs.«101308_j75230647156978_2_alg».proof.Proof.Gen.Kernel.Points
import Idealize.ShloMosaic.Lib.Pipeline.FrameBody
import Idealize.ShloMosaic.Lib.Ring
import Idealize.ShloMosaic.Lib.Tactic

set_option maxRecDepth 65536

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- The core's arrays when the call is entered: the launch contents after the twelve host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it
    there or not (an unfetched window's block index has not moved), for any proof data over these arrays whose body
    leaves the inputs in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument array ends as launched: an array a window stages is an input's, which the run returns
    unchanged; any other array is outside the call; and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 7).trans (((dats 0 c).arrAt_in 7 rfl _).trans ((hA c 7).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

/-! ## The body's accesses: every load and the store take the whole buffer -/

abbrev r0 : Rect S16384x64 := Rect.unit (s := S16384x64) ![0, 0] S16384x64.size inb_S16384x64_S16384x64_0_0
abbrev r1 : Rect S64x32 := Rect.unit (s := S64x32) ![0, 0] S64x32.size inb_S64x32_S64x32_0_0
abbrev r2 : Rect S1x32 := Rect.unit (s := S1x32) ![0, 0] S1x32.size inb_S1x32_S1x32_0_0
abbrev r3 : Rect S24x24 := Rect.unit (s := S24x24) ![0, 0] S24x24.size inb_S24x24_S24x24_0_0
abbrev r4 : Rect S1x24 := Rect.unit (s := S1x24) ![0, 0] S1x24.size inb_S1x24_S1x24_0_0
abbrev r5 : Rect S24x48 := Rect.unit (s := S24x48) ![0, 0] S24x48.size inb_S24x48_S24x48_0_0
abbrev r6 : Rect S1x48 := Rect.unit (s := S1x48) ![0, 0] S1x48.size inb_S1x48_S1x48_0_0
abbrev r7 : Rect S8x2 := Rect.unit (s := S8x2) ![0, 0] S8x2.size inb_S8x2_S8x2_0_0
abbrev r8 : Rect S1x2 := Rect.unit (s := S1x2) ![0, 0] S1x2.size inb_S1x2_S1x2_0_0
abbrev r9 : Rect S24x3 := Rect.unit (s := S24x3) ![0, 0] S24x3.size inb_S24x3_S24x3_0_0
abbrev r10 : Rect S1x3 := Rect.unit (s := S1x3) ![0, 0] S1x3.size inb_S1x3_S1x3_0_0
abbrev r11 : Rect S16384x3 := Rect.unit (s := S16384x3) ![0, 0] S16384x3.size inb_S16384x3_S16384x3_0_0

/-! ## What the body leaves in the result window's buffer -/

/-- The result buffer after the body, from the input blocks: its one store. -/
def out0_11 (x0 : Vec F S16384x64 .f32) (x1 : Vec F S64x32 .f32) (x2 : Vec F S1x32 .f32) (x3 : Vec F S24x24 .f32) (x4 : Vec F S1x24 .f32) (x5 : Vec F S24x48 .f32) (x6 : Vec F S1x48 .f32) (x7 : Vec F S8x2 .f32) (x8 : Vec F S1x2 .f32) (x9 : Vec F S24x3 .f32) (x10 : Vec F S1x3 .f32) : Vec F S16384x3 .f32 :=
  View.canon [⟨r11, k0_pay1 (k0_pay3 (View.ld x0 r0) (View.ld x1 r1) (View.ld x2 r2) (View.ld x7 r7) (View.ld x8 r8)) (k0_pay4 (View.ld x0 r0) (View.ld x1 r1) (View.ld x2 r2) (View.ld x3 r3) (View.ld x4 r4) (View.ld x5 r5) (View.ld x6 r6)) (k0_pay5 (View.ld x0 r0) (View.ld x1 r1) (View.ld x2 r2) (View.ld x3 r3) (View.ld x4 r4) (View.ld x5 r5) (View.ld x6 r6)) (View.ld x9 r9) (View.ld x10 r10)⟩]

/-- The store's rectangle is the whole buffer. -/
theorem cover0_11 (p0 : Vec F S16384x3 .f32) (y : S16384x3.Idx) :
    ∃ pc ∈ ([⟨r11, p0⟩] : List (View.Piece (Elt F) S16384x3 .f32)), y ∈ pc.1.set :=
  View.cover_of_tiled [⟨r11, p0⟩] S16384x3.size (by rfl) y

/-! ## The body's triple -/

set_option maxHeartbeats 4000000 in
/-- The body on whole staging buffers, the inputs' at contents `xW` and the result's at anything, returns holding
    the inputs' as they were and the result's at `out0_11` of the inputs'. -/
theorem sound_kernel (c : Dev nD) (E : Set ℕ) (i : grid0.Coords) (arg0 : Memref sig .tc .vmem S16384x64 .f32) (harg0 : arg0.IsWhole) (arg1 : Memref sig .tc .vmem S64x32 .f32) (harg1 : arg1.IsWhole) (arg2 : Memref sig .tc .vmem S1x32 .f32) (harg2 : arg2.IsWhole) (arg3 : Memref sig .tc .vmem S24x24 .f32) (harg3 : arg3.IsWhole) (arg4 : Memref sig .tc .vmem S1x24 .f32) (harg4 : arg4.IsWhole) (arg5 : Memref sig .tc .vmem S24x48 .f32) (harg5 : arg5.IsWhole) (arg6 : Memref sig .tc .vmem S1x48 .f32) (harg6 : arg6.IsWhole) (arg7 : Memref sig .tc .vmem S8x2 .f32) (harg7 : arg7.IsWhole) (arg8 : Memref sig .tc .vmem S1x2 .f32) (harg8 : arg8.IsWhole) (arg9 : Memref sig .tc .vmem S24x3 .f32) (harg9 : arg9.IsWhole) (arg10 : Memref sig .tc .vmem S1x3 .f32) (harg10 : arg10.IsWhole) (arg11 : Memref sig .tc .vmem S16384x3 .f32) (harg11 : arg11.IsWhole)
    (x0 : Vec F S16384x64 .f32) (x1 : Vec F S64x32 .f32) (x2 : Vec F S1x32 .f32) (x3 : Vec F S24x24 .f32) (x4 : Vec F S1x24 .f32) (x5 : Vec F S24x48 .f32) (x6 : Vec F S1x48 .f32) (x7 : Vec F S8x2 .f32) (x8 : Vec F S1x2 .f32) (x9 : Vec F S24x3 .f32) (x10 : Vec F S1x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10)) -∗ K ⟨⟩))
      ⊢ wp frame (wpE (defs₀ (F := F)) Variants.none c none) E (cc0__kernel i arg0 harg0 arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The pipeline's proof data -/

/-- The arrays as the call finds them; after the body at point `t` each input's buffer at its block and the
    result's at `out0_11` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the proof data says and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twenty argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)) :=
  frame_of m ρ (dats m) (A_eq m) (run_main m ρ)

end Cert.Kernel.Fr

end
-- ==== Proof.FrameIdeal.lean ====
/-
  The frame of the program: its @main is twelve host operations that lay the fused parameters out (joins of the
  separate weight matrices and bias vectors, re-shapes of vectors to one-row matrices, one addition) and then ONE
  pipelined call over 64 grid points. At point `t` the pipeline hands the body block `t` (16384 rows) of the batch,
  the whole of each of the ten parameter arrays, and a buffer for block `t` of the result; the body loads the eleven
  inputs whole, computes, and overwrites the result buffer whole with ONE store. So:

  * every input's staging buffer holds, at every point, that window's block of the array as the call found it
    (`iblk`): the batch's block is fetched at every point, a parameter array once, at the first point, and its
    block index never moves;
  * the result buffer after the body is that one store's value over the input blocks (`out0_11`), nothing of what
    the buffer held before: the store's rectangle is the whole buffer;
  * no host operation writes an argument array and the call writes only the result's array, so every argument
    ends as launched.

  The run is the library's frame launch theorem applied to this proof data; its post names the result array
  after the run, which the value proof reads.
-/
import proofs.«101308_j75230647156978_2_alg».proof.Proof.Gen.KernelIdeal.Launch
import proofs.«101308_j75230647156978_2_alg».proof.Proof.Gen.KernelIdeal.Skeleton
import proofs.«101308_j75230647156978_2_alg».proof.Proof.Gen.KernelIdeal.Points
import Idealize.ShloMosaic.Lib.Pipeline.FrameBody
import Idealize.ShloMosaic.Lib.Ring
import Idealize.ShloMosaic.Lib.Tactic

set_option maxRecDepth 65536

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- The core's arrays when the call is entered: the launch contents after the twelve host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it
    there or not (an unfetched window's block index has not moved), for any proof data over these arrays whose body
    leaves the inputs in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument array ends as launched: an array a window stages is an input's, which the run returns
    unchanged; any other array is outside the call; and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 7).trans (((dats 0 c).arrAt_in 7 rfl _).trans ((hA c 7).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

/-! ## The body's accesses: every load and the store take the whole buffer -/

abbrev r0 : Rect S16384x64 := Rect.unit (s := S16384x64) ![0, 0] S16384x64.size inb_S16384x64_S16384x64_0_0
abbrev r1 : Rect S64x32 := Rect.unit (s := S64x32) ![0, 0] S64x32.size inb_S64x32_S64x32_0_0
abbrev r2 : Rect S1x32 := Rect.unit (s := S1x32) ![0, 0] S1x32.size inb_S1x32_S1x32_0_0
abbrev r3 : Rect S24x24 := Rect.unit (s := S24x24) ![0, 0] S24x24.size inb_S24x24_S24x24_0_0
abbrev r4 : Rect S1x24 := Rect.unit (s := S1x24) ![0, 0] S1x24.size inb_S1x24_S1x24_0_0
abbrev r5 : Rect S24x48 := Rect.unit (s := S24x48) ![0, 0] S24x48.size inb_S24x48_S24x48_0_0
abbrev r6 : Rect S1x48 := Rect.unit (s := S1x48) ![0, 0] S1x48.size inb_S1x48_S1x48_0_0
abbrev r7 : Rect S8x2 := Rect.unit (s := S8x2) ![0, 0] S8x2.size inb_S8x2_S8x2_0_0
abbrev r8 : Rect S1x2 := Rect.unit (s := S1x2) ![0, 0] S1x2.size inb_S1x2_S1x2_0_0
abbrev r9 : Rect S24x3 := Rect.unit (s := S24x3) ![0, 0] S24x3.size inb_S24x3_S24x3_0_0
abbrev r10 : Rect S1x3 := Rect.unit (s := S1x3) ![0, 0] S1x3.size inb_S1x3_S1x3_0_0
abbrev r11 : Rect S16384x3 := Rect.unit (s := S16384x3) ![0, 0] S16384x3.size inb_S16384x3_S16384x3_0_0

/-! ## What the body leaves in the result window's buffer -/

/-- The result buffer after the body, from the input blocks: its one store. -/
def out0_11 (x0 : Vec F S16384x64 .f32) (x1 : Vec F S64x32 .f32) (x2 : Vec F S1x32 .f32) (x3 : Vec F S24x24 .f32) (x4 : Vec F S1x24 .f32) (x5 : Vec F S24x48 .f32) (x6 : Vec F S1x48 .f32) (x7 : Vec F S8x2 .f32) (x8 : Vec F S1x2 .f32) (x9 : Vec F S24x3 .f32) (x10 : Vec F S1x3 .f32) : Vec F S16384x3 .f32 :=
  View.canon [⟨r11, k0_pay1 (k0_pay3 (View.ld x0 r0) (View.ld x1 r1) (View.ld x2 r2) (View.ld x7 r7) (View.ld x8 r8)) (k0_pay4 (View.ld x0 r0) (View.ld x1 r1) (View.ld x2 r2) (View.ld x3 r3) (View.ld x4 r4) (View.ld x5 r5) (View.ld x6 r6)) (k0_pay5 (View.ld x0 r0) (View.ld x1 r1) (View.ld x2 r2) (View.ld x3 r3) (View.ld x4 r4) (View.ld x5 r5) (View.ld x6 r6)) (View.ld x9 r9) (View.ld x10 r10)⟩]

/-- The store's rectangle is the whole buffer. -/
theorem cover0_11 (p0 : Vec F S16384x3 .f32) (y : S16384x3.Idx) :
    ∃ pc ∈ ([⟨r11, p0⟩] : List (View.Piece (Elt F) S16384x3 .f32)), y ∈ pc.1.set :=
  View.cover_of_tiled [⟨r11, p0⟩] S16384x3.size (by rfl) y

/-! ## The body's triple -/

set_option maxHeartbeats 4000000 in
/-- The body on whole staging buffers, the inputs' at contents `xW` and the result's at anything, returns holding
    the inputs' as they were and the result's at `out0_11` of the inputs'. -/
theorem sound_kernel (c : Dev nD) (E : Set ℕ) (i : grid0.Coords) (arg0 : Memref sig .tc .vmem S16384x64 .f32) (harg0 : arg0.IsWhole) (arg1 : Memref sig .tc .vmem S64x32 .f32) (harg1 : arg1.IsWhole) (arg2 : Memref sig .tc .vmem S1x32 .f32) (harg2 : arg2.IsWhole) (arg3 : Memref sig .tc .vmem S24x24 .f32) (harg3 : arg3.IsWhole) (arg4 : Memref sig .tc .vmem S1x24 .f32) (harg4 : arg4.IsWhole) (arg5 : Memref sig .tc .vmem S24x48 .f32) (harg5 : arg5.IsWhole) (arg6 : Memref sig .tc .vmem S1x48 .f32) (harg6 : arg6.IsWhole) (arg7 : Memref sig .tc .vmem S8x2 .f32) (harg7 : arg7.IsWhole) (arg8 : Memref sig .tc .vmem S1x2 .f32) (harg8 : arg8.IsWhole) (arg9 : Memref sig .tc .vmem S24x3 .f32) (harg9 : arg9.IsWhole) (arg10 : Memref sig .tc .vmem S1x3 .f32) (harg10 : arg10.IsWhole) (arg11 : Memref sig .tc .vmem S16384x3 .f32) (harg11 : arg11.IsWhole)
    (x0 : Vec F S16384x64 .f32) (x1 : Vec F S64x32 .f32) (x2 : Vec F S1x32 .f32) (x3 : Vec F S24x24 .f32) (x4 : Vec F S1x24 .f32) (x5 : Vec F S24x48 .f32) (x6 : Vec F S1x48 .f32) (x7 : Vec F S8x2 .f32) (x8 : Vec F S1x2 .f32) (x9 : Vec F S24x3 .f32) (x10 : Vec F S1x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10)) -∗ K ⟨⟩))
      ⊢ wp frame (wpE (defs₀ (F := F)) Variants.none c none) E (cc0__kernel i arg0 harg0 arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The pipeline's proof data -/

/-- The arrays as the call finds them; after the body at point `t` each input's buffer at its block and the
    result's at `out0_11` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the proof data says and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twenty argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)) :=
  frame_of m ρ (dats m) (A_eq m) (run_main m ρ)

end Cert.KernelIdeal.Fr

end
-- ==== Proof.Spec.lean ====
/-
  The mathematics both programs compute, one row of the batch at a time, on the extended reals.

  A row `x : Fin 64 → EReal` goes through a two-layer tanh backbone (64 → 24 → 24), two tanh experts (24 → 24
  each) fed by the backbone, a gate (64 → 8 by tanh, then 8 → 2 affine) whose two logits weigh the experts, and
  three linear heads (24 → 1 each) plus a learned offset.

  `outCat` is the arrangement with FUSED layers: the backbone's first layer and the gate's first layer are one
  64 → 32 layer whose first 24 columns are the backbone's and last 8 the gate's; the two experts are one 24 → 48
  layer; the three heads are one 24 → 3 layer whose bias already contains the offset; and the first expert's
  weight is the logistic of the difference of the two logits, the mix written `e₂ + w₀ · (e₁ − e₂)`.

  `outR` is the arrangement with SEPARATE layers, the weights the two-way softmax
  `exp (l_c − max l₀ l₁) / (exp (l₀ − max) + exp (l₁ − max))`, the mix `w₀ · e₁ + w₁ · e₂`, each head with its own
  bias and the offset added last.

  `hcat`, `vcat`, `sel3` say how the fused layers' parameters are laid out from the separate ones.
-/
import Idealize.ShloMosaic.PureOps.Ideal

noncomputable section

namespace Cert.Moe

open Idealize.ShloMosaic

/-- One column of an affine layer: `(∑ k, a k · W k c) + b c`. -/
def aff {K N : ℕ} (a : Fin K → EReal) (W : Fin K → Fin N → EReal) (b : Fin N → EReal) (c : Fin N) : EReal :=
  (∑ k : Fin K, a k * W k c) + b c

/-- Two matrices with the same rows side by side: the columns of `A`, then the columns of `B` (column `c` of the
    result is column `c` of `A` for `c < a`, column `c - a` of `B` after that). -/
def hcat {K a b : ℕ} (n : ℕ) (A : Fin K → Fin a → EReal) (B : Fin K → Fin b → EReal) (k : Fin K) (c : Fin n) : EReal :=
  if h : c.val < a then A k ⟨c.val, h⟩ else if h' : c.val - a < b then B k ⟨c.val - a, h'⟩ else 0

/-- Two vectors end to end. -/
def vcat {a b : ℕ} (n : ℕ) (u : Fin a → EReal) (v : Fin b → EReal) (c : Fin n) : EReal :=
  if h : c.val < a then u ⟨c.val, h⟩ else if h' : c.val - a < b then v ⟨c.val - a, h'⟩ else 0

/-- Three numbers as a vector of length three. -/
def sel3 (a b c : EReal) (j : Fin 3) : EReal := if j.val = 0 then a else if j.val = 1 then b else c

/-! ## The fused arrangement -/

/-- The fused first layer: 32 tanh units of the row. -/
def cat1 (x : Fin 64 → EReal) (Wc : Fin 64 → Fin 32 → EReal) (bc : Fin 32 → EReal) (c : Fin 32) : EReal :=
  Ideal.tanh (aff x Wc bc c)

/-- Its first 24 units (the backbone's hidden layer). -/
def cat1Lo (x : Fin 64 → EReal) (Wc : Fin 64 → Fin 32 → EReal) (bc : Fin 32 → EReal) (k : Fin 24) : EReal :=
  cat1 x Wc bc ⟨k.val, by omega⟩

/-- Its last 8 units (the gate's hidden layer). -/
def cat1Hi (x : Fin 64 → EReal) (Wc : Fin 64 → Fin 32 → EReal) (bc : Fin 32 → EReal) (k : Fin 8) : EReal :=
  cat1 x Wc bc ⟨24 + k.val, by omega⟩

/-- The backbone's second layer. -/
def hidC (x : Fin 64 → EReal) (Wc : Fin 64 → Fin 32 → EReal) (bc : Fin 32 → EReal)
    (W2 : Fin 24 → Fin 24 → EReal) (b2 : Fin 24 → EReal) (c : Fin 24) : EReal :=
  Ideal.tanh (aff (cat1Lo x Wc bc) W2 b2 c)

/-- The gate's two logits. -/
def logitC (x : Fin 64 → EReal) (Wc : Fin 64 → Fin 32 → EReal) (bc : Fin 32 → EReal)
    (G2 : Fin 8 → Fin 2 → EReal) (d2 : Fin 2 → EReal) (c : Fin 2) : EReal :=
  aff (cat1Hi x Wc bc) G2 d2 c

/-- The fused experts: 48 tanh units of the backbone's output. -/
def catE (x : Fin 64 → EReal) (Wc : Fin 64 → Fin 32 → EReal) (bc : Fin 32 → EReal)
    (W2 : Fin 24 → Fin 24 → EReal) (b2 : Fin 24 → EReal)
    (We : Fin 24 → Fin 48 → EReal) (be : Fin 48 → EReal) (c : Fin 48) : EReal :=
  Ideal.tanh (aff (hidC x Wc bc W2 b2) We be c)

/-- The mix `e₂ + σ(l₀ − l₁) · (e₁ − e₂)`, the first expert the first 24 fused units, the second the last 24. -/
def mixC (x : Fin 64 → EReal) (Wc : Fin 64 → Fin 32 → EReal) (bc : Fin 32 → EReal)
    (W2 : Fin 24 → Fin 24 → EReal) (b2 : Fin 24 → EReal)
    (We : Fin 24 → Fin 48 → EReal) (be : Fin 48 → EReal)
    (G2 : Fin 8 → Fin 2 → EReal) (d2 : Fin 2 → EReal) (c : Fin 24) : EReal :=
  catE x Wc bc W2 b2 We be ⟨24 + c.val, by omega⟩
    + Ideal.logistic (logitC x Wc bc G2 d2 0 - logitC x Wc bc G2 d2 1)
      * (catE x Wc bc W2 b2 We be ⟨c.val, by omega⟩ - catE x Wc bc W2 b2 We be ⟨24 + c.val, by omega⟩)

/-- The fused arrangement's result for the row: the fused heads of the mix. -/
def outCat (x : Fin 64 → EReal) (Wc : Fin 64 → Fin 32 → EReal) (bc : Fin 32 → EReal)
    (W2 : Fin 24 → Fin 24 → EReal) (b2 : Fin 24 → EReal)
    (We : Fin 24 → Fin 48 → EReal) (be : Fin 48 → EReal)
    (G2 : Fin 8 → Fin 2 → EReal) (d2 : Fin 2 → EReal)
    (Wh : Fin 24 → Fin 3 → EReal) (bh : Fin 3 → EReal) (j : Fin 3) : EReal :=
  aff (mixC x Wc bc W2 b2 We be G2 d2) Wh bh j

/-! ## The separate arrangement -/

/-- The backbone: two tanh layers. -/
def hidR (x : Fin 64 → EReal) (W1 : Fin 64 → Fin 24 → EReal) (b1 : Fin 24 → EReal)
    (W2 : Fin 24 → Fin 24 → EReal) (b2 : Fin 24 → EReal) (c : Fin 24) : EReal :=
  Ideal.tanh (aff (fun k => Ideal.tanh (aff x W1 b1 k)) W2 b2 c)

/-- The gate's two logits. -/
def logitR (x : Fin 64 → EReal) (G1 : Fin 64 → Fin 8 → EReal) (d1 : Fin 8 → EReal)
    (G2 : Fin 8 → Fin 2 → EReal) (d2 : Fin 2 → EReal) (c : Fin 2) : EReal :=
  aff (fun k => Ideal.tanh (aff x G1 d1 k)) G2 d2 c

/-- The two-way softmax of two logits, stabilized by their maximum. -/
def softmax2 (l : Fin 2 → EReal) (c : Fin 2) : EReal :=
  Ideal.div (Ideal.exp (l c - max (l 0) (l 1)))
    (Ideal.exp (l 0 - max (l 0) (l 1)) + Ideal.exp (l 1 - max (l 0) (l 1)))

/-- The mix `w₀ · e₁ + w₁ · e₂`. -/
def mixR (x : Fin 64 → EReal) (W1 : Fin 64 → Fin 24 → EReal) (b1 : Fin 24 → EReal)
    (W2 : Fin 24 → Fin 24 → EReal) (b2 : Fin 24 → EReal)
    (E1 : Fin 24 → Fin 24 → EReal) (c1 : Fin 24 → EReal) (E2 : Fin 24 → Fin 24 → EReal) (c2 : Fin 24 → EReal)
    (G1 : Fin 64 → Fin 8 → EReal) (d1 : Fin 8 → EReal) (G2 : Fin 8 → Fin 2 → EReal) (d2 : Fin 2 → EReal)
    (c : Fin 24) : EReal :=
  softmax2 (logitR x G1 d1 G2 d2) 0 * Ideal.tanh (aff (hidR x W1 b1 W2 b2) E1 c1 c)
    + softmax2 (logitR x G1 d1 G2 d2) 1 * Ideal.tanh (aff (hidR x W1 b1 W2 b2) E2 c2 c)

/-- The separate arrangement's result for the row: each head of the mix with its bias, then the offset. -/
def outR (x : Fin 64 → EReal) (W1 : Fin 64 → Fin 24 → EReal) (b1 : Fin 24 → EReal)
    (W2 : Fin 24 → Fin 24 → EReal) (b2 : Fin 24 → EReal)
    (E1 : Fin 24 → Fin 24 → EReal) (c1 : Fin 24 → EReal) (E2 : Fin 24 → Fin 24 → EReal) (c2 : Fin 24 → EReal)
    (G1 : Fin 64 → Fin 8 → EReal) (d1 : Fin 8 → EReal) (G2 : Fin 8 → Fin 2 → EReal) (d2 : Fin 2 → EReal)
    (Hs Ht Hy : Fin 24 → EReal) (hs ht hy : EReal) (base : Fin 3 → EReal) (j : Fin 3) : EReal :=
  sel3 ((∑ k : Fin 24, mixR x W1 b1 W2 b2 E1 c1 E2 c2 G1 d1 G2 d2 k * Hs k) + hs)
       ((∑ k : Fin 24, mixR x W1 b1 W2 b2 E1 c1 E2 c2 G1 d1 G2 d2 k * Ht k) + ht)
       ((∑ k : Fin 24, mixR x W1 b1 W2 b2 E1 c1 E2 c2 G1 d1 G2 d2 k * Hy k) + hy) j + base j

end Cert.Moe

end
-- ==== Proof.KerArray.lean ====
/-
  The result array of the program with fused layers, from its blocks.

  The call runs over 64 grid points. At point t the body sees rows 16384·t … 16384·t + 16383 of the batch (all 64
  columns), every parameter array whole, and writes rows 16384·t … of the result (all 3 columns) with one store of
  its payload. Granted that the payload at row p, column j of a block is the fused arrangement's result for row p of
  the batch block (the hypothesis "PayHyp", proved elsewhere), this file shows:

  * what point t writes back is block t of ONE function G of the arrays as the call finds them: G at row r, column j
    is the fused arrangement's result for row r of the batch, head j. The reason: element (p, k) of the batch's block
    at point t is element (16384·t + p, k) of the batch, an element of a parameter's block is the same element of the
    parameter array (its block index is zero on both axes), and element (p, j) of the result's block at point t is
    element (16384·t + p, j) of the result array: a block's coordinate is the block index times the block's size plus
    the coordinate inside the block;
  * every index (r, j) of the result array lies in the block of point r / 16384, so the blocks cover the array;
  * hence after the run the result array is G, and the program's run can be re-posted with the result array named
    as G and its twenty argument arrays as launched.
-/
import proofs.«101308_j75230647156978_2_alg».proof.Proof.FrameIdeal
import proofs.«101308_j75230647156978_2_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KerArray

open Cert.KernelIdeal Cert.KernelIdeal.Gen Cert.KernelIdeal.Fr

variable (m : (ℓ : Loc nD τ sig) → Buf (Elt Ideal) ℓ) (ρ : Dev nD → PrngReg)

/-- The result array as one function of the arrays the call finds: at row r, column j, the fused arrangement's
    result for row r of the batch, head j. -/
def G (c : Dev nD) : S1048576x3.Idx → EReal := fun i =>
  Cert.Moe.outCat
      (fun k => (V m c main_arg0 : S1048576x64.Idx → EReal) (ix2 (⟨(i 0).val, idx2_lt0 i⟩ : Fin 1048576) k))
      (fun k c' => (V m c main_v0 : S64x32.Idx → EReal) (ix2 k c'))
      (fun c' => (V m c main_v2 : S1x32.Idx → EReal) (ix2 0 c'))
      (fun k c' => (V m c main_arg3 : S24x24.Idx → EReal) (ix2 k c'))
      (fun c' => (V m c main_v10 : S1x24.Idx → EReal) (ix2 0 c'))
      (fun k c' => (V m c main_v3 : S24x48.Idx → EReal) (ix2 k c'))
      (fun c' => (V m c main_v5 : S1x48.Idx → EReal) (ix2 0 c'))
      (fun k c' => (V m c main_arg11 : S8x2.Idx → EReal) (ix2 k c'))
      (fun c' => (V m c main_v11 : S1x2.Idx → EReal) (ix2 0 c'))
      (fun k c' => (V m c main_v6 : S24x3.Idx → EReal) (ix2 k c'))
      (fun c' => (V m c main_v9 : S1x3.Idx → EReal) (ix2 0 c'))
      (⟨(i 1).val, idx2_lt1 i⟩ : Fin 3)

/-- The payload of the body at row p, column j of a block is the fused arrangement's result for row p of the
    batch's block, head j. -/
abbrev PayHyp : Prop :=
  ∀ (x0 : Vec Ideal S16384x64 .f32) (x1 : Vec Ideal S64x32 .f32) (x2 : Vec Ideal S1x32 .f32) (x3 : Vec Ideal S24x24 .f32) (x4 : Vec Ideal S1x24 .f32) (x5 : Vec Ideal S24x48 .f32) (x6 : Vec Ideal S1x48 .f32) (x7 : Vec Ideal S8x2 .f32) (x8 : Vec Ideal S1x2 .f32) (x9 : Vec Ideal S24x3 .f32) (x10 : Vec Ideal S1x3 .f32) (p : Fin 16384) (j : Fin 3),
    k0_pay1 (F := Ideal) (k0_pay3 x0 x1 x2 x7 x8) (k0_pay4 x0 x1 x2 x3 x4 x5 x6) (k0_pay5 x0 x1 x2 x3 x4 x5 x6) x9 x10 (ix2 p j)
      = Cert.Moe.outCat
      (fun k => x0 (ix2 p k))
      (fun k c' => x1 (ix2 k c'))
      (fun c' => x2 (ix2 0 c'))
      (fun k c' => x3 (ix2 k c'))
      (fun c' => x4 (ix2 0 c'))
      (fun k c' => x5 (ix2 k c'))
      (fun c' => x6 (ix2 0 c'))
      (fun k c' => x7 (ix2 k c'))
      (fun c' => x8 (ix2 0 c'))
      (fun k c' => x9 (ix2 k c'))
      (fun c' => x10 (ix2 0 c')) j

theorem hz : (![0, 0] : Fin 2 → Nat) = fun _ => 0 := funext fun a => by fin_cases a <;> rfl

/-- The printed index maps, decided over the 64 grid points: the batch's and the result's block index is the point on
    the row axis and zero on the column axis; every parameter's is zero on both. -/
theorem idx_facts : ∀ t : Fin cfg0.N, win0_0.index t (0 : Fin 2) = t.val
    ∧ win0_0.index t (1 : Fin 2) = 0
    ∧ win0_11.index t (0 : Fin 2) = t.val
    ∧ win0_11.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Element (p, k) of the batch's block at point t is element (16384·t + p, k) of the batch. -/
theorem iblk0_apply (c : Dev nD) (t : Fin cfg0.N) (p : Fin 16384) (k : Fin 64) (r : Fin 1048576)
    (hr : r.val = t.val * 16384 + p.val) :
    (iblk m c 0 t : Vec Ideal S16384x64 .f32) (ix2 p k) = (V m c main_arg0 : S1048576x64.Idx → EReal) (ix2 r k) := by
  have e0 := (idx_facts t).1
  have e1 := (idx_facts t).2.1
  unfold iblk
  rw [View.read_apply]
  show V m c main_arg0 _ = V m c main_arg0 _
  refine congrArg (V m c main_arg0 : S1048576x64.Idx → EReal) ?_
  funext d
  apply Fin.ext
  match d with
  | ⟨0, _⟩ => show win0_0.index t (0 : Fin 2) * 16384 + 1 * p.val = r.val; rw [e0, hr]; omega
  | ⟨1, _⟩ => show win0_0.index t (1 : Fin 2) * 64 + 1 * k.val = k.val; rw [e1]; omega

/-- Window 1's block is its whole array at every point: the block index is zero on both axes. -/
theorem iblk1_apply (c : Dev nD) (t : Fin cfg0.N) (a : Fin 64) (b : Fin 32) :
    (iblk m c 1 t : Vec Ideal S64x32 .f32) (ix2 a b) = (V m c main_v0 : S64x32.Idx → EReal) (ix2 a b) := by
  have e0 := (idx_facts t).2.2.2.2.1
  have e1 := (idx_facts t).2.2.2.2.2.1
  unfold iblk
  rw [View.read_apply]
  show V m c main_v0 _ = V m c main_v0 _
  refine congrArg (V m c main_v0 : S64x32.Idx → EReal) ?_
  funext d
  apply Fin.ext
  match d with
  | ⟨0, _⟩ => show win0_1.index t (0 : Fin 2) * 64 + 1 * a.val = a.val; rw [e0]; omega
  | ⟨1, _⟩ => show win0_1.index t (1 : Fin 2) * 32 + 1 * b.val = b.val; rw [e1]; omega

/-- Window 2's block is its whole array at every point: the block index is zero on both axes. -/
theorem iblk2_apply (c : Dev nD) (t : Fin cfg0.N) (a : Fin 1) (b : Fin 32) :
    (iblk m c 2 t : Vec Ideal S1x32 .f32) (ix2 a b) = (V m c main_v2 : S1x32.Idx → EReal) (ix2 a b) := by
  have e0 := (idx_facts t).2.2.2.2.2.2.1
  have e1 := (idx_facts t).2.2.2.2.2.2.2.1
  unfold iblk
  rw [View.read_apply]
  show V m c main_v2 _ = V m c main_v2 _
  refine congrArg (V m c main_v2 : S1x32.Idx → EReal) ?_
  funext d
  apply Fin.ext
  match d with
  | ⟨0, _⟩ => show win0_2.index t (0 : Fin 2) * 1 + 1 * a.val = a.val; rw [e0]; omega
  | ⟨1, _⟩ => show win0_2.index t (1 : Fin 2) * 32 + 1 * b.val = b.val; rw [e1]; omega

/-- Window 3's block is its whole array at every point: the block index is zero on both axes. -/
theorem iblk3_apply (c : Dev nD) (t : Fin cfg0.N) (a : Fin 24) (b : Fin 24) :
    (iblk m c 3 t : Vec Ideal S24x24 .f32) (ix2 a b) = (V m c main_arg3 : S24x24.Idx → EReal) (ix2 a b) := by
  have e0 := (idx_facts t).2.2.2.2.2.2.2.2.1
  have e1 := (idx_facts t).2.2.2.2.2.2.2.2.2.1
  unfold iblk
  rw [View.read_apply]
  show V m c main_arg3 _ = V m c main_arg3 _
  refine congrArg (V m c main_arg3 : S24x24.Idx → EReal) ?_
  funext d
  apply Fin.ext
  match d with
  | ⟨0, _⟩ => show win0_3.index t (0 : Fin 2) * 24 + 1 * a.val = a.val; rw [e0]; omega
  | ⟨1, _⟩ => show win0_3.index t (1 : Fin 2) * 24 + 1 * b.val = b.val; rw [e1]; omega

/-- Window 4's block is its whole array at every point: the block index is zero on both axes. -/
theorem iblk4_apply (c : Dev nD) (t : Fin cfg0.N) (a : Fin 1) (b : Fin 24) :
    (iblk m c 4 t : Vec Ideal S1x24 .f32) (ix2 a b) = (V m c main_v10 : S1x24.Idx → EReal) (ix2 a b) := by
  have e0 := (idx_facts t).2.2.2.2.2.2.2.2.2.2.1
  have e1 := (idx_facts t).2.2.2.2.2.2.2.2.2.2.2.1
  unfold iblk
  rw [View.read_apply]
  show V m c main_v10 _ = V m c main_v10 _
  refine congrArg (V m c main_v10 : S1x24.Idx → EReal) ?_
  funext d
  apply Fin.ext
  match d with
  | ⟨0, _⟩ => show win0_4.index t (0 : Fin 2) * 1 + 1 * a.val = a.val; rw [e0]; omega
  | ⟨1, _⟩ => show win0_4.index t (1 : Fin 2) * 24 + 1 * b.val = b.val; rw [e1]; omega

/-- Window 5's block is its whole array at every point: the block index is zero on both axes. -/
theorem iblk5_apply (c : Dev nD) (t : Fin cfg0.N) (a : Fin 24) (b : Fin 48) :
    (iblk m c 5 t : Vec Ideal S24x48 .f32) (ix2 a b) = (V m c main_v3 : S24x48.Idx → EReal) (ix2 a b) := by
  have e0 := (idx_facts t).2.2.2.2.2.2.2.2.2.2.2.2.1
  have e1 := (idx_facts t).2.2.2.2.2.2.2.2.2.2.2.2.2.1
  unfold iblk
  rw [View.read_apply]
  show V m c main_v3 _ = V m c main_v3 _
  refine congrArg (V m c main_v3 : S24x48.Idx → EReal) ?_
  funext d
  apply Fin.ext
  match d with
  | ⟨0, _⟩ => show win0_5.index t (0 : Fin 2) * 24 + 1 * a.val = a.val; rw [e0]; omega
  | ⟨1, _⟩ => show win0_5.index t (1 : Fin 2) * 48 + 1 * b.val = b.val; rw [e1]; omega

/-- Window 6's block is its whole array at every point: the block index is zero on both axes. -/
theorem iblk6_apply (c : Dev nD) (t : Fin cfg0.N) (a : Fin 1) (b : Fin 48) :
    (iblk m c 6 t : Vec Ideal S1x48 .f32) (ix2 a b) = (V m c main_v5 : S1x48.Idx → EReal) (ix2 a b) := by
  have e0 := (idx_facts t).2.2.2.2.2.2.2.2.2.2.2.2.2.2.1
  have e1 := (idx_facts t).2.2.2.2.2.2.2.2.2.2.2.2.2.2.2.1
  unfold iblk
  rw [View.read_apply]
  show V m c main_v5 _ = V m c main_v5 _
  refine congrArg (V m c main_v5 : S1x48.Idx → EReal) ?_
  funext d
  apply Fin.ext
  match d with
  | ⟨0, _⟩ => show win0_6.index t (0 : Fin 2) * 1 + 1 * a.val = a.val; rw [e0]; omega
  | ⟨1, _⟩ => show win0_6.index t (1 : Fin 2) * 48 + 1 * b.val = b.val; rw [e1]; omega

/-- Window 7's block is its whole array at every point: the block index is zero on both axes. -/
theorem iblk7_apply (c : Dev nD) (t : Fin cfg0.N) (a : Fin 8) (b : Fin 2) :
    (iblk m c 7 t : Vec Ideal S8x2 .f32) (ix2 a b) = (V m c main_arg11 : S8x2.Idx → EReal) (ix2 a b) := by
  have e0 := (idx_facts t).2.2.2.2.2.2.2.2.2.2.2.2.2.2.2.2.1
  have e1 := (idx_facts t).2.2.2.2.2.2.2.2.2.2.2.2.2.2.2.2.2.1
  unfold iblk
  rw [View.read_apply]
  show V m c main_arg11 _ = V m c main_arg11 _
  refine congrArg (V m c main_arg11 : S8x2.Idx → EReal) ?_
  funext d
  apply Fin.ext
  match d with
  | ⟨0, _⟩ => show win0_7.index t (0 : Fin 2) * 8 + 1 * a.val = a.val; rw [e0]; omega
  | ⟨1, _⟩ => show win0_7.index t (1 : Fin 2) * 2 + 1 * b.val = b.val; rw [e1]; omega

/-- Window 8's block is its whole array at every point: the block index is zero on both axes. -/
theorem iblk8_apply (c : Dev nD) (t : Fin cfg0.N) (a : Fin 1) (b : Fin 2) :
    (iblk m c 8 t : Vec Ideal S1x2 .f32) (ix2 a b) = (V m c main_v11 : S1x2.Idx → EReal) (ix2 a b) := by
  have e0 := (idx_facts t).2.2.2.2.2.2.2.2.2.2.2.2.2.2.2.2.2.2.1
  have e1 := (idx_facts t).2.2.2.2.2.2.2.2.2.2.2.2.2.2.2.2.2.2.2.1
  unfold iblk
  rw [View.read_apply]
  show V m c main_v11 _ = V m c main_v11 _
  refine congrArg (V m c main_v11 : S1x2.Idx → EReal) ?_
  funext d
  apply Fin.ext
  match d with
  | ⟨0, _⟩ => show win0_8.index t (0 : Fin 2) * 1 + 1 * a.val = a.val; rw [e0]; omega
  | ⟨1, _⟩ => show win0_8.index t (1 : Fin 2) * 2 + 1 * b.val = b.val; rw [e1]; omega

/-- Window 9's block is its whole array at every point: the block index is zero on both axes. -/
theorem iblk9_apply (c : Dev nD) (t : Fin cfg0.N) (a : Fin 24) (b : Fin 3) :
    (iblk m c 9 t : Vec Ideal S24x3 .f32) (ix2 a b) = (V m c main_v6 : S24x3.Idx → EReal) (ix2 a b) := by
  have e0 := (idx_facts t).2.2.2.2.2.2.2.2.2.2.2.2.2.2.2.2.2.2.2.2.1
  have e1 := (idx_facts t).2.2.2.2.2.2.2.2.2.2.2.2.2.2.2.2.2.2.2.2.2.1
  unfold iblk
  rw [View.read_apply]
  show V m c main_v6 _ = V m c main_v6 _
  refine congrArg (V m c main_v6 : S24x3.Idx → EReal) ?_
  funext d
  apply Fin.ext
  match d with
  | ⟨0, _⟩ => show win0_9.index t (0 : Fin 2) * 24 + 1 * a.val = a.val; rw [e0]; omega
  | ⟨1, _⟩ => show win0_9.index t (1 : Fin 2) * 3 + 1 * b.val = b.val; rw [e1]; omega

/-- Window 10's block is its whole array at every point: the block index is zero on both axes. -/
theorem iblk10_apply (c : Dev nD) (t : Fin cfg0.N) (a : Fin 1) (b : Fin 3) :
    (iblk m c 10 t : Vec Ideal S1x3 .f32) (ix2 a b) = (V m c main_v9 : S1x3.Idx → EReal) (ix2 a b) := by
  have e0 := (idx_facts t).2.2.2.2.2.2.2.2.2.2.2.2.2.2.2.2.2.2.2.2.2.2.1
  have e1 := (idx_facts t).2.2.2.2.2.2.2.2.2.2.2.2.2.2.2.2.2.2.2.2.2.2.2
  unfold iblk
  rw [View.read_apply]
  show V m c main_v9 _ = V m c main_v9 _
  refine congrArg (V m c main_v9 : S1x3.Idx → EReal) ?_
  funext d
  apply Fin.ext
  match d with
  | ⟨0, _⟩ => show win0_10.index t (0 : Fin 2) * 1 + 1 * a.val = a.val; rw [e0]; omega
  | ⟨1, _⟩ => show win0_10.index t (1 : Fin 2) * 3 + 1 * b.val = b.val; rw [e1]; omega

/-! ## What one grid point writes back -/

/-- The payload at row p, column j of a block whose inputs are row r of the batch (for this p) and the parameter
    arrays whole is the fused arrangement's result for row r, head j. -/
theorem block_row (hpay : PayHyp) (A0 : S1048576x64.Idx → EReal) (A1 : S64x32.Idx → EReal) (A2 : S1x32.Idx → EReal) (A3 : S24x24.Idx → EReal) (A4 : S1x24.Idx → EReal) (A5 : S24x48.Idx → EReal) (A6 : S1x48.Idx → EReal) (A7 : S8x2.Idx → EReal) (A8 : S1x2.Idx → EReal) (A9 : S24x3.Idx → EReal) (A10 : S1x3.Idx → EReal)
    (x0 : Vec Ideal S16384x64 .f32) (x1 : Vec Ideal S64x32 .f32) (x2 : Vec Ideal S1x32 .f32) (x3 : Vec Ideal S24x24 .f32) (x4 : Vec Ideal S1x24 .f32) (x5 : Vec Ideal S24x48 .f32) (x6 : Vec Ideal S1x48 .f32) (x7 : Vec Ideal S8x2 .f32) (x8 : Vec Ideal S1x2 .f32) (x9 : Vec Ideal S24x3 .f32) (x10 : Vec Ideal S1x3 .f32)
    (r : Fin 1048576) (p : Fin 16384) (j : Fin 3)
    (h0 : ∀ k : Fin 64, x0 (ix2 p k) = A0 (ix2 r k))
    (h1 : ∀ (a : Fin 64) (b : Fin 32), x1 (ix2 a b) = A1 (ix2 a b))
    (h2 : ∀ (a : Fin 1) (b : Fin 32), x2 (ix2 a b) = A2 (ix2 a b))
    (h3 : ∀ (a : Fin 24) (b : Fin 24), x3 (ix2 a b) = A3 (ix2 a b))
    (h4 : ∀ (a : Fin 1) (b : Fin 24), x4 (ix2 a b) = A4 (ix2 a b))
    (h5 : ∀ (a : Fin 24) (b : Fin 48), x5 (ix2 a b) = A5 (ix2 a b))
    (h6 : ∀ (a : Fin 1) (b : Fin 48), x6 (ix2 a b) = A6 (ix2 a b))
    (h7 : ∀ (a : Fin 8) (b : Fin 2), x7 (ix2 a b) = A7 (ix2 a b))
    (h8 : ∀ (a : Fin 1) (b : Fin 2), x8 (ix2 a b) = A8 (ix2 a b))
    (h9 : ∀ (a : Fin 24) (b : Fin 3), x9 (ix2 a b) = A9 (ix2 a b))
    (h10 : ∀ (a : Fin 1) (b : Fin 3), x10 (ix2 a b) = A10 (ix2 a b)) :
    k0_pay1 (F := Ideal) (k0_pay3 x0 x1 x2 x7 x8) (k0_pay4 x0 x1 x2 x3 x4 x5 x6) (k0_pay5 x0 x1 x2 x3 x4 x5 x6) x9 x10 (ix2 p j)
      = Cert.Moe.outCat
      (fun k => A0 (ix2 r k))
      (fun k c' => A1 (ix2 k c'))
      (fun c' => A2 (ix2 0 c'))
      (fun k c' => A3 (ix2 k c'))
      (fun c' => A4 (ix2 0 c'))
      (fun k c' => A5 (ix2 k c'))
      (fun c' => A6 (ix2 0 c'))
      (fun k c' => A7 (ix2 k c'))
      (fun c' => A8 (ix2 0 c'))
      (fun k c' => A9 (ix2 k c'))
      (fun c' => A10 (ix2 0 c')) j := by
  rw [hpay]
  simp only [h0, h1, h2, h3, h4, h5, h6, h7, h8, h9, h10]

/-- Element (p, j) of the result's block at point t is element (16384·t + p, j) of the result array. -/
theorem emb11 (t : Fin cfg0.N) (p : Fin 16384) (j : Fin 3) (r : Fin 1048576) (hr : r.val = t.val * 16384 + p.val) :
    (((cfg0.win 11).blk t).view.emb (ix2 p j) : S1048576x3.Idx) = ix2 r j := by
  have e0 := (idx_facts t).2.2.1
  have e1 := (idx_facts t).2.2.2.1
  funext d
  apply Fin.ext
  match d with
  | ⟨0, _⟩ => show win0_11.index t (0 : Fin 2) * 16384 + 1 * p.val = r.val; rw [e0, hr]; omega
  | ⟨1, _⟩ => show win0_11.index t (1 : Fin 2) * 3 + 1 * j.val = j.val; rw [e1]; omega

/-- What point t writes back to the result array is block t of G. -/
theorem flushed_eq (hpay : PayHyp) (c : Dev nD) (t : Fin cfg0.N) :
    (dats m 0 c).flushed 11 t = ((cfg0.win 11).blk t).view.read (Elt Ideal) (G m c) := by
  have ht : t.val < 64 := lt_of_lt_of_eq t.isLt N_0
  show (cfg0.win 11).cut (grid0.coords t) ((dats m 0 c).after 11 t) = _
  rw [after0_11]
  unfold out0_11
  rw [View.canon_unit_zero hz]
  simp only [View.ld_unit_zero (S := S16384x64) hz, View.ld_unit_zero (S := S64x32) hz, View.ld_unit_zero (S := S1x32) hz, View.ld_unit_zero (S := S24x24) hz, View.ld_unit_zero (S := S1x24) hz, View.ld_unit_zero (S := S24x48) hz, View.ld_unit_zero (S := S1x48) hz, View.ld_unit_zero (S := S8x2) hz, View.ld_unit_zero (S := S1x2) hz, View.ld_unit_zero (S := S24x3) hz, View.ld_unit_zero (S := S1x3) hz]
  show (k0_pay1 (F := Ideal) (k0_pay3 (iblk m c 0 t) (iblk m c 1 t) (iblk m c 2 t) (iblk m c 7 t) (iblk m c 8 t)) (k0_pay4 (iblk m c 0 t) (iblk m c 1 t) (iblk m c 2 t) (iblk m c 3 t) (iblk m c 4 t) (iblk m c 5 t) (iblk m c 6 t)) (k0_pay5 (iblk m c 0 t) (iblk m c 1 t) (iblk m c 2 t) (iblk m c 3 t) (iblk m c 4 t) (iblk m c 5 t) (iblk m c 6 t)) (iblk m c 9 t) (iblk m c 10 t) : S16384x3.Idx → EReal)
      = fun y : S16384x3.Idx => G m c (((cfg0.win 11).blk t).view.emb y)
  funext y
  obtain ⟨p, j, rfl⟩ : ∃ (p : Fin 16384) (j : Fin 3), y = ix2 p j := ⟨y 0, y 1, eq_ix2 y⟩
  have hr : (⟨t.val * 16384 + p.val, by have := p.isLt; omega⟩ : Fin 1048576).val = t.val * 16384 + p.val := rfl
  rw [emb11 t p j ⟨t.val * 16384 + p.val, by have := p.isLt; omega⟩ hr]
  unfold G
  exact block_row hpay (V m c main_arg0 : S1048576x64.Idx → EReal) (V m c main_v0 : S64x32.Idx → EReal) (V m c main_v2 : S1x32.Idx → EReal) (V m c main_arg3 : S24x24.Idx → EReal) (V m c main_v10 : S1x24.Idx → EReal) (V m c main_v3 : S24x48.Idx → EReal) (V m c main_v5 : S1x48.Idx → EReal) (V m c main_arg11 : S8x2.Idx → EReal) (V m c main_v11 : S1x2.Idx → EReal) (V m c main_v6 : S24x3.Idx → EReal) (V m c main_v9 : S1x3.Idx → EReal)
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    ⟨t.val * 16384 + p.val, by have := p.isLt; omega⟩ p j
    (fun k => iblk0_apply m c t p k _ hr) (iblk1_apply m c t) (iblk2_apply m c t) (iblk3_apply m c t) (iblk4_apply m c t) (iblk5_apply m c t) (iblk6_apply m c t) (iblk7_apply m c t) (iblk8_apply m c t) (iblk9_apply m c t) (iblk10_apply m c t)

/-! ## The blocks cover the array -/

/-- An index of the result array is in point t's block iff each coordinate is in the block's range on its axis. -/
theorem mem_blk (t : Fin cfg0.N) (i : S1048576x3.Idx) :
    i ∈ ((cfg0.win 11).blk t).view.set ↔ ∀ a : Fin 2, win0_11.index t a * S16384x3.size a ≤ (i a).val ∧ (i a).val < win0_11.index t a * S16384x3.size a + S16384x3.size a := by
  show i ∈ ((View.whole main_v12).slice (win0_11.rect t)).set ↔ _
  rw [View.set_slice_whole, Rect.mem_set_unit]
  exact Iff.rfl

/-- Every index (r, j) of the result array lies in the block of the point r / 16384, which writes back. -/
theorem cover (i : S1048576x3.Idx) :
    ∃ t : Fin cfg0.N, (cfg0.win 11).flush t = true ∧ i ∈ ((cfg0.win 11).blk t).view.set := by
  have hi0 : (i 0).val < 1048576 := idx2_lt0 i
  have hi1 : (i 1).val < 3 := idx2_lt1 i
  have hq : (i 0).val / 16384 < 64 := by omega
  refine ⟨⟨(i 0).val / 16384, lt_of_lt_of_eq hq N_0.symm⟩, flush0_11 _, ?_⟩
  have e0 := (idx_facts ⟨(i 0).val / 16384, lt_of_lt_of_eq hq N_0.symm⟩).2.2.1
  have e1 := (idx_facts ⟨(i 0).val / 16384, lt_of_lt_of_eq hq N_0.symm⟩).2.2.2.1
  rw [mem_blk]
  intro a
  match a with
  | ⟨0, _⟩ =>
    show win0_11.index ⟨(i 0).val / 16384, _⟩ (0 : Fin 2) * 16384 ≤ (i 0).val ∧ (i 0).val < win0_11.index ⟨(i 0).val / 16384, _⟩ (0 : Fin 2) * 16384 + 16384
    rw [e0]
    show (i 0).val / 16384 * 16384 ≤ (i 0).val ∧ (i 0).val < (i 0).val / 16384 * 16384 + 16384
    omega
  | ⟨1, _⟩ =>
    show win0_11.index ⟨(i 0).val / 16384, _⟩ (1 : Fin 2) * 3 ≤ (i 1).val ∧ (i 1).val < win0_11.index ⟨(i 0).val / 16384, _⟩ (1 : Fin 2) * 3 + 3
    rw [e1]
    omega

/-! ## The array after the run, and the run -/

/-- After the run the result array is G. -/
theorem final (hpay : PayHyp) (c : Dev nD) : (dats m 0 c).arrAt 11 cfg0.N = G m c :=
  (dats m 0 c).arrAt_eq_of_cover 11 (G m c) (fun t _ => flushed_eq m hpay c t) cover

/-- The program runs to the end, leaves G in the result array and every argument array as launched. -/
theorem run (hpay : PayHyp) : θ_run defs (onTc (τ := τ) (main (F := Ideal))) ⟨m, fun _ => 0, ρ⟩ (fun r => ∀ c : Dev nD,
      r.2.mem ((c.tc : Thread nD τ).loc main_v12) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨((h c).1 11).trans (final m hpay c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 7).trans (((dats m 0 c).arrAt_in 7 rfl _).trans ((A_eq m c 7).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩)
    (run_main m ρ)

end Cert.KerArray

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.PayAt.lean ====
/-
  The kernel body's arithmetic, read one entry at a time over the extended reals.

  The body computes, for a block of 16384 rows at once: a fused first layer (a matrix product with a 64 x 32 weight, a bias
  row added to every row, tanh); from its first 24 columns the backbone's second layer and then the fused experts (two more
  matrix products, each with its bias row and tanh); from its last 8 columns the gate's two logits (a matrix product and a
  bias row) and the logistic of their difference, kept as a one-column array; the mix of the two experts (the last 24 fused
  units plus the logistic weight times the first 24 minus the last 24, the weight's column copied along each row); and the
  fused heads (a last matrix product and bias row).

  Every one of these operations acts on a row independently of the other rows: a matrix product into a zero accumulator read
  at (p, c) is the sum over k of (row p of the left operand at k) times (the right operand at (k, c)); a bias row broadcast
  over the rows reads at (p, c) the bias at c; a cut of columns [o, o + m) reads at (p, k) the source at (p, o + k); a column
  broadcast along rows reads at (p, c) the column at p; a cast of a shape to itself changes nothing; tanh, logistic, sum,
  difference and product act entry by entry. Reading the stored value at row p, column j through these laws, one layer after
  the other, gives exactly the fused arrangement of the specification (Cert.Moe.outCat) evaluated on row p of the input block
  and on the parameter arrays read as functions of their coordinates.
-/
import proofs.«101308_j75230647156978_2_alg».proof.Proof.Spec
import proofs.«101308_j75230647156978_2_alg».proof.Proof.LibMatmulNN
import proofs.«101308_j75230647156978_2_alg».proof.Proof.LibColumns
import proofs.«101308_j75230647156978_2_alg».proof.Proof.Gen.KernelIdeal.Skeleton
import Idealize.ShloMosaic.Lib.ValueLayout
import Idealize.ShloMosaic.Lib.Pipeline.Value

noncomputable section

open scoped BigOperators

namespace Cert.PayAt

open Idealize.ShloMosaic Idealize.ShloMosaic.ValueIdx Cert.KernelIdeal Cert.KernelIdeal.Gen Cert.Moe

/-! ## One affine layer at an entry -/

/-- A matrix product `A · W` into a zero accumulator plus a bias row `b` copied to every row, read at `(p, c)`, is the
    affine layer's column `c` on row `p` of `A`: `(∑ k, A(p, k) · W(k, c)) + b(0, c)`. -/
theorem affine_at {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![M, K]⟩ .f32) (W : FVec Ideal ⟨2, ![K, N]⟩ .f32) (b : FVec Ideal ⟨2, ![1, N]⟩ .f32)
    (hbr : (⟨2, ![1, N]⟩ : Shape).Broadcasts ⟨2, ![M, N]⟩) (p : Fin M) (c : Fin N) :
    addf (matmul d none A W (constant (F := Ideal) ⟨2, ![M, N]⟩ .f32 0x00000000#32)) (broadcastTo ⟨2, ![M, N]⟩ b hbr) (ix2 p c)
      = aff (fun k => A (ix2 p k)) (fun k c => W (ix2 k c)) (fun c => b (ix2 0 c)) c := by
  rw [addf_apply, Cert.LibMatmulNN.matmul_nn_apply d hlc hrc hln hrn hlb hrb, broadcastTo_1b_ab_apply]
  rfl

/-! ## The payloads, one after the other -/

section Payloads

variable (x0 : Vec Ideal S16384x64 .f32) (x1 : Vec Ideal S64x32 .f32) (x2 : Vec Ideal S1x32 .f32)
  (x3 : Vec Ideal S24x24 .f32) (x4 : Vec Ideal S1x24 .f32) (x5 : Vec Ideal S24x48 .f32) (x6 : Vec Ideal S1x48 .f32)
  (x7 : Vec Ideal S8x2 .f32) (x8 : Vec Ideal S1x2 .f32) (x9 : Vec Ideal S24x3 .f32) (x10 : Vec Ideal S1x3 .f32)
  (p : Fin 16384)

/-- The fused first layer at `(p, c)`: unit `c` of the 32 tanh units on row `p`. -/
theorem pay2_at (c : Fin 32) :
    k0_pay2 (F := Ideal) x0 x1 x2 (ix2 p c)
      = cat1 (fun k => x0 (ix2 p k)) (fun k c => x1 (ix2 k c)) (fun c => x2 (ix2 0 c)) c := by
  unfold k0_pay2
  simp only [shapeCast_self]
  exact congrArg Ideal.tanh
    (affine_at dot_S16384x64_S64x32_S16384x32_1_0_0_1_n_n rfl rfl rfl rfl rfl rfl x0 x1 x2 _ p c)

/-- The backbone's hidden layer is the first 24 columns of the fused first layer. -/
theorem backHidden_at (h : S16384x32.Slices ![0, 0] S16384x24) (k : Fin 24) :
    extractStridedSlice S16384x24 ![0, 0] (k0_pay2 (F := Ideal) x0 x1 x2) h (ix2 p k)
      = cat1Lo (fun k => x0 (ix2 p k)) (fun k c => x1 (ix2 k c)) (fun c => x2 (ix2 0 c)) k :=
  (slice2_axis1_apply 0 _ h p k ⟨k.val, by omega⟩ (Nat.zero_add _).symm).trans (pay2_at x0 x1 x2 p _)

/-- The gate's hidden layer is the last 8 columns of the fused first layer. -/
theorem gateHidden_at (h : S16384x32.Slices ![0, 24] S16384x8) (k : Fin 8) :
    extractStridedSlice S16384x8 ![0, 24] (k0_pay2 (F := Ideal) x0 x1 x2) h (ix2 p k)
      = cat1Hi (fun k => x0 (ix2 p k)) (fun k c => x1 (ix2 k c)) (fun c => x2 (ix2 0 c)) k :=
  (slice2_axis1_apply 24 _ h p k ⟨24 + k.val, by omega⟩ rfl).trans (pay2_at x0 x1 x2 p _)

/-- The gate's weight of the first expert, at row `p` of its one column: the logistic of the difference of the two
    logits of row `p`. -/
theorem pay3_at :
    k0_pay3 (F := Ideal) x0 x1 x2 x7 x8 (ix2 p (0 : Fin 1))
      = Ideal.logistic
          (logitC (fun k => x0 (ix2 p k)) (fun k c => x1 (ix2 k c)) (fun c => x2 (ix2 0 c))
              (fun k c => x7 (ix2 k c)) (fun c => x8 (ix2 0 c)) 0
            - logitC (fun k => x0 (ix2 p k)) (fun k c => x1 (ix2 k c)) (fun c => x2 (ix2 0 c))
              (fun k c => x7 (ix2 k c)) (fun c => x8 (ix2 0 c)) 1) := by
  unfold k0_pay3
  simp only [shapeCast_self]
  refine congrArg Ideal.logistic (congrArg₂ (· - ·) ?_ ?_)
  · refine (slice2_axis1_apply 0 _ _ p (0 : Fin 1) (0 : Fin 2) rfl).trans ?_
    refine (affine_at dot_S16384x8_S8x2_S16384x2_1_0_0_1_n_n rfl rfl rfl rfl rfl rfl _ x7 x8 _ p 0).trans ?_
    exact congrArg (fun a => aff a _ _ (0 : Fin 2)) (funext fun k => gateHidden_at x0 x1 x2 p _ k)
  · refine (slice2_axis1_apply 1 _ _ p (0 : Fin 1) (1 : Fin 2) rfl).trans ?_
    refine (affine_at dot_S16384x8_S8x2_S16384x2_1_0_0_1_n_n rfl rfl rfl rfl rfl rfl _ x7 x8 _ p 1).trans ?_
    exact congrArg (fun a => aff a _ _ (1 : Fin 2)) (funext fun k => gateHidden_at x0 x1 x2 p _ k)

/-- The fused experts at `(p, c)`: unit `c` of the 48 tanh units fed by the backbone's output on row `p`. -/
theorem pay4_at (c : Fin 48) :
    k0_pay4 (F := Ideal) x0 x1 x2 x3 x4 x5 x6 (ix2 p c)
      = catE (fun k => x0 (ix2 p k)) (fun k c => x1 (ix2 k c)) (fun c => x2 (ix2 0 c))
          (fun k c => x3 (ix2 k c)) (fun c => x4 (ix2 0 c)) (fun k c => x5 (ix2 k c)) (fun c => x6 (ix2 0 c)) c := by
  unfold k0_pay4
  simp only [shapeCast_self]
  refine (congrArg Ideal.tanh
    (affine_at dot_S16384x24_S24x48_S16384x48_1_0_0_1_n_n rfl rfl rfl rfl rfl rfl _ x5 x6 _ p c)).trans ?_
  refine congrArg (fun a => Ideal.tanh (aff a _ _ c)) (funext fun k => ?_)
  refine (congrArg Ideal.tanh
    (affine_at dot_S16384x24_S24x24_S16384x24_1_0_0_1_n_n rfl rfl rfl rfl rfl rfl _ x3 x4 _ p k)).trans ?_
  exact congrArg (fun a => Ideal.tanh (aff a _ _ k)) (funext fun k' => backHidden_at x0 x1 x2 p _ k')

/-- The first expert at `(p, c)`: the first 24 of the fused experts' units. -/
theorem pay5_at (c : Fin 24) :
    k0_pay5 (F := Ideal) x0 x1 x2 x3 x4 x5 x6 (ix2 p c)
      = catE (fun k => x0 (ix2 p k)) (fun k c => x1 (ix2 k c)) (fun c => x2 (ix2 0 c))
          (fun k c => x3 (ix2 k c)) (fun c => x4 (ix2 0 c)) (fun k c => x5 (ix2 k c)) (fun c => x6 (ix2 0 c))
          ⟨c.val, by omega⟩ := by
  unfold k0_pay5
  exact (slice2_axis1_apply 0 (k0_pay4 (F := Ideal) x0 x1 x2 x3 x4 x5 x6) _ p c ⟨c.val, by omega⟩
    (Nat.zero_add _).symm).trans (pay4_at x0 x1 x2 x3 x4 x5 x6 p _)

/-- The second expert at `(p, c)`: the last 24 of the fused experts' units. -/
theorem expert2_at (h : S16384x48.Slices ![0, 24] S16384x24) (c : Fin 24) :
    extractStridedSlice S16384x24 ![0, 24] (k0_pay4 (F := Ideal) x0 x1 x2 x3 x4 x5 x6) h (ix2 p c)
      = catE (fun k => x0 (ix2 p k)) (fun k c => x1 (ix2 k c)) (fun c => x2 (ix2 0 c))
          (fun k c => x3 (ix2 k c)) (fun c => x4 (ix2 0 c)) (fun k c => x5 (ix2 k c)) (fun c => x6 (ix2 0 c))
          ⟨24 + c.val, by omega⟩ :=
  (slice2_axis1_apply 24 _ h p c ⟨24 + c.val, by omega⟩ rfl).trans (pay4_at x0 x1 x2 x3 x4 x5 x6 p _)

/-- The stored value at row `p`, column `j` of the block is the fused arrangement of the specification on row `p`. -/
theorem pay_at (j : Fin 3) :
    k0_pay1 (F := Ideal) (k0_pay3 x0 x1 x2 x7 x8) (k0_pay4 x0 x1 x2 x3 x4 x5 x6) (k0_pay5 x0 x1 x2 x3 x4 x5 x6) x9 x10
        (ValueIdx.ix2 p j)
      = Cert.Moe.outCat (fun k => x0 (ix2 p k)) (fun k c => x1 (ix2 k c)) (fun c => x2 (ix2 0 c))
          (fun k c => x3 (ix2 k c)) (fun c => x4 (ix2 0 c)) (fun k c => x5 (ix2 k c)) (fun c => x6 (ix2 0 c))
          (fun k c => x7 (ix2 k c)) (fun c => x8 (ix2 0 c)) (fun k c => x9 (ix2 k c)) (fun c => x10 (ix2 0 c)) j := by
  unfold k0_pay1
  simp only [shapeCast_self]
  refine (affine_at dot_S16384x24_S24x3_S16384x3_1_0_0_1_n_n rfl rfl rfl rfl rfl rfl _ x9 x10 _ p j).trans ?_
  refine congrArg (fun a => aff a _ _ j) (funext fun k => ?_)
  refine congrArg₂ (· + ·) (expert2_at x0 x1 x2 x3 x4 x5 x6 p _ k) (congrArg₂ (· * ·) ?_ (congrArg₂ (· - ·) ?_ ?_))
  · exact (Cert.LibColumns.broadcastTo_a1_ab_apply _ _ p k).trans (pay3_at x0 x1 x2 x7 x8 p)
  · exact pay5_at x0 x1 x2 x3 x4 x5 x6 p k
  · exact expert2_at x0 x1 x2 x3 x4 x5 x6 p _ k

end Payloads

end Cert.PayAt

end
-- ==== Proof.HostLayout.lean ====
/-
  The fused parameters, read entry by entry.

  Before its one device call the program lays the separate parameters out as fused ones, with host operations
  that only move entries: a concatenation along the columns of two matrices with the same rows, a concatenation
  of two vectors end to end followed by a reshape of the vector into a one-row matrix, a concatenation of three
  one-column matrices into a three-column one, a concatenation of three one-entry vectors, reshaped into a row
  and added to a row of offsets, and two reshapes of a vector into a one-row matrix.

  A concatenation along an axis, read at an index, is the piece whose span along that axis holds the index's
  coordinate, read at the coordinate less the extents of the pieces before it; a reshape reads the entry with the
  same row-major position, and the row-major position of `(0, c)` in a one-row matrix is `c`. So each fused
  parameter, at an index given by its coordinates, is the specification's layout function of the separate ones:
  columns side by side (`hcat`), vectors end to end (`vcat`), three numbers as a vector (`sel3`).
-/
import Idealize.ShloMosaic.Lib.ValueIdx
import Idealize.ShloMosaic.Lib.ValueLayout
import Idealize.ShloMosaic.Lib.Pipeline.Value
import Idealize.ShloMosaic.PureOps.Ideal.Laws
import proofs.«101308_j75230647156978_2_alg».proof.KernelIdeal
import proofs.«101308_j75230647156978_2_alg».proof.Proof.Spec

noncomputable section

namespace Cert.HostLayout

open Idealize.ShloMosaic Idealize.ShloMosaic.ValueIdx Cert.KernelIdeal Cert.KernelIdeal.Facts₀

/-- A vector of length `n` reshaped into a one-row matrix, read at `(0, c)`, is the vector at `c`: both have
    row-major position `c`. -/
theorem shapeCast_row_apply {α : Type} {n : Nat} (v : (⟨1, ![n]⟩ : Shape).Idx → α)
    (h : (⟨1, ![n]⟩ : Shape).ShapeCasts ⟨2, ![1, n]⟩) (c : Fin n) :
    shapeCast ⟨2, ![1, n]⟩ v h (ix2 0 c) = v (ix1 c) := by
  refine shapeCast_apply v h (ix2 0 c) (ix1 c) ?_
  rw [Shape.rowMajor_val_one, Shape.rowMajor_val_two]
  show c.val = 0 * n + c.val
  omega

variable [Cert.KernelIdeal.Facts]

/-! ## The fused first layer: backbone columns, then gate columns -/

/-- The 64 by 32 matrix of the fused first layer is the backbone's 64 by 24 matrix and the gate's 64 by 8 matrix side
    by side. -/
theorem W1cat_apply (a1 : FVec Ideal S64x24 .f32) (a9 : FVec Ideal S64x8 .f32) (k : Fin 64) (c : Fin 32) :
    concatenate S64x32 1 [⟨S64x24, a1⟩, ⟨S64x8, a9⟩] concatenates_S64x24_S64x8_S64x32_d1 (ix2 k c)
      = Cert.Moe.hcat 32 (fun (k : Fin 64) (c : Fin 24) => a1 (ix2 k c)) (fun (k : Fin 64) (c : Fin 8) => a9 (ix2 k c)) k c := by
  unfold Cert.Moe.hcat
  by_cases h : c.val < 24
  · rw [dif_pos h]
    exact concatenate_pair_apply_left _ a1 a9 _ (ix2 k c) rfl (ix2 k ⟨c.val, h⟩)
      (fun b => by match b with | ⟨0, _⟩ => rfl | ⟨1, _⟩ => rfl)
  · have h' : c.val - 24 < 8 := by have := c.isLt; omega
    rw [dif_neg h, dif_pos h']
    refine concatenate_pair_apply_right _ a1 a9 _ (ix2 k c) rfl rfl (ix2 k ⟨c.val - 24, h'⟩) ?_ ?_
    · intro b hb
      match b, hb with
      | ⟨0, _⟩, _ => rfl
      | ⟨1, _⟩, hb => exact absurd rfl hb
    · show c.val - 24 + 24 = c.val
      omega

/-- The fused first layer's bias, a one-row matrix of 32 entries, is the backbone's 24 biases followed by the gate's
    8. (The program concatenates the two vectors and reshapes the result into one row.) -/
theorem b1cat_apply (a2 : FVec Ideal S24 .f32) (a10 : FVec Ideal S8 .f32) (c : Fin 32) :
    shapeCast S1x32 (concatenate S32 0 [⟨S24, a2⟩, ⟨S8, a10⟩] concatenates_S24_S8_S32_d0) shapeCasts_S32_S1x32 (ix2 0 c)
      = Cert.Moe.vcat 32 (fun (c : Fin 24) => a2 (ix1 c)) (fun (c : Fin 8) => a10 (ix1 c)) c := by
  rw [shapeCast_row_apply]
  unfold Cert.Moe.vcat
  by_cases h : c.val < 24
  · rw [dif_pos h]
    exact concatenate_pair_apply_left _ a2 a10 _ (ix1 c) rfl (ix1 ⟨c.val, h⟩)
      (fun b => by match b with | ⟨0, _⟩ => rfl)
  · have h' : c.val - 24 < 8 := by have := c.isLt; omega
    rw [dif_neg h, dif_pos h']
    refine concatenate_pair_apply_right _ a2 a10 _ (ix1 c) rfl rfl (ix1 ⟨c.val - 24, h'⟩) ?_ ?_
    · intro b hb
      match b, hb with
      | ⟨0, _⟩, hb => exact absurd rfl hb
    · show c.val - 24 + 24 = c.val
      omega

/-! ## The fused experts: the first expert's columns, then the second's -/

/-- The 24 by 48 matrix of the fused experts is the two experts' 24 by 24 matrices side by side. -/
theorem Wecat_apply (a5 a7 : FVec Ideal S24x24 .f32) (k : Fin 24) (c : Fin 48) :
    concatenate S24x48 1 [⟨S24x24, a5⟩, ⟨S24x24, a7⟩] concatenates_S24x24_S24x24_S24x48_d1 (ix2 k c)
      = Cert.Moe.hcat 48 (fun (k : Fin 24) (c : Fin 24) => a5 (ix2 k c)) (fun (k : Fin 24) (c : Fin 24) => a7 (ix2 k c)) k c := by
  unfold Cert.Moe.hcat
  by_cases h : c.val < 24
  · rw [dif_pos h]
    exact concatenate_pair_apply_left _ a5 a7 _ (ix2 k c) rfl (ix2 k ⟨c.val, h⟩)
      (fun b => by match b with | ⟨0, _⟩ => rfl | ⟨1, _⟩ => rfl)
  · have h' : c.val - 24 < 24 := by have := c.isLt; omega
    rw [dif_neg h, dif_pos h']
    refine concatenate_pair_apply_right _ a5 a7 _ (ix2 k c) rfl rfl (ix2 k ⟨c.val - 24, h'⟩) ?_ ?_
    · intro b hb
      match b, hb with
      | ⟨0, _⟩, _ => rfl
      | ⟨1, _⟩, hb => exact absurd rfl hb
    · show c.val - 24 + 24 = c.val
      omega

/-- The fused experts' bias, a one-row matrix of 48 entries, is the first expert's 24 biases followed by the second's. -/
theorem becat_apply (a6 a8 : FVec Ideal S24 .f32) (c : Fin 48) :
    shapeCast S1x48 (concatenate S48 0 [⟨S24, a6⟩, ⟨S24, a8⟩] concatenates_S24_S24_S48_d0) shapeCasts_S48_S1x48 (ix2 0 c)
      = Cert.Moe.vcat 48 (fun (c : Fin 24) => a6 (ix1 c)) (fun (c : Fin 24) => a8 (ix1 c)) c := by
  rw [shapeCast_row_apply]
  unfold Cert.Moe.vcat
  by_cases h : c.val < 24
  · rw [dif_pos h]
    exact concatenate_pair_apply_left _ a6 a8 _ (ix1 c) rfl (ix1 ⟨c.val, h⟩)
      (fun b => by match b with | ⟨0, _⟩ => rfl)
  · have h' : c.val - 24 < 24 := by have := c.isLt; omega
    rw [dif_neg h, dif_pos h']
    refine concatenate_pair_apply_right _ a6 a8 _ (ix1 c) rfl rfl (ix1 ⟨c.val - 24, h'⟩) ?_ ?_
    · intro b hb
      match b, hb with
      | ⟨0, _⟩, hb => exact absurd rfl hb
    · show c.val - 24 + 24 = c.val
      omega

/-! ## The fused heads: three columns, and three biases plus the offset -/

/-- The 24 by 3 matrix of the fused heads has the three heads' one-column matrices as its columns. -/
theorem Whcat_apply (a13 a15 a17 : FVec Ideal S24x1 .f32) (k : Fin 24) (j : Fin 3) :
    concatenate S24x3 1 [⟨S24x1, a13⟩, ⟨S24x1, a15⟩, ⟨S24x1, a17⟩] concatenates_S24x1_S24x1_S24x1_S24x3_d1 (ix2 k j)
      = Cert.Moe.sel3 (a13 (ix2 k 0)) (a15 (ix2 k 0)) (a17 (ix2 k 0)) j := by
  have hi : ∀ j' : Fin 3, ∀ b : Fin S24x1.rank, b.cast (rfl : S24x1.rank = S24x3.rank) ≠ 1 →
      ((ix2 k (0 : Fin 1) : S24x1.Idx) b).val = ((ix2 k j' : S24x3.Idx) (b.cast rfl)).val := by
    intro j' b hb
    match b, hb with
    | ⟨0, _⟩, _ => rfl
    | ⟨1, _⟩, hb => exact absurd rfl hb
  match j with
  | ⟨0, hj⟩ =>
    show _ = a13 (ix2 k 0)
    exact concatenate_apply_piece 1 [⟨S24x1, a13⟩, ⟨S24x1, a15⟩, ⟨S24x1, a17⟩] _ (ix2 k ⟨0, hj⟩) 0
      (by show (0 : ℕ) < 3; omega) S24x1 a13 rfl rfl 0 rfl (ix2 k 0) (hi _) rfl
  | ⟨1, hj⟩ =>
    show _ = a15 (ix2 k 0)
    exact concatenate_apply_piece 1 [⟨S24x1, a13⟩, ⟨S24x1, a15⟩, ⟨S24x1, a17⟩] _ (ix2 k ⟨1, hj⟩) 1
      (by show (1 : ℕ) < 3; omega) S24x1 a15 rfl rfl 1 rfl (ix2 k 0) (hi _) rfl
  | ⟨2, hj⟩ =>
    show _ = a17 (ix2 k 0)
    exact concatenate_apply_piece 1 [⟨S24x1, a13⟩, ⟨S24x1, a15⟩, ⟨S24x1, a17⟩] _ (ix2 k ⟨2, hj⟩) 2
      (by show (2 : ℕ) < 3; omega) S24x1 a17 rfl rfl 2 rfl (ix2 k 0) (hi _) rfl

/-- The three heads' one-entry biases end to end are a vector of length three. -/
theorem bh3_apply (a14 a16 a18 : FVec Ideal S1 .f32) (j : Fin 3) :
    concatenate S3 0 [⟨S1, a14⟩, ⟨S1, a16⟩, ⟨S1, a18⟩] concatenates_S1_S1_S1_S3_d0 (ix1 j)
      = Cert.Moe.sel3 (a14 (ix1 0)) (a16 (ix1 0)) (a18 (ix1 0)) j := by
  have hi : ∀ j' : Fin 3, ∀ b : Fin S1.rank, b.cast (rfl : S1.rank = S3.rank) ≠ 0 →
      ((ix1 (0 : Fin 1) : S1.Idx) b).val = ((ix1 j' : S3.Idx) (b.cast rfl)).val := by
    intro j' b hb
    match b, hb with
    | ⟨0, _⟩, hb => exact absurd rfl hb
  match j with
  | ⟨0, hj⟩ =>
    show _ = a14 (ix1 0)
    exact concatenate_apply_piece 0 [⟨S1, a14⟩, ⟨S1, a16⟩, ⟨S1, a18⟩] _ (ix1 ⟨0, hj⟩) 0
      (by show (0 : ℕ) < 3; omega) S1 a14 rfl rfl 0 rfl (ix1 0) (hi _) rfl
  | ⟨1, hj⟩ =>
    show _ = a16 (ix1 0)
    exact concatenate_apply_piece 0 [⟨S1, a14⟩, ⟨S1, a16⟩, ⟨S1, a18⟩] _ (ix1 ⟨1, hj⟩) 1
      (by show (1 : ℕ) < 3; omega) S1 a16 rfl rfl 1 rfl (ix1 0) (hi _) rfl
  | ⟨2, hj⟩ =>
    show _ = a18 (ix1 0)
    exact concatenate_apply_piece 0 [⟨S1, a14⟩, ⟨S1, a16⟩, ⟨S1, a18⟩] _ (ix1 ⟨2, hj⟩) 2
      (by show (2 : ℕ) < 3; omega) S1 a18 rfl rfl 2 rfl (ix1 0) (hi _) rfl

/-- The fused heads' bias, a one-row matrix of three entries: the three heads' biases, each with the learned offset of
    its column already added. -/
theorem bhcat_apply (a14 a16 a18 : FVec Ideal S1 .f32) (a19 : FVec Ideal S1x3 .f32) (j : Fin 3) :
    addf (shapeCast S1x3 (concatenate S3 0 [⟨S1, a14⟩, ⟨S1, a16⟩, ⟨S1, a18⟩] concatenates_S1_S1_S1_S3_d0) shapeCasts_S3_S1x3)
        a19 (ix2 0 j)
      = Cert.Moe.sel3 (a14 (ix1 0)) (a16 (ix1 0)) (a18 (ix1 0)) j + a19 (ix2 0 j) := by
  rw [addf_apply, shapeCast_row_apply, bh3_apply]

/-! ## The two biases that are only reshaped -/

/-- The backbone's second bias as a one-row matrix. -/
theorem b2row_apply (a4 : FVec Ideal S24 .f32) (c : Fin 24) :
    shapeCast S1x24 a4 shapeCasts_S24_S1x24 (ix2 0 c) = a4 (ix1 c) :=
  shapeCast_row_apply a4 _ c

/-- The gate's second bias as a one-row matrix. -/
theorem d2row_apply (a12 : FVec Ideal S2 .f32) (c : Fin 2) :
    shapeCast S1x2 a12 shapeCasts_S2_S1x2 (ix2 0 c) = a12 (ix1 c) :=
  shapeCast_row_apply a12 _ c

end Cert.HostLayout

end
-- ==== Proof.HostV.lean ====
/-
  What the fused parameter arrays hold when the device call is entered.

  Before its one device call the program runs twelve host operations, each writing ONE new array from arrays written
  earlier or from the arguments, none of which is ever overwritten. So the contents of each new array at the call are
  its operation's function of the contents of its operands: the fused first-layer matrix is the join of two argument
  matrices along the columns, its bias the join of two argument vectors re-shaped into one row, likewise the fused
  experts' matrix and bias; the fused heads' matrix is the join of three one-column argument matrices, their bias the
  join of three one-entry argument vectors re-shaped into one row plus the argument row of offsets; and two argument
  vectors are only re-shaped into one row each.

  Read at an index, a join is the piece that holds the index and a re-shape of a vector into one row is the vector's
  entry at the column; so each of these arrays, read at its coordinates, is the specification's layout (columns side by
  side, vectors end to end, three numbers as a vector) of the ARGUMENT arrays read at theirs.
-/
import proofs.«101308_j75230647156978_2_alg».proof.Proof.FrameIdeal
import proofs.«101308_j75230647156978_2_alg».proof.Proof.Spec
import proofs.«101308_j75230647156978_2_alg».proof.Proof.HostLayout
import Idealize.ShloMosaic.Lib.StableHlo.Run

set_option maxRecDepth 65536

noncomputable section

namespace Cert.HostV

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (c : Dev nD)

/-! ## The term each host-written array holds -/

/-- The fused first-layer matrix: argument 1 and argument 9 joined along the columns. -/
theorem v0_eq :
    (Fr.V m c main_v0 : S64x32.Idx → EReal)
      = concatenate S64x32 1 [⟨S64x24, m ((c : Thread nD τ).loc main_arg1)⟩, ⟨S64x8, m ((c : Thread nD τ).loc main_arg9)⟩]
          concatenates_S64x24_S64x8_S64x32_d1 := by
  dsimp only [Fr.V, Gen.hostOps0]
  after_results

/-- The fused first-layer bias: argument 2 and argument 10 joined end to end, re-shaped into one row. -/
theorem v2_eq :
    (Fr.V m c main_v2 : S1x32.Idx → EReal)
      = shapeCast S1x32 (concatenate S32 0 [⟨S24, m ((c : Thread nD τ).loc main_arg2)⟩, ⟨S8, m ((c : Thread nD τ).loc main_arg10)⟩]
          concatenates_S24_S8_S32_d0) shapeCasts_S32_S1x32 := by
  dsimp only [Fr.V, Gen.hostOps0]
  after_results
  rfl

/-- The fused experts' matrix: argument 5 and argument 7 joined along the columns. -/
theorem v3_eq :
    (Fr.V m c main_v3 : S24x48.Idx → EReal)
      = concatenate S24x48 1 [⟨S24x24, m ((c : Thread nD τ).loc main_arg5)⟩, ⟨S24x24, m ((c : Thread nD τ).loc main_arg7)⟩]
          concatenates_S24x24_S24x24_S24x48_d1 := by
  dsimp only [Fr.V, Gen.hostOps0]
  after_results

/-- The fused experts' bias: argument 6 and argument 8 joined end to end, re-shaped into one row. -/
theorem v5_eq :
    (Fr.V m c main_v5 : S1x48.Idx → EReal)
      = shapeCast S1x48 (concatenate S48 0 [⟨S24, m ((c : Thread nD τ).loc main_arg6)⟩, ⟨S24, m ((c : Thread nD τ).loc main_arg8)⟩]
          concatenates_S24_S24_S48_d0) shapeCasts_S48_S1x48 := by
  dsimp only [Fr.V, Gen.hostOps0]
  after_results
  rfl

/-- The fused heads' matrix: the one-column arguments 13, 15 and 17 joined along the columns. -/
theorem v6_eq :
    (Fr.V m c main_v6 : S24x3.Idx → EReal)
      = concatenate S24x3 1 [⟨S24x1, m ((c : Thread nD τ).loc main_arg13)⟩, ⟨S24x1, m ((c : Thread nD τ).loc main_arg15)⟩,
          ⟨S24x1, m ((c : Thread nD τ).loc main_arg17)⟩] concatenates_S24x1_S24x1_S24x1_S24x3_d1 := by
  dsimp only [Fr.V, Gen.hostOps0]
  after_results
  dsimp only [Matrix.cons_val]
  repeat (first
    | (rw [reshape_result_ne]; rotate_left; decide)
    | (rw [binary_result_ne]; rotate_left; decide)
    | (rw [nary_result_ne]; rotate_left; decide))

/-- The fused heads' bias: the one-entry arguments 14, 16 and 18 joined end to end, re-shaped into one row, plus the row
    of offsets, argument 19. -/
theorem v9_eq :
    (Fr.V m c main_v9 : S1x3.Idx → EReal)
      = addf (F := Ideal) (φ := .f32) (shapeCast S1x3 (concatenate S3 0 [⟨S1, m ((c : Thread nD τ).loc main_arg14)⟩, ⟨S1, m ((c : Thread nD τ).loc main_arg16)⟩,
          ⟨S1, m ((c : Thread nD τ).loc main_arg18)⟩] concatenates_S1_S1_S1_S3_d0) shapeCasts_S3_S1x3)
          (m ((c : Thread nD τ).loc main_arg19)) := by
  dsimp only [Fr.V, Gen.hostOps0]
  after_results
  dsimp only [Matrix.cons_val]
  repeat (first
    | (rw [reshape_result_ne]; rotate_left; decide)
    | (rw [binary_result_ne]; rotate_left; decide)
    | (rw [nary_result_ne]; rotate_left; decide))
  rfl

/-- The backbone's second bias, argument 4, re-shaped into one row. -/
theorem v10_eq :
    (Fr.V m c main_v10 : S1x24.Idx → EReal) = shapeCast S1x24 (m ((c : Thread nD τ).loc main_arg4)) shapeCasts_S24_S1x24 := by
  dsimp only [Fr.V, Gen.hostOps0]
  after_results
  rfl

/-- The gate's second bias, argument 12, re-shaped into one row. -/
theorem v11_eq :
    (Fr.V m c main_v11 : S1x2.Idx → EReal) = shapeCast S1x2 (m ((c : Thread nD τ).loc main_arg12)) shapeCasts_S2_S1x2 := by
  dsimp only [Fr.V, Gen.hostOps0]
  after_results
  rfl

/-! ## The same arrays read at an index, as layouts of the argument arrays -/

/-- The fused first-layer matrix at `(k, q)`: the columns of argument 1, then the columns of argument 9. -/
theorem v0_at (k : Fin 64) (q : Fin 32) :
    (Fr.V m c main_v0 : S64x32.Idx → EReal) (ix2 k q)
      = Cert.Moe.hcat 32 (fun (k : Fin 64) (q : Fin 24) => (m ((c : Thread nD τ).loc main_arg1) : S64x24.Idx → EReal) (ix2 k q))
          (fun (k : Fin 64) (q : Fin 8) => (m ((c : Thread nD τ).loc main_arg9) : S64x8.Idx → EReal) (ix2 k q)) k q :=
  (congrFun (v0_eq m c) (ix2 k q)).trans (Cert.HostLayout.W1cat_apply _ _ k q)

/-- The fused first-layer bias at `(0, q)`: argument 2, then argument 10. -/
theorem v2_at (q : Fin 32) :
    (Fr.V m c main_v2 : S1x32.Idx → EReal) (ix2 0 q)
      = Cert.Moe.vcat 32 (fun (q : Fin 24) => (m ((c : Thread nD τ).loc main_arg2) : S24.Idx → EReal) (ix1 q))
          (fun (q : Fin 8) => (m ((c : Thread nD τ).loc main_arg10) : S8.Idx → EReal) (ix1 q)) q :=
  (congrFun (v2_eq m c) (ix2 0 q)).trans (Cert.HostLayout.b1cat_apply _ _ q)

/-- The fused experts' matrix at `(k, q)`: the columns of argument 5, then the columns of argument 7. -/
theorem v3_at (k : Fin 24) (q : Fin 48) :
    (Fr.V m c main_v3 : S24x48.Idx → EReal) (ix2 k q)
      = Cert.Moe.hcat 48 (fun (k : Fin 24) (q : Fin 24) => (m ((c : Thread nD τ).loc main_arg5) : S24x24.Idx → EReal) (ix2 k q))
          (fun (k : Fin 24) (q : Fin 24) => (m ((c : Thread nD τ).loc main_arg7) : S24x24.Idx → EReal) (ix2 k q)) k q :=
  (congrFun (v3_eq m c) (ix2 k q)).trans (Cert.HostLayout.Wecat_apply _ _ k q)

/-- The fused experts' bias at `(0, q)`: argument 6, then argument 8. -/
theorem v5_at (q : Fin 48) :
    (Fr.V m c main_v5 : S1x48.Idx → EReal) (ix2 0 q)
      = Cert.Moe.vcat 48 (fun (q : Fin 24) => (m ((c : Thread nD τ).loc main_arg6) : S24.Idx → EReal) (ix1 q))
          (fun (q : Fin 24) => (m ((c : Thread nD τ).loc main_arg8) : S24.Idx → EReal) (ix1 q)) q :=
  (congrFun (v5_eq m c) (ix2 0 q)).trans (Cert.HostLayout.becat_apply _ _ q)

/-- The fused heads' matrix at `(k, j)`: entry `k` of the one-column argument 13, 15 or 17 according to `j`. -/
theorem v6_at (k : Fin 24) (j : Fin 3) :
    (Fr.V m c main_v6 : S24x3.Idx → EReal) (ix2 k j)
      = Cert.Moe.sel3 ((m ((c : Thread nD τ).loc main_arg13) : S24x1.Idx → EReal) (ix2 k 0))
          ((m ((c : Thread nD τ).loc main_arg15) : S24x1.Idx → EReal) (ix2 k 0))
          ((m ((c : Thread nD τ).loc main_arg17) : S24x1.Idx → EReal) (ix2 k 0)) j :=
  (congrFun (v6_eq m c) (ix2 k j)).trans (Cert.HostLayout.Whcat_apply _ _ _ k j)

/-- The fused heads' bias at `(0, j)`: the one entry of argument 14, 16 or 18 according to `j`, plus the offset of
    column `j`, argument 19 at `(0, j)`. -/
theorem v9_at (j : Fin 3) :
    (Fr.V m c main_v9 : S1x3.Idx → EReal) (ix2 0 j)
      = Cert.Moe.sel3 ((m ((c : Thread nD τ).loc main_arg14) : S1.Idx → EReal) (ix1 0))
          ((m ((c : Thread nD τ).loc main_arg16) : S1.Idx → EReal) (ix1 0))
          ((m ((c : Thread nD τ).loc main_arg18) : S1.Idx → EReal) (ix1 0)) j
        + (m ((c : Thread nD τ).loc main_arg19) : S1x3.Idx → EReal) (ix2 0 j) :=
  (congrFun (v9_eq m c) (ix2 0 j)).trans (Cert.HostLayout.bhcat_apply _ _ _ _ j)

/-- The backbone's second bias as a row, at `(0, q)`: argument 4 at `q`. -/
theorem v10_at (q : Fin 24) :
    (Fr.V m c main_v10 : S1x24.Idx → EReal) (ix2 0 q) = (m ((c : Thread nD τ).loc main_arg4) : S24.Idx → EReal) (ix1 q) :=
  (congrFun (v10_eq m c) (ix2 0 q)).trans (Cert.HostLayout.b2row_apply _ q)

/-- The gate's second bias as a row, at `(0, q)`: argument 12 at `q`. -/
theorem v11_at (q : Fin 2) :
    (Fr.V m c main_v11 : S1x2.Idx → EReal) (ix2 0 q) = (m ((c : Thread nD τ).loc main_arg12) : S2.Idx → EReal) (ix1 q) :=
  (congrFun (v11_eq m c) (ix2 0 q)).trans (Cert.HostLayout.d2row_apply _ q)

end Cert.HostV

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.Bridge.lean ====
/-
  The algebra between the fused arrangement and the separate arrangement of one row.

  Four facts make the two arrangements equal on the extended reals.

  * Layout. Column c < 24 of the fused first layer is the backbone's column c and column 24 + k is the gate's
    column k; the first 24 columns of the fused experts are the first expert's and the last 24 the second's. So the
    fused layers compute, unit by unit, what the separate layers compute.

  * The gate. The hyperbolic tangent takes every extended real to a real number (minus infinity to -1, plus
    infinity to 1). With real second-layer gate parameters the two logits l₀, l₁ are therefore real numbers, and
    for real numbers the logistic function of the difference, 1 / (1 + exp (-(l₀ - l₁))), is the first two-way
    softmax weight exp (l₀ - m) / (exp (l₀ - m) + exp (l₁ - m)) for every shift m (multiply numerator and
    denominator by exp m / exp l₀), and the second weight is one minus the first.

  * The mix. Both experts' outputs are values of the hyperbolic tangent, hence real, so
    e₂ + w₀ · (e₁ - e₂) = w₀ · e₁ + (1 - w₀) · e₂ is an identity of real numbers.

  * The heads. Column j of the fused heads is head j, and the fused bias is head j's bias plus the offset; adding
    the bias and then the offset is adding their sum, because addition of extended reals is associative.
-/
import proofs.«101308_j75230647156978_2_alg».proof.Proof.Spec
import proofs.«101308_j75230647156978_2_alg».proof.Proof.LibReal

noncomputable section

open scoped BigOperators

namespace Cert.Bridge

open Idealize.ShloMosaic Cert.Moe Cert.LibReal

/-! ## The gate, in the real numbers -/

/-- The logistic function of a difference is the first softmax weight of the pair, whatever the common shift:
    1 / (1 + exp (-(a - b))) = exp (a - m) / (exp (a - m) + exp (b - m)). -/
theorem logistic_eq_weight (a b m : ℝ) :
    (1 + Real.exp (-(a - b)))⁻¹ = Real.exp (a - m) * (Real.exp (a - m) + Real.exp (b - m))⁻¹ := by
  have ha := Real.exp_pos a
  have hb := Real.exp_pos b
  have hm := Real.exp_pos m
  rw [neg_sub, Real.exp_sub, Real.exp_sub, Real.exp_sub]
  field_simp

/-- The two softmax weights of a pair add up to one: the second is one minus the first. -/
theorem weight_compl (a b m : ℝ) :
    Real.exp (b - m) * (Real.exp (a - m) + Real.exp (b - m))⁻¹
      = 1 - Real.exp (a - m) * (Real.exp (a - m) + Real.exp (b - m))⁻¹ := by
  have h : Real.exp (a - m) + Real.exp (b - m) ≠ 0 := by positivity
  field_simp
  ring

/-! ## The gate, in the extended reals -/

/-- The larger of two real numbers, read in the extended reals, is the larger of their readings. -/
theorem coe_max (a b : ℝ) : max (a : EReal) (b : EReal) = ((max a b : ℝ) : EReal) :=
  (EReal.coe_strictMono.monotone.map_max).symm

/-- For two real logits the softmax weight of logit c is the real number
    exp (l c - m) / (exp (l₀ - m) + exp (l₁ - m)) with m the larger logit. -/
theorem softmax2_coe (l : Fin 2 → EReal) (a b t : ℝ) (h0 : l 0 = (a : EReal)) (h1 : l 1 = (b : EReal))
    (c : Fin 2) (hc : l c = (t : EReal)) :
    softmax2 l c
      = ((Real.exp (t - max a b) * (Real.exp (a - max a b) + Real.exp (b - max a b))⁻¹ : ℝ) : EReal) := by
  have hne : Real.exp (a - max a b) + Real.exp (b - max a b) ≠ 0 := by positivity
  unfold softmax2
  rw [hc, h0, h1, coe_max, ← EReal.coe_sub, ← EReal.coe_sub, ← EReal.coe_sub, Ideal.exp_coe, Ideal.exp_coe,
    Ideal.exp_coe, ← EReal.coe_add, Ideal.div_coe hne, ← EReal.coe_mul, one_div]

/-- The hyperbolic tangent of any extended real is a real number. -/
theorem tanh_isReal (z : EReal) : IsReal (Ideal.tanh z) := by
  induction z using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- One column of an affine layer is a real number when the inputs, that column's weights and its bias are. -/
theorem aff_isReal {K N : ℕ} (a : Fin K → EReal) (W : Fin K → Fin N → EReal) (b : Fin N → EReal) (c : Fin N)
    (ha : ∀ k, IsReal (a k)) (hW : ∀ k, IsReal (W k c)) (hb : IsReal (b c)) : IsReal (aff a W b c) := by
  unfold aff
  exact IsReal.add (IsReal.sum _ _ (fun k _ => IsReal.mul (ha k) (hW k))) hb

/-- With real second-layer parameters each logit of the gate is a real number: a finite sum of products of a
    hyperbolic tangent and a real weight, plus a real bias. -/
theorem logitR_isReal (x : Fin 64 → EReal) (G1 : Fin 64 → Fin 8 → EReal) (d1 : Fin 8 → EReal)
    (G2 : Fin 8 → Fin 2 → EReal) (d2 : Fin 2 → EReal)
    (hG2 : ∀ k c, IsReal (G2 k c)) (hd2 : ∀ c, IsReal (d2 c)) (c : Fin 2) : IsReal (logitR x G1 d1 G2 d2 c) := by
  unfold logitR
  exact aff_isReal _ G2 d2 c (fun k => tanh_isReal _) (fun k => hG2 k c) (hd2 c)

/-- The mix of two real expert outputs under two real logits: the logistic form is the softmax form.
    With w the first softmax weight, e₂ + w · (e₁ - e₂) = w · e₁ + (1 - w) · e₂. -/
theorem mix_eq (l : Fin 2 → EReal) (e1 e2 : EReal) (hl0 : IsReal (l 0)) (hl1 : IsReal (l 1))
    (h1 : IsReal e1) (h2 : IsReal e2) :
    e2 + Ideal.logistic (l 0 - l 1) * (e1 - e2) = softmax2 l 0 * e1 + softmax2 l 1 * e2 := by
  obtain ⟨a, ha⟩ := hl0
  obtain ⟨b, hb⟩ := hl1
  obtain ⟨p, rfl⟩ := h1
  obtain ⟨q, rfl⟩ := h2
  rw [softmax2_coe l a b a ha hb 0 ha, softmax2_coe l a b b ha hb 1 hb, ha, hb, ← EReal.coe_sub,
    Ideal.logistic_coe, ← EReal.coe_sub, ← EReal.coe_mul, ← EReal.coe_add, ← EReal.coe_mul, ← EReal.coe_mul,
    ← EReal.coe_add, logistic_eq_weight a b (max a b), weight_compl a b (max a b)]
  congr 1
  ring

/-! ## Layout -/

/-- A column of the left block of two matrices side by side is that column of the left matrix. -/
theorem hcat_left {K a b : ℕ} (n : ℕ) (A : Fin K → Fin a → EReal) (B : Fin K → Fin b → EReal) (k : Fin K)
    (c : Fin a) (h : c.val < n) : hcat n A B k ⟨c.val, h⟩ = A k c := by
  unfold hcat
  rw [dif_pos (show (⟨c.val, h⟩ : Fin n).val < a from c.isLt)]

/-- Column a + c of two matrices side by side, the left one a columns wide, is column c of the right matrix. -/
theorem hcat_right {K a b : ℕ} (n : ℕ) (A : Fin K → Fin a → EReal) (B : Fin K → Fin b → EReal) (k : Fin K)
    (c : Fin b) (h : a + c.val < n) : hcat n A B k ⟨a + c.val, h⟩ = B k c := by
  unfold hcat
  have h1 : ¬ (⟨a + c.val, h⟩ : Fin n).val < a := by show ¬ a + c.val < a; omega
  have h2 : (⟨a + c.val, h⟩ : Fin n).val - a < b := by show a + c.val - a < b; omega
  rw [dif_neg h1, dif_pos h2]
  congr 1
  apply Fin.ext
  show a + c.val - a = c.val
  omega

/-- An entry of the first of two vectors end to end. -/
theorem vcat_left {a b : ℕ} (n : ℕ) (u : Fin a → EReal) (v : Fin b → EReal) (c : Fin a) (h : c.val < n) :
    vcat n u v ⟨c.val, h⟩ = u c := by
  unfold vcat
  rw [dif_pos (show (⟨c.val, h⟩ : Fin n).val < a from c.isLt)]

/-- Entry a + c of two vectors end to end, the first of length a, is entry c of the second. -/
theorem vcat_right {a b : ℕ} (n : ℕ) (u : Fin a → EReal) (v : Fin b → EReal) (c : Fin b) (h : a + c.val < n) :
    vcat n u v ⟨a + c.val, h⟩ = v c := by
  unfold vcat
  have h1 : ¬ (⟨a + c.val, h⟩ : Fin n).val < a := by show ¬ a + c.val < a; omega
  have h2 : (⟨a + c.val, h⟩ : Fin n).val - a < b := by show a + c.val - a < b; omega
  rw [dif_neg h1, dif_pos h2]
  congr 1
  apply Fin.ext
  show a + c.val - a = c.val
  omega

/-- A left column of a fused affine layer is the left layer's column. -/
theorem aff_cat_left {K a b : ℕ} (n : ℕ) (x : Fin K → EReal) (A : Fin K → Fin a → EReal) (B : Fin K → Fin b → EReal)
    (u : Fin a → EReal) (v : Fin b → EReal) (c : Fin a) (h : c.val < n) :
    aff x (hcat n A B) (vcat n u v) ⟨c.val, h⟩ = aff x A u c := by
  unfold aff
  rw [vcat_left n u v c h]
  congr 1
  exact Finset.sum_congr rfl (fun k _ => by rw [hcat_left n A B k c h])

/-- A right column of a fused affine layer is the right layer's column. -/
theorem aff_cat_right {K a b : ℕ} (n : ℕ) (x : Fin K → EReal) (A : Fin K → Fin a → EReal) (B : Fin K → Fin b → EReal)
    (u : Fin a → EReal) (v : Fin b → EReal) (c : Fin b) (h : a + c.val < n) :
    aff x (hcat n A B) (vcat n u v) ⟨a + c.val, h⟩ = aff x B v c := by
  unfold aff
  rw [vcat_right n u v c h]
  congr 1
  exact Finset.sum_congr rfl (fun k _ => by rw [hcat_right n A B k c h])

section Fused

variable (x : Fin 64 → EReal) (W1 : Fin 64 → Fin 24 → EReal) (b1 : Fin 24 → EReal)
  (W2 : Fin 24 → Fin 24 → EReal) (b2 : Fin 24 → EReal)
  (E1 : Fin 24 → Fin 24 → EReal) (c1 : Fin 24 → EReal) (E2 : Fin 24 → Fin 24 → EReal) (c2 : Fin 24 → EReal)
  (G1 : Fin 64 → Fin 8 → EReal) (d1 : Fin 8 → EReal) (G2 : Fin 8 → Fin 2 → EReal) (d2 : Fin 2 → EReal)

/-- The first 24 units of the fused first layer are the backbone's hidden layer. -/
theorem cat1Lo_eq :
    cat1Lo x (hcat 32 W1 G1) (vcat 32 b1 d1) = fun k => Ideal.tanh (aff x W1 b1 k) := by
  funext k
  unfold cat1Lo cat1
  rw [aff_cat_left]

/-- The last 8 units of the fused first layer are the gate's hidden layer. -/
theorem cat1Hi_eq :
    cat1Hi x (hcat 32 W1 G1) (vcat 32 b1 d1) = fun k => Ideal.tanh (aff x G1 d1 k) := by
  funext k
  unfold cat1Hi cat1
  rw [aff_cat_right]

/-- The backbone's output is the same in both arrangements. -/
theorem hidC_eq : hidC x (hcat 32 W1 G1) (vcat 32 b1 d1) W2 b2 = hidR x W1 b1 W2 b2 := by
  funext c
  unfold hidC hidR
  rw [cat1Lo_eq]

/-- The gate's logits are the same in both arrangements. -/
theorem logitC_eq : logitC x (hcat 32 W1 G1) (vcat 32 b1 d1) G2 d2 = logitR x G1 d1 G2 d2 := by
  funext c
  unfold logitC logitR
  rw [cat1Hi_eq]

/-- The first 24 fused expert units are the first expert. -/
theorem catE_lo (c : Fin 24) (h : c.val < 48) :
    catE x (hcat 32 W1 G1) (vcat 32 b1 d1) W2 b2 (hcat 48 E1 E2) (vcat 48 c1 c2) ⟨c.val, h⟩
      = Ideal.tanh (aff (hidR x W1 b1 W2 b2) E1 c1 c) := by
  unfold catE
  rw [aff_cat_left, hidC_eq]

/-- The last 24 fused expert units are the second expert. -/
theorem catE_hi (c : Fin 24) (h : 24 + c.val < 48) :
    catE x (hcat 32 W1 G1) (vcat 32 b1 d1) W2 b2 (hcat 48 E1 E2) (vcat 48 c1 c2) ⟨24 + c.val, h⟩
      = Ideal.tanh (aff (hidR x W1 b1 W2 b2) E2 c2 c) := by
  unfold catE
  rw [aff_cat_right, hidC_eq]

/-- The mix is the same in both arrangements when the gate's second layer is real. -/
theorem mixC_eq (hG2 : ∀ k c, IsReal (G2 k c)) (hd2 : ∀ c, IsReal (d2 c)) :
    mixC x (hcat 32 W1 G1) (vcat 32 b1 d1) W2 b2 (hcat 48 E1 E2) (vcat 48 c1 c2) G2 d2
      = mixR x W1 b1 W2 b2 E1 c1 E2 c2 G1 d1 G2 d2 := by
  funext c
  unfold mixC mixR
  rw [catE_hi, catE_lo, logitC_eq]
  exact mix_eq (logitR x G1 d1 G2 d2) _ _ (logitR_isReal x G1 d1 G2 d2 hG2 hd2 0)
    (logitR_isReal x G1 d1 G2 d2 hG2 hd2 1) (tanh_isReal _) (tanh_isReal _)

end Fused

/-! ## The heads -/

/-- Column j of the fused heads with the fused bias is head j with its own bias, then the offset:
    (∑ k, m k · H_j k) + (h_j + base j) = ((∑ k, m k · H_j k) + h_j) + base j. -/
theorem heads_eq (m : Fin 24 → EReal) (Hs Ht Hy : Fin 24 → EReal) (hs ht hy : EReal) (base : Fin 3 → EReal)
    (j : Fin 3) :
    aff m (fun k => sel3 (Hs k) (Ht k) (Hy k)) (fun j => sel3 hs ht hy j + base j) j
      = sel3 ((∑ k : Fin 24, m k * Hs k) + hs) ((∑ k : Fin 24, m k * Ht k) + ht)
          ((∑ k : Fin 24, m k * Hy k) + hy) j + base j := by
  unfold aff sel3
  by_cases h0 : j.val = 0
  · simp only [if_pos h0]
    rw [add_assoc]
  · by_cases h1 : j.val = 1
    · simp only [if_neg h0, if_pos h1]
      rw [add_assoc]
    · simp only [if_neg h0, if_neg h1]
      rw [add_assoc]

/-! ## The two arrangements agree -/

/-- The fused arrangement, its parameters laid out from the separate ones, gives the separate arrangement's result
    whenever the gate's second layer is real. -/
theorem outCat_eq_outR (x : Fin 64 → EReal) (W1 : Fin 64 → Fin 24 → EReal) (b1 : Fin 24 → EReal)
    (W2 : Fin 24 → Fin 24 → EReal) (b2 : Fin 24 → EReal) (E1 : Fin 24 → Fin 24 → EReal) (c1 : Fin 24 → EReal)
    (E2 : Fin 24 → Fin 24 → EReal) (c2 : Fin 24 → EReal) (G1 : Fin 64 → Fin 8 → EReal) (d1 : Fin 8 → EReal)
    (G2 : Fin 8 → Fin 2 → EReal) (d2 : Fin 2 → EReal) (Hs Ht Hy : Fin 24 → EReal) (hs ht hy : EReal)
    (base : Fin 3 → EReal)
    (hG2 : ∀ k c, ∃ r : ℝ, G2 k c = (r : EReal)) (hd2 : ∀ c, ∃ r : ℝ, d2 c = (r : EReal)) (j : Fin 3) :
    Cert.Moe.outCat x (Cert.Moe.hcat 32 W1 G1) (Cert.Moe.vcat 32 b1 d1) W2 b2 (Cert.Moe.hcat 48 E1 E2)
        (Cert.Moe.vcat 48 c1 c2) G2 d2 (fun k => Cert.Moe.sel3 (Hs k) (Ht k) (Hy k))
        (fun j => Cert.Moe.sel3 hs ht hy j + base j) j
      = Cert.Moe.outR x W1 b1 W2 b2 E1 c1 E2 c2 G1 d1 G2 d2 Hs Ht Hy hs ht hy base j := by
  unfold outCat outR
  rw [mixC_eq x W1 b1 W2 b2 E1 c1 E2 c2 G1 d1 G2 d2 hG2 hd2]
  exact heads_eq _ Hs Ht Hy hs ht hy base j

end Cert.Bridge

end
-- ==== Proof.Finite.lean ====
/-
  Two of the twenty arguments are arrays of real numbers.

  The precondition is the conjunction, over the twenty argument arrays, of "every element's absolute value is
  below plus infinity". An "and" of one-bit words is 1 exactly when both words are 1, so the whole conjunction
  being 1 gives each conjunct; a conjunct is an all-reduce by "and" of an elementwise comparison, and such a
  reduce being 1 gives the comparison at every index; and an extended real whose absolute value is below plus
  infinity is a real number. Here this is read off for the gate's second layer: its weight matrix (8 by 2,
  argument 11) and its bias (length 2, argument 12), the only two arrays whose finiteness the algebra uses
  (the difference of the two logits must distribute over their affine form).
-/
import Idealize.ShloMosaic.Lib.ReduceAll
import Idealize.ShloMosaic.Lib.ValueIdx
import proofs.«101308_j75230647156978_2_alg».proof.Pre_finite_inputs
import proofs.«101308_j75230647156978_2_alg».proof.Proof.LibReal

noncomputable section

namespace Cert.Finite

open Idealize.ShloMosaic Cert.Pre_finite_inputs Cert.Pre_finite_inputs.Facts

variable [Cert.Pre_finite_inputs.Facts]

variable (a0 : FVec Ideal S1048576x64 .f32) (a1 : FVec Ideal S64x24 .f32) (a2 : FVec Ideal S24 .f32)
  (a3 : FVec Ideal S24x24 .f32) (a4 : FVec Ideal S24 .f32) (a5 : FVec Ideal S24x24 .f32) (a6 : FVec Ideal S24 .f32)
  (a7 : FVec Ideal S24x24 .f32) (a8 : FVec Ideal S24 .f32) (a9 : FVec Ideal S64x8 .f32) (a10 : FVec Ideal S8 .f32)
  (a11 : FVec Ideal S8x2 .f32) (a12 : FVec Ideal S2 .f32) (a13 : FVec Ideal S24x1 .f32) (a14 : FVec Ideal S1 .f32)
  (a15 : FVec Ideal S24x1 .f32) (a16 : FVec Ideal S1 .f32) (a17 : FVec Ideal S24x1 .f32) (a18 : FVec Ideal S1 .f32)
  (a19 : FVec Ideal S1x3 .f32)

/-- The conjunction being 1 gives its twelfth and thirteenth conjuncts: the all-reduce of the comparison for the
    gate's second weight matrix is 1, and so is the one for its bias. The conjunction is nested to the left, so
    the last seven conjuncts are peeled off first. -/
theorem conjuncts_W2_b2
    (h : fn (F := Ideal) a0 a1 a2 a3 a4 a5 a6 a7 a8 a9 a10 a11 a12 a13 a14 a15 a16 a17 a18 a19 = fun _ => 1#1) :
    Host.reduce IntOp.andi
        (cmpf .olt (Host.absf a11) (broadcastInDim S8x2 ![] bcast_S_S8x2 (constant (F := Ideal) S_ .f32 0x7F800000#32)))
        (constantI S_ 1 1#1) reducesTo_S8x2_S_d0_1 h_S_ ValueIdx.ix0 = 1#1
    ∧ Host.reduce IntOp.andi
        (cmpf .olt (Host.absf a12) (broadcastInDim S2 ![] bcast_S_S2 (constant (F := Ideal) S_ .f32 0x7F800000#32)))
        (constantI S_ 1 1#1) reducesTo_S2_S_d0 h_S_ ValueIdx.ix0 = 1#1 := by
  have h0 := congrFun h ValueIdx.ix0
  dsimp only [fn, fn_part1, fn_part2, fn_part3, fn_part4, fn_part5] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨h7, -⟩ := IntOp.andi_eq_one.1 h6
  obtain ⟨h8, hb⟩ := IntOp.andi_eq_one.1 h7
  obtain ⟨-, hW⟩ := IntOp.andi_eq_one.1 h8
  exact ⟨hW, hb⟩

/-- Every entry of the gate's second weight matrix is a real number. -/
theorem g_W2_real
    (h : fn (F := Ideal) a0 a1 a2 a3 a4 a5 a6 a7 a8 a9 a10 a11 a12 a13 a14 a15 a16 a17 a18 a19 = fun _ => 1#1) :
    ∀ i, ∃ r : ℝ, a11 i = (r : EReal) := fun i =>
  Cert.LibReal.elem_real bcast_S_S8x2 a11 i
    (Host.reduce_andi_all _ _ reducesTo_S8x2_S_d0_1 h_S_ ValueIdx.ix0
      (conjuncts_W2_b2 a0 a1 a2 a3 a4 a5 a6 a7 a8 a9 a10 a11 a12 a13 a14 a15 a16 a17 a18 a19 h).1 i)

/-- Every entry of the gate's second bias is a real number. -/
theorem g_b2_real
    (h : fn (F := Ideal) a0 a1 a2 a3 a4 a5 a6 a7 a8 a9 a10 a11 a12 a13 a14 a15 a16 a17 a18 a19 = fun _ => 1#1) :
    ∀ i, ∃ r : ℝ, a12 i = (r : EReal) := fun i =>
  Cert.LibReal.elem_real bcast_S_S2 a12 i
    (Host.reduce_andi_all _ _ reducesTo_S2_S_d0 h_S_ ValueIdx.ix0
      (conjuncts_W2_b2 a0 a1 a2 a3 a4 a5 a6 a7 a8 a9 a10 a11 a12 a13 a14 a15 a16 a17 a18 a19 h).2 i)

end Cert.Finite

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.RefParts.lean ====
/-
  Three facts about the separate-layer arrangement that need no program, only shapes.

  * The maximum of a two-column matrix along each row, folded from minus infinity, is the larger of the row's two
    entries: `max ⊥ a = a`, and a fold over a two-element index set is one `max`.
  * The stabilized two-way softmax as a host program writes it is `Cert.Moe.softmax2`: the row maximum is taken
    once more against minus infinity (`max ⊥ m = m`), and the denominator is a sum started from zero (`0 + s = s`).
  * Three one-column matrices joined along the column axis: the entry at row `r` and column `j` is the entry at row
    `r` of the `j`-th matrix, because the three unit extents laid end to end put column `j` in piece `j` at offset 0.
-/
import proofs.«101308_j75230647156978_2_alg».proof.ReferenceIdeal
import proofs.«101308_j75230647156978_2_alg».proof.Proof.Spec
import proofs.«101308_j75230647156978_2_alg».proof.Proof.LibHostKeepdims
import Idealize.ShloMosaic.Lib.Pipeline.Value

noncomputable section

namespace Cert.RefAt

open Cert.ReferenceIdeal Idealize.ShloMosaic Idealize.ShloMosaic.ValueIdx

/-- The single-precision word `0xFF800000` is minus infinity, the least extended real. -/
theorem negInf_word : Ideal.ofBits .f32 0xFF800000#32 = (⊥ : EReal) := by
  simp [Ideal.ofBits, Ideal.ieee]

/-- A fold of `max` from the least element over a two-element index set is the larger of the two values. -/
theorem fold_max_two (f : Fin 2 → EReal) :
    (Finset.univ : Finset (Fin 2)).fold max (⊥ : EReal) f = max (f 0) (f 1) := by
  have hu : (Finset.univ : Finset (Fin 2)) = insert 0 {1} := by decide
  rw [hu, Finset.fold_insert (by decide), Finset.fold_singleton, max_bot_right]

/-- The row maximum of a two-column matrix, folded from minus infinity, is the larger of the row's two entries. -/
theorem rowMax_at (y : FVec Ideal S1048576x2 .f32) (init : S_.Idx → Ideal .f32)
    (h' : S1048576x2.ReducesTo [1] S1048576) (hu : 0 < S_.numel)
    (hinit : init (Shape.Idx.first hu) = (⊥ : EReal)) (r : Fin 1048576) :
    Host.reduce (FloatOps.maximumf (F := Ideal) (φ := .f32)) y init h' hu (ix1 r)
      = max (y (ix2 r (0 : Fin 2))) (y (ix2 r (1 : Fin 2))) := by
  rw [hostReduce_max_rows_apply y init h' (by decide) hu r, hinit]
  exact fold_max_two fun k => y (ix2 r k)

/-- The host program's stabilized softmax of two logits is `softmax2`: taking the maximum with minus infinity and
    starting the sum from zero change nothing. -/
theorem softmax_host (l : Fin 2 → EReal) (c : Fin 2) :
    Ideal.div (Ideal.exp (l c - max (⊥ : EReal) (max (l 0) (l 1))))
        ((0 : EReal) + (Ideal.exp (l 0 - max (⊥ : EReal) (max (l 0) (l 1)))
          + Ideal.exp (l 1 - max (⊥ : EReal) (max (l 0) (l 1)))))
      = Cert.Moe.softmax2 l c := by
  rw [max_bot_left, zero_add]
  rfl

section Concat
variable {α : Type}

/-- Three one-column matrices joined along the column axis, read at row `r` and column `j`: the `j`-th matrix at
    row `r`. -/
theorem concat3_at (a b c : S1048576x1.Idx → α)
    (h : Shape.Concatenates [S1048576x1, S1048576x1, S1048576x1] S1048576x3 1) (r : Fin 1048576) (j : Fin 3) :
    concatenate S1048576x3 1 [⟨S1048576x1, a⟩, ⟨S1048576x1, b⟩, ⟨S1048576x1, c⟩] h (ix2 r j)
      = if j.val = 0 then a (ix2 r (0 : Fin 1)) else if j.val = 1 then b (ix2 r (0 : Fin 1)) else c (ix2 r (0 : Fin 1)) := by
  match j with
  | ⟨0, _⟩ =>
    refine (concatenate_apply_piece (1 : Fin S1048576x3.rank)
      [⟨S1048576x1, a⟩, ⟨S1048576x1, b⟩, ⟨S1048576x1, c⟩] h _ 0 (by simp) S1048576x1 a rfl rfl 0 rfl
      (ix2 r (0 : Fin 1)) (fun d hd => ?_) rfl).trans rfl
    match d with
    | ⟨0, _⟩ => rfl
    | ⟨1, _⟩ => exact absurd rfl hd
  | ⟨1, _⟩ =>
    refine (concatenate_apply_piece (1 : Fin S1048576x3.rank)
      [⟨S1048576x1, a⟩, ⟨S1048576x1, b⟩, ⟨S1048576x1, c⟩] h _ 1 (by simp) S1048576x1 b rfl rfl 1 rfl
      (ix2 r (0 : Fin 1)) (fun d hd => ?_) rfl).trans rfl
    match d with
    | ⟨0, _⟩ => rfl
    | ⟨1, _⟩ => exact absurd rfl hd
  | ⟨2, _⟩ =>
    refine (concatenate_apply_piece (1 : Fin S1048576x3.rank)
      [⟨S1048576x1, a⟩, ⟨S1048576x1, b⟩, ⟨S1048576x1, c⟩] h _ 2 (by simp) S1048576x1 c rfl rfl 2 rfl
      (ix2 r (0 : Fin 1)) (fun d hd => ?_) rfl).trans rfl
    match d with
    | ⟨0, _⟩ => rfl
    | ⟨1, _⟩ => exact absurd rfl hd

end Concat

end Cert.RefAt

end
-- ==== Proof.RefAt.lean ====
/-
  The separate-layer program up to the mix of the two experts, read one row of the batch at a time.

  Every operation of the program either acts entry by entry (sums, products, differences, quotients, tanh, exp), or
  copies entries from one place to another (a bias vector laid along every row; a per-row number laid along every
  column; a column cut out of a two-column matrix; three columns set side by side), or contracts a row against a
  column of a weight matrix. So the entry of each intermediate array at row `r` depends on row `r` of the batch
  alone, and is the corresponding quantity of `Cert.Moe`'s separate arrangement for that row:

  * the two tanh layers of the backbone are `hidR`; each expert is a tanh of an affine image of it;
  * the gate's hidden layer is a tanh of an affine image of the row and its two logits are `logitR`;
  * the row maximum of the logits, the shifted exponentials, their sum and the quotient are `softmax2` (the maximum
    is folded from minus infinity and taken once more against minus infinity, the sum is started from zero: neither
    changes it);
  * the weighted sum of the two experts is `mixR`.
-/
import proofs.«101308_j75230647156978_2_alg».proof.Proof.RefReadP
import proofs.«101308_j75230647156978_2_alg».proof.Proof.RefParts

noncomputable section

namespace Cert.RefAt

open Cert.ReferenceIdeal Cert.ReferenceIdeal.Gen Cert.ReferenceIdeal.ReadP Cert.Moe
open Idealize.ShloMosaic Idealize.ShloMosaic.ValueIdx

/-- Two indices of a two-axis array are equal when their two coordinates are. -/
local macro "idx2" : tactic =>
  `(tactic| exact funext fun a => Fin.ext (by match a with | ⟨0, _⟩ => rfl | ⟨1, _⟩ => rfl))
/-- Two indices of a one-axis array are equal when their coordinate is. -/
local macro "idx1" : tactic =>
  `(tactic| exact funext fun a => Fin.ext (by match a with | ⟨0, _⟩ => rfl))

variable (x0 : (⟨S1048576x64, .f32⟩ : BufTy).Contents (Elt Ideal))
  (x1 : (⟨S64x24, .f32⟩ : BufTy).Contents (Elt Ideal)) (x2 : (⟨S24, .f32⟩ : BufTy).Contents (Elt Ideal)) (x3 : (⟨S24x24, .f32⟩ : BufTy).Contents (Elt Ideal))
  (x4 : (⟨S24, .f32⟩ : BufTy).Contents (Elt Ideal)) (x5 : (⟨S24x24, .f32⟩ : BufTy).Contents (Elt Ideal)) (x6 : (⟨S24, .f32⟩ : BufTy).Contents (Elt Ideal))
  (x7 : (⟨S24x24, .f32⟩ : BufTy).Contents (Elt Ideal)) (x8 : (⟨S24, .f32⟩ : BufTy).Contents (Elt Ideal)) (x9 : (⟨S64x8, .f32⟩ : BufTy).Contents (Elt Ideal))
  (x10 : (⟨S8, .f32⟩ : BufTy).Contents (Elt Ideal)) (x11 : (⟨S8x2, .f32⟩ : BufTy).Contents (Elt Ideal)) (x12 : (⟨S2, .f32⟩ : BufTy).Contents (Elt Ideal))
  (x13 : (⟨S24x1, .f32⟩ : BufTy).Contents (Elt Ideal)) (x14 : (⟨S1, .f32⟩ : BufTy).Contents (Elt Ideal)) (x15 : (⟨S24x1, .f32⟩ : BufTy).Contents (Elt Ideal))
  (x16 : (⟨S1, .f32⟩ : BufTy).Contents (Elt Ideal)) (x17 : (⟨S24x1, .f32⟩ : BufTy).Contents (Elt Ideal)) (x18 : (⟨S1, .f32⟩ : BufTy).Contents (Elt Ideal)) (x19 : (⟨S1x3, .f32⟩ : BufTy).Contents (Elt Ideal))
  (r : Fin 1048576)

/-! ## The parameters as functions of their coordinates -/

/-- Row `r` of the batch. -/
abbrev xRow : Fin 64 → EReal := fun k => x0 (ix2 r k)
/-- The backbone's first weight matrix and bias. -/
abbrev bbW1 : Fin 64 → Fin 24 → EReal := fun k c => x1 (ix2 k c)
abbrev bbB1 : Fin 24 → EReal := fun c => x2 (ix1 c)
/-- The backbone's second weight matrix and bias. -/
abbrev bbW2 : Fin 24 → Fin 24 → EReal := fun k c => x3 (ix2 k c)
abbrev bbB2 : Fin 24 → EReal := fun c => x4 (ix1 c)
/-- The first expert's weight matrix and bias. -/
abbrev e1W : Fin 24 → Fin 24 → EReal := fun k c => x5 (ix2 k c)
abbrev e1B : Fin 24 → EReal := fun c => x6 (ix1 c)
/-- The second expert's weight matrix and bias. -/
abbrev e2W : Fin 24 → Fin 24 → EReal := fun k c => x7 (ix2 k c)
abbrev e2B : Fin 24 → EReal := fun c => x8 (ix1 c)
/-- The gate's first weight matrix and bias. -/
abbrev gW1 : Fin 64 → Fin 8 → EReal := fun k c => x9 (ix2 k c)
abbrev gB1 : Fin 8 → EReal := fun c => x10 (ix1 c)
/-- The gate's second weight matrix and bias. -/
abbrev gW2 : Fin 8 → Fin 2 → EReal := fun k c => x11 (ix2 k c)
abbrev gB2 : Fin 2 → EReal := fun c => x12 (ix1 c)
/-- The three heads' one-column weights and their biases. -/
abbrev hsW : Fin 24 → EReal := fun k => x13 (ix2 k (0 : Fin 1))
abbrev hsB : EReal := x14 (ix1 (0 : Fin 1))
abbrev htW : Fin 24 → EReal := fun k => x15 (ix2 k (0 : Fin 1))
abbrev htB : EReal := x16 (ix1 (0 : Fin 1))
abbrev hyW : Fin 24 → EReal := fun k => x17 (ix2 k (0 : Fin 1))
abbrev hyB : EReal := x18 (ix1 (0 : Fin 1))
/-- The learned offset, one number per output column. -/
abbrev baseR : Fin 3 → EReal := fun j => x19 (ix2 (0 : Fin 1) j)

/-- The two gate logits of row `r`. -/
abbrev logits : Fin 2 → EReal := logitR (xRow x0 r) (gW1 x9) (gB1 x10) (gW2 x11) (gB2 x12)

/-- The weighted mix of the two experts for row `r`. -/
abbrev mixRow : Fin 24 → EReal :=
  mixR (xRow x0 r) (bbW1 x1) (bbB1 x2) (bbW2 x3) (bbB2 x4) (e1W x5) (e1B x6) (e2W x7) (e2B x8)
    (gW1 x9) (gB1 x10) (gW2 x11) (gB2 x12)

/-! ## The backbone and the experts -/

/-- The backbone's hidden layer at row `r`, unit `c`: the tanh of the affine image of the row. -/
theorem bb1_at (c : Fin 24) :
    val_main_v4 (F := Ideal) x0 x1 x2 (ix2 r c) = Ideal.tanh (aff (xRow x0 r) (bbW1 x1) (bbB1 x2) c) := by
  rw [val_main_v4_apply, val_main_v3_apply, val_main_v0_apply, val_main_v2_apply, val_main_v1_apply]
  have el : ∀ k, lidx_main_v0 (ix2 r c) k = ix2 r k := fun k => by idx2
  have er : ∀ k, ridx_main_v0 (ix2 r c) k = ix2 k c := fun k => by idx2
  have eb : idx_main_v1 (idx_main_v2 (ix2 r c)) = ix1 c := by idx1
  simp only [el, er, eb, Ideal.hostUnary_tanh_def, Ideal.addf_def]
  rfl

/-- The backbone's output at row `r`, unit `c`: its two tanh layers applied to the row. -/
theorem hid_at (c : Fin 24) :
    val_main_v9 (F := Ideal) x0 x1 x2 x3 x4 (ix2 r c) = hidR (xRow x0 r) (bbW1 x1) (bbB1 x2) (bbW2 x3) (bbB2 x4) c := by
  rw [val_main_v9_apply, val_main_v8_apply, val_main_v5_apply, val_main_v7_apply, val_main_v6_apply]
  have el : ∀ k, lidx_main_v5 (ix2 r c) k = ix2 r k := fun k => by idx2
  have er : ∀ k, ridx_main_v5 (ix2 r c) k = ix2 k c := fun k => by idx2
  have eb : idx_main_v6 (idx_main_v7 (ix2 r c)) = ix1 c := by idx1
  simp only [el, er, eb, bb1_at, Ideal.hostUnary_tanh_def, Ideal.addf_def]
  rfl

/-- The first expert at row `r`, unit `c`: the tanh of an affine image of the backbone's output. -/
theorem e1_at (c : Fin 24) :
    val_main_v14 (F := Ideal) x0 x1 x2 x3 x4 x5 x6 (ix2 r c) = Ideal.tanh (aff (hidR (xRow x0 r) (bbW1 x1) (bbB1 x2) (bbW2 x3) (bbB2 x4)) (e1W x5) (e1B x6) c) := by
  rw [val_main_v14_apply, val_main_v13_apply, val_main_v10_apply, val_main_v12_apply, val_main_v11_apply]
  have el : ∀ k, lidx_main_v10 (ix2 r c) k = ix2 r k := fun k => by idx2
  have er : ∀ k, ridx_main_v10 (ix2 r c) k = ix2 k c := fun k => by idx2
  have eb : idx_main_v11 (idx_main_v12 (ix2 r c)) = ix1 c := by idx1
  simp only [el, er, eb, hid_at, Ideal.hostUnary_tanh_def, Ideal.addf_def]
  rfl

/-- The second expert at row `r`, unit `c`. -/
theorem e2_at (c : Fin 24) :
    val_main_v19 (F := Ideal) x0 x1 x2 x3 x4 x7 x8 (ix2 r c) = Ideal.tanh (aff (hidR (xRow x0 r) (bbW1 x1) (bbB1 x2) (bbW2 x3) (bbB2 x4)) (e2W x7) (e2B x8) c) := by
  rw [val_main_v19_apply, val_main_v18_apply, val_main_v15_apply, val_main_v17_apply, val_main_v16_apply]
  have el : ∀ k, lidx_main_v15 (ix2 r c) k = ix2 r k := fun k => by idx2
  have er : ∀ k, ridx_main_v15 (ix2 r c) k = ix2 k c := fun k => by idx2
  have eb : idx_main_v16 (idx_main_v17 (ix2 r c)) = ix1 c := by idx1
  simp only [el, er, eb, hid_at, Ideal.hostUnary_tanh_def, Ideal.addf_def]
  rfl

/-! ## The gate -/

/-- The gate's hidden layer at row `r`, unit `c`: the tanh of an affine image of the row. -/
theorem g1_at (c : Fin 8) :
    val_main_v24 (F := Ideal) x0 x9 x10 (ix2 r c) = Ideal.tanh (aff (xRow x0 r) (gW1 x9) (gB1 x10) c) := by
  rw [val_main_v24_apply, val_main_v23_apply, val_main_v20_apply, val_main_v22_apply, val_main_v21_apply]
  have el : ∀ k, lidx_main_v20 (ix2 r c) k = ix2 r k := fun k => by idx2
  have er : ∀ k, ridx_main_v20 (ix2 r c) k = ix2 k c := fun k => by idx2
  have eb : idx_main_v21 (idx_main_v22 (ix2 r c)) = ix1 c := by idx1
  simp only [el, er, eb, Ideal.hostUnary_tanh_def, Ideal.addf_def]
  rfl

/-- The gate's logit `c` of row `r`: an affine image of the gate's hidden layer. -/
theorem logit_at (c : Fin 2) :
    val_main_v28 (F := Ideal) x0 x9 x10 x11 x12 (ix2 r c) = (logits x0 x9 x10 x11 x12 r) c := by
  rw [val_main_v28_apply, val_main_v25_apply, val_main_v27_apply, val_main_v26_apply]
  have el : ∀ k, lidx_main_v25 (ix2 r c) k = ix2 r k := fun k => by idx2
  have er : ∀ k, ridx_main_v25 (ix2 r c) k = ix2 k c := fun k => by idx2
  have eb : idx_main_v26 (idx_main_v27 (ix2 r c)) = ix1 c := by idx1
  simp only [el, er, eb, g1_at, Ideal.addf_def]
  rfl

/-! ## The two-way softmax -/

/-- The maximum of the two logits of row `r`, folded from minus infinity along the row. -/
theorem rmax_at :
    val_main_v29 (F := Ideal) x0 x9 x10 x11 x12 (ix1 r) = max ((logits x0 x9 x10 x11 x12 r) 0) ((logits x0 x9 x10 x11 x12 r) 1) := by
  unfold val_main_v29
  refine (rowMax_at (val_main_v28 (F := Ideal) x0 x9 x10 x11 x12) (val_main_cst (F := Ideal))
    reducesTo_S1048576x2_S1048576_d1 h_S_ ((val_main_cst_apply _).trans negInf_word) r).trans ?_
  rw [logit_at, logit_at]

/-- Taking that maximum once more against minus infinity leaves it unchanged. -/
theorem m_at :
    val_main_v31 (F := Ideal) x0 x9 x10 x11 x12 (ix1 r) = max ((logits x0 x9 x10 x11 x12 r) 0) ((logits x0 x9 x10 x11 x12 r) 1) := by
  rw [val_main_v31_apply, val_main_v30_apply, val_main_cst_0_apply, rmax_at]
  show max (Ideal.ofBits .f32 0xFF800000#32) _ = _
  rw [negInf_word, max_bot_left]

/-- The exponential of logit `c` of row `r` less the row's maximum. -/
theorem exp_at (c : Fin 2) :
    val_main_v35 (F := Ideal) x0 x9 x10 x11 x12 (ix2 r c)
      = Ideal.exp ((logits x0 x9 x10 x11 x12 r) c - max ((logits x0 x9 x10 x11 x12 r) 0) ((logits x0 x9 x10 x11 x12 r) 1)) := by
  rw [val_main_v35_apply, val_main_v34_apply, val_main_v33_apply, val_main_v32_apply, logit_at]
  have e : idx_main_v32 (idx_main_v33 (ix2 r c)) = ix1 r := by idx1
  rw [e, m_at]
  rfl

/-- The softmax weight `c` of row `r`: the shifted exponential over the sum of the two, the sum started from zero. -/
theorem sm_at (c : Fin 2) :
    val_main_v39 (F := Ideal) x0 x9 x10 x11 x12 (ix2 r c) = softmax2 (logits x0 x9 x10 x11 x12 r) c := by
  rw [val_main_v39_apply, val_main_v38_apply, val_main_v37_apply, val_main_v36_apply, val_main_cst_1_apply]
  have e : ∀ k, idx_main_v36 (idx_main_v37 (idx_main_v38 (ix2 r c))) k = ix2 r k := fun k => by idx2
  simp only [e, exp_at]
  rw [Fin.sum_univ_two]
  show Ideal.div _ (Ideal.ofBits .f32 0x00000000#32 + _) = _
  rw [Ideal.ofBits_zero_f32, zero_add]
  rfl

/-- The first weight laid along the 24 units of row `r`. -/
theorem w0_at (c : Fin 24) :
    val_main_v41 (F := Ideal) x0 x9 x10 x11 x12 (ix2 r c) = softmax2 (logits x0 x9 x10 x11 x12 r) 0 := by
  rw [val_main_v41_apply, val_main_v40_apply]
  have e : idx_main_v40 (idx_main_v41 (ix2 r c)) = ix2 r (0 : Fin 2) := by idx2
  rw [e, sm_at]

/-- The second weight laid along the 24 units of row `r`. -/
theorem w1_at (c : Fin 24) :
    val_main_v44 (F := Ideal) x0 x9 x10 x11 x12 (ix2 r c) = softmax2 (logits x0 x9 x10 x11 x12 r) 1 := by
  rw [val_main_v44_apply, val_main_v43_apply]
  have e : idx_main_v43 (idx_main_v44 (ix2 r c)) = ix2 r (1 : Fin 2) := by idx2
  rw [e, sm_at]

/-! ## The mix -/

/-- The mix at row `r`, unit `c`: the first weight times the first expert plus the second times the second. -/
theorem mixRow_at (c : Fin 24) :
    val_main_v46 (F := Ideal) x0 x1 x2 x3 x4 x5 x6 x7 x8 x9 x10 x11 x12 (ix2 r c) = (mixRow x0 x1 x2 x3 x4 x5 x6 x7 x8 x9 x10 x11 x12 r) c := by
  rw [val_main_v46_apply, val_main_v42_apply, val_main_v45_apply, w0_at, w1_at, e1_at, e2_at]
  rfl

/-- **The mix of the separate-layer program is `mixR` row by row**: its entry at row `r` and unit `c` is the separate
    arrangement's mix for row `r` of the batch, the parameters read off the argument arrays coordinate by coordinate. -/
theorem mix_at (x0 : (⟨S1048576x64, .f32⟩ : BufTy).Contents (Elt Ideal))
    (x1 : (⟨S64x24, .f32⟩ : BufTy).Contents (Elt Ideal))
    (x2 : (⟨S24, .f32⟩ : BufTy).Contents (Elt Ideal))
    (x3 : (⟨S24x24, .f32⟩ : BufTy).Contents (Elt Ideal))
    (x4 : (⟨S24, .f32⟩ : BufTy).Contents (Elt Ideal))
    (x5 : (⟨S24x24, .f32⟩ : BufTy).Contents (Elt Ideal))
    (x6 : (⟨S24, .f32⟩ : BufTy).Contents (Elt Ideal))
    (x7 : (⟨S24x24, .f32⟩ : BufTy).Contents (Elt Ideal))
    (x8 : (⟨S24, .f32⟩ : BufTy).Contents (Elt Ideal))
    (x9 : (⟨S64x8, .f32⟩ : BufTy).Contents (Elt Ideal))
    (x10 : (⟨S8, .f32⟩ : BufTy).Contents (Elt Ideal))
    (x11 : (⟨S8x2, .f32⟩ : BufTy).Contents (Elt Ideal))
    (x12 : (⟨S2, .f32⟩ : BufTy).Contents (Elt Ideal))
    (r : Fin 1048576) (c : Fin 24) :
    val_main_v46 (F := Ideal) x0 x1 x2 x3 x4 x5 x6 x7 x8 x9 x10 x11 x12 (ix2 r c)
      = mixR (fun k => x0 (ix2 r k)) (fun k c => x1 (ix2 k c)) (fun c => x2 (ix1 c))
          (fun k c => x3 (ix2 k c)) (fun c => x4 (ix1 c)) (fun k c => x5 (ix2 k c)) (fun c => x6 (ix1 c))
          (fun k c => x7 (ix2 k c)) (fun c => x8 (ix1 c)) (fun k c => x9 (ix2 k c)) (fun c => x10 (ix1 c))
          (fun k c => x11 (ix2 k c)) (fun c => x12 (ix1 c)) c :=
  mixRow_at x0 x1 x2 x3 x4 x5 x6 x7 x8 x9 x10 x11 x12 r c

end Cert.RefAt

end
-- ==== Proof.RefAtTail.lean ====
/-
  The heads of the separate-layer program, read one row of the batch at a time.

  Each head contracts the mix of row `r` against its one-column weight and adds its one bias; the three results set
  side by side are `sel3` of them (column `j` of the joined array is the `j`-th column), and the learned offset, one
  number per column laid along every row, is added column by column: `outR`.
-/
import proofs.«101308_j75230647156978_2_alg».proof.Proof.RefAt

noncomputable section

namespace Cert.RefAt

open Cert.ReferenceIdeal Cert.ReferenceIdeal.Gen Cert.ReferenceIdeal.ReadP Cert.Moe
open Idealize.ShloMosaic Idealize.ShloMosaic.ValueIdx

/-- Two indices of a two-axis array are equal when their two coordinates are. -/
local macro "idx2" : tactic =>
  `(tactic| exact funext fun a => Fin.ext (by match a with | ⟨0, _⟩ => rfl | ⟨1, _⟩ => rfl))
/-- Two indices of a one-axis array are equal when their coordinate is. -/
local macro "idx1" : tactic =>
  `(tactic| exact funext fun a => Fin.ext (by match a with | ⟨0, _⟩ => rfl))

variable (x0 : (⟨S1048576x64, .f32⟩ : BufTy).Contents (Elt Ideal))
  (x1 : (⟨S64x24, .f32⟩ : BufTy).Contents (Elt Ideal)) (x2 : (⟨S24, .f32⟩ : BufTy).Contents (Elt Ideal)) (x3 : (⟨S24x24, .f32⟩ : BufTy).Contents (Elt Ideal))
  (x4 : (⟨S24, .f32⟩ : BufTy).Contents (Elt Ideal)) (x5 : (⟨S24x24, .f32⟩ : BufTy).Contents (Elt Ideal)) (x6 : (⟨S24, .f32⟩ : BufTy).Contents (Elt Ideal))
  (x7 : (⟨S24x24, .f32⟩ : BufTy).Contents (Elt Ideal)) (x8 : (⟨S24, .f32⟩ : BufTy).Contents (Elt Ideal)) (x9 : (⟨S64x8, .f32⟩ : BufTy).Contents (Elt Ideal))
  (x10 : (⟨S8, .f32⟩ : BufTy).Contents (Elt Ideal)) (x11 : (⟨S8x2, .f32⟩ : BufTy).Contents (Elt Ideal)) (x12 : (⟨S2, .f32⟩ : BufTy).Contents (Elt Ideal))
  (x13 : (⟨S24x1, .f32⟩ : BufTy).Contents (Elt Ideal)) (x14 : (⟨S1, .f32⟩ : BufTy).Contents (Elt Ideal)) (x15 : (⟨S24x1, .f32⟩ : BufTy).Contents (Elt Ideal))
  (x16 : (⟨S1, .f32⟩ : BufTy).Contents (Elt Ideal)) (x17 : (⟨S24x1, .f32⟩ : BufTy).Contents (Elt Ideal)) (x18 : (⟨S1, .f32⟩ : BufTy).Contents (Elt Ideal)) (x19 : (⟨S1x3, .f32⟩ : BufTy).Contents (Elt Ideal))
  (r : Fin 1048576)

/-- The first head of row `r`: the mix contracted against the head's weight column, plus its bias. -/
theorem headS_at :
    val_main_v50 (F := Ideal) x0 x1 x2 x3 x4 x5 x6 x7 x8 x9 x10 x11 x12 x13 x14 (ix2 r (0 : Fin 1))
      = (∑ k : Fin 24, (mixRow x0 x1 x2 x3 x4 x5 x6 x7 x8 x9 x10 x11 x12 r) k * hsW x13 k) + hsB x14 := by
  rw [val_main_v50_apply, val_main_v47_apply, val_main_v49_apply, val_main_v48_apply]
  have el : ∀ k, lidx_main_v47 (ix2 r (0 : Fin 1)) k = ix2 r k := fun k => by idx2
  have er : ∀ k, ridx_main_v47 (ix2 r (0 : Fin 1)) k = ix2 k (0 : Fin 1) := fun k => by idx2
  have eb : idx_main_v48 (idx_main_v49 (ix2 r (0 : Fin 1))) = ix1 (0 : Fin 1) := by idx1
  simp only [el, er, eb, mixRow_at, Ideal.addf_def]

/-- The second head of row `r`. -/
theorem headT_at :
    val_main_v54 (F := Ideal) x0 x1 x2 x3 x4 x5 x6 x7 x8 x9 x10 x11 x12 x15 x16 (ix2 r (0 : Fin 1))
      = (∑ k : Fin 24, (mixRow x0 x1 x2 x3 x4 x5 x6 x7 x8 x9 x10 x11 x12 r) k * htW x15 k) + htB x16 := by
  rw [val_main_v54_apply, val_main_v51_apply, val_main_v53_apply, val_main_v52_apply]
  have el : ∀ k, lidx_main_v51 (ix2 r (0 : Fin 1)) k = ix2 r k := fun k => by idx2
  have er : ∀ k, ridx_main_v51 (ix2 r (0 : Fin 1)) k = ix2 k (0 : Fin 1) := fun k => by idx2
  have eb : idx_main_v52 (idx_main_v53 (ix2 r (0 : Fin 1))) = ix1 (0 : Fin 1) := by idx1
  simp only [el, er, eb, mixRow_at, Ideal.addf_def]

/-- The third head of row `r`. -/
theorem headY_at :
    val_main_v58 (F := Ideal) x0 x1 x2 x3 x4 x5 x6 x7 x8 x9 x10 x11 x12 x17 x18 (ix2 r (0 : Fin 1))
      = (∑ k : Fin 24, (mixRow x0 x1 x2 x3 x4 x5 x6 x7 x8 x9 x10 x11 x12 r) k * hyW x17 k) + hyB x18 := by
  rw [val_main_v58_apply, val_main_v55_apply, val_main_v57_apply, val_main_v56_apply]
  have el : ∀ k, lidx_main_v55 (ix2 r (0 : Fin 1)) k = ix2 r k := fun k => by idx2
  have er : ∀ k, ridx_main_v55 (ix2 r (0 : Fin 1)) k = ix2 k (0 : Fin 1) := fun k => by idx2
  have eb : idx_main_v56 (idx_main_v57 (ix2 r (0 : Fin 1))) = ix1 (0 : Fin 1) := by idx1
  simp only [el, er, eb, mixRow_at, Ideal.addf_def]

/-- The three heads side by side: column `j` of row `r` is head `j`. -/
theorem cat_at (j : Fin 3) :
    val_main_v59 (F := Ideal) x0 x1 x2 x3 x4 x5 x6 x7 x8 x9 x10 x11 x12 x13 x14 x15 x16 x17 x18 (ix2 r j)
      = sel3 ((∑ k : Fin 24, (mixRow x0 x1 x2 x3 x4 x5 x6 x7 x8 x9 x10 x11 x12 r) k * hsW x13 k) + hsB x14)
          ((∑ k : Fin 24, (mixRow x0 x1 x2 x3 x4 x5 x6 x7 x8 x9 x10 x11 x12 r) k * htW x15 k) + htB x16)
          ((∑ k : Fin 24, (mixRow x0 x1 x2 x3 x4 x5 x6 x7 x8 x9 x10 x11 x12 r) k * hyW x17 k) + hyB x18) j := by
  unfold val_main_v59
  rw [concat3_at, headS_at, headT_at, headY_at]
  rfl

/-- The program's result at row `r`, column `j`, with the parameters named. -/
theorem out_at (j : Fin 3) :
    val_main_v61 (F := Ideal) x0 x1 x2 x3 x4 x5 x6 x7 x8 x9 x10 x11 x12 x13 x14 x15 x16 x17 x18 x19 (ix2 r j)
      = outR (xRow x0 r) (bbW1 x1) (bbB1 x2) (bbW2 x3) (bbB2 x4) (e1W x5) (e1B x6) (e2W x7) (e2B x8)
          (gW1 x9) (gB1 x10) (gW2 x11) (gB2 x12) (hsW x13) (htW x15) (hyW x17) (hsB x14) (htB x16) (hyB x18)
          (baseR x19) j := by
  rw [val_main_v61_apply, val_main_v60_apply, cat_at]
  have e : idx_main_v60 (ix2 r j) = ix2 (0 : Fin 1) j := by idx2
  rw [e]
  rfl

/-- **The separate-layer program computes `outR` row by row**: its result at row `r` and column `j` is the
    separate arrangement's result for row `r` of the batch, the parameters read off the argument arrays coordinate by
    coordinate. -/
theorem ref_at (x0 : (⟨S1048576x64, .f32⟩ : BufTy).Contents (Elt Ideal))
    (x1 : (⟨S64x24, .f32⟩ : BufTy).Contents (Elt Ideal))
    (x2 : (⟨S24, .f32⟩ : BufTy).Contents (Elt Ideal))
    (x3 : (⟨S24x24, .f32⟩ : BufTy).Contents (Elt Ideal))
    (x4 : (⟨S24, .f32⟩ : BufTy).Contents (Elt Ideal))
    (x5 : (⟨S24x24, .f32⟩ : BufTy).Contents (Elt Ideal))
    (x6 : (⟨S24, .f32⟩ : BufTy).Contents (Elt Ideal))
    (x7 : (⟨S24x24, .f32⟩ : BufTy).Contents (Elt Ideal))
    (x8 : (⟨S24, .f32⟩ : BufTy).Contents (Elt Ideal))
    (x9 : (⟨S64x8, .f32⟩ : BufTy).Contents (Elt Ideal))
    (x10 : (⟨S8, .f32⟩ : BufTy).Contents (Elt Ideal))
    (x11 : (⟨S8x2, .f32⟩ : BufTy).Contents (Elt Ideal))
    (x12 : (⟨S2, .f32⟩ : BufTy).Contents (Elt Ideal))
    (x13 : (⟨S24x1, .f32⟩ : BufTy).Contents (Elt Ideal))
    (x14 : (⟨S1, .f32⟩ : BufTy).Contents (Elt Ideal))
    (x15 : (⟨S24x1, .f32⟩ : BufTy).Contents (Elt Ideal))
    (x16 : (⟨S1, .f32⟩ : BufTy).Contents (Elt Ideal))
    (x17 : (⟨S24x1, .f32⟩ : BufTy).Contents (Elt Ideal))
    (x18 : (⟨S1, .f32⟩ : BufTy).Contents (Elt Ideal))
    (x19 : (⟨S1x3, .f32⟩ : BufTy).Contents (Elt Ideal))
    (r : Fin 1048576) (j : Fin 3) :
    val_main_v61 (F := Ideal) x0 x1 x2 x3 x4 x5 x6 x7 x8 x9 x10 x11 x12 x13 x14 x15 x16 x17 x18 x19 (ix2 r j)
      = outR (fun k => x0 (ix2 r k)) (fun k c => x1 (ix2 k c)) (fun c => x2 (ix1 c))
          (fun k c => x3 (ix2 k c)) (fun c => x4 (ix1 c)) (fun k c => x5 (ix2 k c)) (fun c => x6 (ix1 c))
          (fun k c => x7 (ix2 k c)) (fun c => x8 (ix1 c)) (fun k c => x9 (ix2 k c)) (fun c => x10 (ix1 c))
          (fun k c => x11 (ix2 k c)) (fun c => x12 (ix1 c))
          (fun k => x13 (ix2 k 0)) (fun k => x15 (ix2 k 0)) (fun k => x17 (ix2 k 0))
          (x14 (ix1 0)) (x16 (ix1 0)) (x18 (ix1 0)) (fun j => x19 (ix2 0 j)) j :=
  out_at x0 x1 x2 x3 x4 x5 x6 x7 x8 x9 x10 x11 x12 x13 x14 x15 x16 x17 x18 x19 r j

end Cert.RefAt

end
-- ==== Proof.RefRun.lean ====
/-
  The reference program's run, read back.

  The reference is 65 host operations on the TensorCore, no kernel: `ops` lists them in program order, `main_eq` says
  @main is that list run in sequence, and the library's theorem for such a list (`StableHlo.run_seq`) gives: every
  weakly fair execution terminates, each buffer ending at the fold of the operations over the launch contents
  (`after ops`). What is left is to read that fold at the result buffer and at the twenty arguments.

  * No operation writes an argument, so each argument ends as launched.
  * The result. Every operation but one reads one, two or no earlier buffers; the exception is the join of the three
    heads' columns into one three-column array, which reads three. The first 62 operations (`pre`) contain no such
    join, and after them the three columns and the row of offsets hold their stage functions of the arguments
    (`pre_v50`, `pre_v54`, `pre_v58`, `pre_arg19`): the stage functions are the compositional definitions
    `val_main_vN` (each operation's value from the values of the operations it reads). Running a list is running its
    two halves in turn (`after_append'`), and the last three operations (`last3`) — the join, the offsets repeated
    along the rows, their sum — are read off one at a time (`res_eq`): the result is the last stage function,
    `val_main_v61` of the twenty arguments.
-/
import proofs.«101308_j75230647156978_2_alg».proof.Proof.Gen.ReferenceIdeal
import Idealize.ShloMosaic.Lib.StableHlo.Run
import proofs.«101308_j75230647156978_2_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 65 operations, in order. -/
abbrev ops : List (HloOp τ sig (Elt F)) :=
  [ binary main_arg0 main_arg1 main_v0 ((fun l r => Host.dotGeneral dot_S1048576x64_S64x24_S1048576x24_1_0_0_1_n_n none l r) : (⟨S1048576x64, .f32⟩ : BufTy).Contents (Elt F) → (⟨S64x24, .f32⟩ : BufTy).Contents (Elt F) → (⟨S1048576x24, .f32⟩ : BufTy).Contents (Elt F)),
    unary main_arg2 main_v1 (broadcastInDim S1x24 ![1] bcast_S24_S1x24_1 : (⟨S24, .f32⟩ : BufTy).Contents (Elt F) → (⟨S1x24, .f32⟩ : BufTy).Contents (Elt F)),
    unary main_v1 main_v2 (broadcastInDim S1048576x24 ![0, 1] bcast_S1x24_S1048576x24_0_1 : (⟨S1x24, .f32⟩ : BufTy).Contents (Elt F) → (⟨S1048576x24, .f32⟩ : BufTy).Contents (Elt F)),
    binary main_v0 main_v2 main_v3 (addf : (⟨S1048576x24, .f32⟩ : BufTy).Contents (Elt F) → (⟨S1048576x24, .f32⟩ : BufTy).Contents (Elt F) → (⟨S1048576x24, .f32⟩ : BufTy).Contents (Elt F)),
    unary main_v3 main_v4 (Host.tanh : (⟨S1048576x24, .f32⟩ : BufTy).Contents (Elt F) → (⟨S1048576x24, .f32⟩ : BufTy).Contents (Elt F)),
    binary main_v4 main_arg3 main_v5 ((fun l r => Host.dotGeneral dot_S1048576x24_S24x24_S1048576x24_1_0_0_1_n_n none l r) : (⟨S1048576x24, .f32⟩ : BufTy).Contents (Elt F) → (⟨S24x24, .f32⟩ : BufTy).Contents (Elt F) → (⟨S1048576x24, .f32⟩ : BufTy).Contents (Elt F)),
    unary main_arg4 main_v6 (broadcastInDim S1x24 ![1] bcast_S24_S1x24_1 : (⟨S24, .f32⟩ : BufTy).Contents (Elt F) → (⟨S1x24, .f32⟩ : BufTy).Contents (Elt F)),
    unary main_v6 main_v7 (broadcastInDim S1048576x24 ![0, 1] bcast_S1x24_S1048576x24_0_1 : (⟨S1x24, .f32⟩ : BufTy).Contents (Elt F) → (⟨S1048576x24, .f32⟩ : BufTy).Contents (Elt F)),
    binary main_v5 main_v7 main_v8 (addf : (⟨S1048576x24, .f32⟩ : BufTy).Contents (Elt F) → (⟨S1048576x24, .f32⟩ : BufTy).Contents (Elt F) → (⟨S1048576x24, .f32⟩ : BufTy).Contents (Elt F)),
    unary main_v8 main_v9 (Host.tanh : (⟨S1048576x24, .f32⟩ : BufTy).Contents (Elt F) → (⟨S1048576x24, .f32⟩ : BufTy).Contents (Elt F)),
    binary main_v9 main_arg5 main_v10 ((fun l r => Host.dotGeneral dot_S1048576x24_S24x24_S1048576x24_1_0_0_1_n_n none l r) : (⟨S1048576x24, .f32⟩ : BufTy).Contents (Elt F) → (⟨S24x24, .f32⟩ : BufTy).Contents (Elt F) → (⟨S1048576x24, .f32⟩ : BufTy).Contents (Elt F)),
    unary main_arg6 main_v11 (broadcastInDim S1x24 ![1] bcast_S24_S1x24_1 : (⟨S24, .f32⟩ : BufTy).Contents (Elt F) → (⟨S1x24, .f32⟩ : BufTy).Contents (Elt F)),
    unary main_v11 main_v12 (broadcastInDim S1048576x24 ![0, 1] bcast_S1x24_S1048576x24_0_1 : (⟨S1x24, .f32⟩ : BufTy).Contents (Elt F) → (⟨S1048576x24, .f32⟩ : BufTy).Contents (Elt F)),
    binary main_v10 main_v12 main_v13 (addf : (⟨S1048576x24, .f32⟩ : BufTy).Contents (Elt F) → (⟨S1048576x24, .f32⟩ : BufTy).Contents (Elt F) → (⟨S1048576x24, .f32⟩ : BufTy).Contents (Elt F)),
    unary main_v13 main_v14 (Host.tanh : (⟨S1048576x24, .f32⟩ : BufTy).Contents (Elt F) → (⟨S1048576x24, .f32⟩ : BufTy).Contents (Elt F)),
    binary main_v9 main_arg7 main_v15 ((fun l r => Host.dotGeneral dot_S1048576x24_S24x24_S1048576x24_1_0_0_1_n_n none l r) : (⟨S1048576x24, .f32⟩ : BufTy).Contents (Elt F) → (⟨S24x24, .f32⟩ : BufTy).Contents (Elt F) → (⟨S1048576x24, .f32⟩ : BufTy).Contents (Elt F)),
    unary main_arg8 main_v16 (broadcastInDim S1x24 ![1] bcast_S24_S1x24_1 : (⟨S24, .f32⟩ : BufTy).Contents (Elt F) → (⟨S1x24, .f32⟩ : BufTy).Contents (Elt F)),
    unary main_v16 main_v17 (broadcastInDim S1048576x24 ![0, 1] bcast_S1x24_S1048576x24_0_1 : (⟨S1x24, .f32⟩ : BufTy).Contents (Elt F) → (⟨S1048576x24, .f32⟩ : BufTy).Contents (Elt F)),
    binary main_v15 main_v17 main_v18 (addf : (⟨S1048576x24, .f32⟩ : BufTy).Contents (Elt F) → (⟨S1048576x24, .f32⟩ : BufTy).Contents (Elt F) → (⟨S1048576x24, .f32⟩ : BufTy).Contents (Elt F)),
    unary main_v18 main_v19 (Host.tanh : (⟨S1048576x24, .f32⟩ : BufTy).Contents (Elt F) → (⟨S1048576x24, .f32⟩ : BufTy).Contents (Elt F)),
    binary main_arg0 main_arg9 main_v20 ((fun l r => Host.dotGeneral dot_S1048576x64_S64x8_S1048576x8_1_0_0_1_n_n none l r) : (⟨S1048576x64, .f32⟩ : BufTy).Contents (Elt F) → (⟨S64x8, .f32⟩ : BufTy).Contents (Elt F) → (⟨S1048576x8, .f32⟩ : BufTy).Contents (Elt F)),
    unary main_arg10 main_v21 (broadcastInDim S1x8 ![1] bcast_S8_S1x8_1 : (⟨S8, .f32⟩ : BufTy).Contents (Elt F) → (⟨S1x8, .f32⟩ : BufTy).Contents (Elt F)),
    unary main_v21 main_v22 (broadcastInDim S1048576x8 ![0, 1] bcast_S1x8_S1048576x8_0_1 : (⟨S1x8, .f32⟩ : BufTy).Contents (Elt F) → (⟨S1048576x8, .f32⟩ : BufTy).Contents (Elt F)),
    binary main_v20 main_v22 main_v23 (addf : (⟨S1048576x8, .f32⟩ : BufTy).Contents (Elt F) → (⟨S1048576x8, .f32⟩ : BufTy).Contents (Elt F) → (⟨S1048576x8, .f32⟩ : BufTy).Contents (Elt F)),
    unary main_v23 main_v24 (Host.tanh : (⟨S1048576x8, .f32⟩ : BufTy).Contents (Elt F) → (⟨S1048576x8, .f32⟩ : BufTy).Contents (Elt F)),
    binary main_v24 main_arg11 main_v25 ((fun l r => Host.dotGeneral dot_S1048576x8_S8x2_S1048576x2_1_0_0_1_n_n none l r) : (⟨S1048576x8, .f32⟩ : BufTy).Contents (Elt F) → (⟨S8x2, .f32⟩ : BufTy).Contents (Elt F) → (⟨S1048576x2, .f32⟩ : BufTy).Contents (Elt F)),
    unary main_arg12 main_v26 (broadcastInDim S1x2 ![1] bcast_S2_S1x2_1 : (⟨S2, .f32⟩ : BufTy).Contents (Elt F) → (⟨S1x2, .f32⟩ : BufTy).Contents (Elt F)),
    unary main_v26 main_v27 (broadcastInDim S1048576x2 ![0, 1] bcast_S1x2_S1048576x2_0_1 : (⟨S1x2, .f32⟩ : BufTy).Contents (Elt F) → (⟨S1048576x2, .f32⟩ : BufTy).Contents (Elt F)),
    binary main_v25 main_v27 main_v28 (addf : (⟨S1048576x2, .f32⟩ : BufTy).Contents (Elt F) → (⟨S1048576x2, .f32⟩ : BufTy).Contents (Elt F) → (⟨S1048576x2, .f32⟩ : BufTy).Contents (Elt F)),
    nullary main_cst (constant S_ .f32 0xFF800000#32),
    binary main_v28 main_cst main_v29 ((fun x v => Host.reduce FloatOps.maximumf x v reducesTo_S1048576x2_S1048576_d1 h_S_) : (⟨S1048576x2, .f32⟩ : BufTy).Contents (Elt F) → (⟨S_, .f32⟩ : BufTy).Contents (Elt F) → (⟨S1048576, .f32⟩ : BufTy).Contents (Elt F)),
    nullary main_cst_0 (constant S_ .f32 0xFF800000#32),
    unary main_cst_0 main_v30 (broadcastInDim S1048576 ![] bcast_S_S1048576 : (⟨S_, .f32⟩ : BufTy).Contents (Elt F) → (⟨S1048576, .f32⟩ : BufTy).Contents (Elt F)),
    binary main_v30 main_v29 main_v31 (maximumf : (⟨S1048576, .f32⟩ : BufTy).Contents (Elt F) → (⟨S1048576, .f32⟩ : BufTy).Contents (Elt F) → (⟨S1048576, .f32⟩ : BufTy).Contents (Elt F)),
    unary main_v31 main_v32 (broadcastInDim S1048576x1 ![0] bcast_S1048576_S1048576x1_0 : (⟨S1048576, .f32⟩ : BufTy).Contents (Elt F) → (⟨S1048576x1, .f32⟩ : BufTy).Contents (Elt F)),
    unary main_v32 main_v33 (broadcastInDim S1048576x2 ![0, 1] bcast_S1048576x1_S1048576x2_0_1 : (⟨S1048576x1, .f32⟩ : BufTy).Contents (Elt F) → (⟨S1048576x2, .f32⟩ : BufTy).Contents (Elt F)),
    binary main_v28 main_v33 main_v34 (subf : (⟨S1048576x2, .f32⟩ : BufTy).Contents (Elt F) → (⟨S1048576x2, .f32⟩ : BufTy).Contents (Elt F) → (⟨S1048576x2, .f32⟩ : BufTy).Contents (Elt F)),
    unary main_v34 main_v35 (Host.exp : (⟨S1048576x2, .f32⟩ : BufTy).Contents (Elt F) → (⟨S1048576x2, .f32⟩ : BufTy).Contents (Elt F)),
    nullary main_cst_1 (constant S_ .f32 0x00000000#32),
    binary main_v35 main_cst_1 main_v36 ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F)),
    unary main_v36 main_v37 (broadcastInDim S1048576x1 ![0] bcast_S1048576_S1048576x1_0 : (⟨S1048576, .f32⟩ : BufTy).Contents (Elt F) → (⟨S1048576x1, .f32⟩ : BufTy).Contents (Elt F)),
    unary main_v37 main_v38 (broadcastInDim S1048576x2 ![0, 1] bcast_S1048576x1_S1048576x2_0_1 : (⟨S1048576x1, .f32⟩ : BufTy).Contents (Elt F) → (⟨S1048576x2, .f32⟩ : BufTy).Contents (Elt F)),
    binary main_v35 main_v38 main_v39 (Host.divf : (⟨S1048576x2, .f32⟩ : BufTy).Contents (Elt F) → (⟨S1048576x2, .f32⟩ : BufTy).Contents (Elt F) → (⟨S1048576x2, .f32⟩ : BufTy).Contents (Elt F)),
    unary main_v39 main_v40 ((extractStridedSlice S1048576x1 ![0, 0] · slices_S1048576x2_S1048576x1_0_0) : (⟨S1048576x2, .f32⟩ : BufTy).Contents (Elt F) → (⟨S1048576x1, .f32⟩ : BufTy).Contents (Elt F)),
    unary main_v40 main_v41 (broadcastInDim S1048576x24 ![0, 1] bcast_S1048576x1_S1048576x24_0_1 : (⟨S1048576x1, .f32⟩ : BufTy).Contents (Elt F) → (⟨S1048576x24, .f32⟩ : BufTy).Contents (Elt F)),
    binary main_v41 main_v14 main_v42 (mulf : (⟨S1048576x24, .f32⟩ : BufTy).Contents (Elt F) → (⟨S1048576x24, .f32⟩ : BufTy).Contents (Elt F) → (⟨S1048576x24, .f32⟩ : BufTy).Contents (Elt F)),
    unary main_v39 main_v43 ((extractStridedSlice S1048576x1 ![0, 1] · slices_S1048576x2_S1048576x1_0_1) : (⟨S1048576x2, .f32⟩ : BufTy).Contents (Elt F) → (⟨S1048576x1, .f32⟩ : BufTy).Contents (Elt F)),
    unary main_v43 main_v44 (broadcastInDim S1048576x24 ![0, 1] bcast_S1048576x1_S1048576x24_0_1 : (⟨S1048576x1, .f32⟩ : BufTy).Contents (Elt F) → (⟨S1048576x24, .f32⟩ : BufTy).Contents (Elt F)),
    binary main_v44 main_v19 main_v45 (mulf : (⟨S1048576x24, .f32⟩ : BufTy).Contents (Elt F) → (⟨S1048576x24, .f32⟩ : BufTy).Contents (Elt F) → (⟨S1048576x24, .f32⟩ : BufTy).Contents (Elt F)),
    binary main_v42 main_v45 main_v46 (addf : (⟨S1048576x24, .f32⟩ : BufTy).Contents (Elt F) → (⟨S1048576x24, .f32⟩ : BufTy).Contents (Elt F) → (⟨S1048576x24, .f32⟩ : BufTy).Contents (Elt F)),
    binary main_v46 main_arg13 main_v47 ((fun l r => Host.dotGeneral dot_S1048576x24_S24x1_S1048576x1_1_0_0_1_n_n none l r) : (⟨S1048576x24, .f32⟩ : BufTy).Contents (Elt F) → (⟨S24x1, .f32⟩ : BufTy).Contents (Elt F) → (⟨S1048576x1, .f32⟩ : BufTy).Contents (Elt F)),
    unary main_arg14 main_v48 (broadcastInDim S1x1 ![1] bcast_S1_S1x1_1 : (⟨S1, .f32⟩ : BufTy).Contents (Elt F) → (⟨S1x1, .f32⟩ : BufTy).Contents (Elt F)),
    unary main_v48 main_v49 (broadcastInDim S1048576x1 ![0, 1] bcast_S1x1_S1048576x1_0_1 : (⟨S1x1, .f32⟩ : BufTy).Contents (Elt F) → (⟨S1048576x1, .f32⟩ : BufTy).Contents (Elt F)),
    binary main_v47 main_v49 main_v50 (addf : (⟨S1048576x1, .f32⟩ : BufTy).Contents (Elt F) → (⟨S1048576x1, .f32⟩ : BufTy).Contents (Elt F) → (⟨S1048576x1, .f32⟩ : BufTy).Contents (Elt F)),
    binary main_v46 main_arg15 main_v51 ((fun l r => Host.dotGeneral dot_S1048576x24_S24x1_S1048576x1_1_0_0_1_n_n none l r) : (⟨S1048576x24, .f32⟩ : BufTy).Contents (Elt F) → (⟨S24x1, .f32⟩ : BufTy).Contents (Elt F) → (⟨S1048576x1, .f32⟩ : BufTy).Contents (Elt F)),
    unary main_arg16 main_v52 (broadcastInDim S1x1 ![1] bcast_S1_S1x1_1 : (⟨S1, .f32⟩ : BufTy).Contents (Elt F) → (⟨S1x1, .f32⟩ : BufTy).Contents (Elt F)),
    unary main_v52 main_v53 (broadcastInDim S1048576x1 ![0, 1] bcast_S1x1_S1048576x1_0_1 : (⟨S1x1, .f32⟩ : BufTy).Contents (Elt F) → (⟨S1048576x1, .f32⟩ : BufTy).Contents (Elt F)),
    binary main_v51 main_v53 main_v54 (addf : (⟨S1048576x1, .f32⟩ : BufTy).Contents (Elt F) → (⟨S1048576x1, .f32⟩ : BufTy).Contents (Elt F) → (⟨S1048576x1, .f32⟩ : BufTy).Contents (Elt F)),
    binary main_v46 main_arg17 main_v55 ((fun l r => Host.dotGeneral dot_S1048576x24_S24x1_S1048576x1_1_0_0_1_n_n none l r) : (⟨S1048576x24, .f32⟩ : BufTy).Contents (Elt F) → (⟨S24x1, .f32⟩ : BufTy).Contents (Elt F) → (⟨S1048576x1, .f32⟩ : BufTy).Contents (Elt F)),
    unary main_arg18 main_v56 (broadcastInDim S1x1 ![1] bcast_S1_S1x1_1 : (⟨S1, .f32⟩ : BufTy).Contents (Elt F) → (⟨S1x1, .f32⟩ : BufTy).Contents (Elt F)),
    unary main_v56 main_v57 (broadcastInDim S1048576x1 ![0, 1] bcast_S1x1_S1048576x1_0_1 : (⟨S1x1, .f32⟩ : BufTy).Contents (Elt F) → (⟨S1048576x1, .f32⟩ : BufTy).Contents (Elt F)),
    binary main_v55 main_v57 main_v58 (addf : (⟨S1048576x1, .f32⟩ : BufTy).Contents (Elt F) → (⟨S1048576x1, .f32⟩ : BufTy).Contents (Elt F) → (⟨S1048576x1, .f32⟩ : BufTy).Contents (Elt F)),
    nary ![main_v50, main_v54, main_v58] main_v59 (fun u => concatenate S1048576x3 1 [⟨S1048576x1, u 0⟩, ⟨S1048576x1, u 1⟩, ⟨S1048576x1, u 2⟩] concatenates_S1048576x1_S1048576x1_S1048576x1_S1048576x3_d1),
    unary main_arg19 main_v60 (broadcastInDim S1048576x3 ![0, 1] bcast_S1x3_S1048576x3_0_1 : (⟨S1x3, .f32⟩ : BufTy).Contents (Elt F) → (⟨S1048576x3, .f32⟩ : BufTy).Contents (Elt F)),
    binary main_v59 main_v60 main_v61 (addf : (⟨S1048576x3, .f32⟩ : BufTy).Contents (Elt F) → (⟨S1048576x3, .f32⟩ : BufTy).Contents (Elt F) → (⟨S1048576x3, .f32⟩ : BufTy).Contents (Elt F)) ]

/-- The operations before the three-way concatenation: the first 62, in order. -/
abbrev pre : List (HloOp τ sig (Elt F)) :=
  [ binary main_arg0 main_arg1 main_v0 ((fun l r => Host.dotGeneral dot_S1048576x64_S64x24_S1048576x24_1_0_0_1_n_n none l r) : (⟨S1048576x64, .f32⟩ : BufTy).Contents (Elt F) → (⟨S64x24, .f32⟩ : BufTy).Contents (Elt F) → (⟨S1048576x24, .f32⟩ : BufTy).Contents (Elt F)),
    unary main_arg2 main_v1 (broadcastInDim S1x24 ![1] bcast_S24_S1x24_1 : (⟨S24, .f32⟩ : BufTy).Contents (Elt F) → (⟨S1x24, .f32⟩ : BufTy).Contents (Elt F)),
    unary main_v1 main_v2 (broadcastInDim S1048576x24 ![0, 1] bcast_S1x24_S1048576x24_0_1 : (⟨S1x24, .f32⟩ : BufTy).Contents (Elt F) → (⟨S1048576x24, .f32⟩ : BufTy).Contents (Elt F)),
    binary main_v0 main_v2 main_v3 (addf : (⟨S1048576x24, .f32⟩ : BufTy).Contents (Elt F) → (⟨S1048576x24, .f32⟩ : BufTy).Contents (Elt F) → (⟨S1048576x24, .f32⟩ : BufTy).Contents (Elt F)),
    unary main_v3 main_v4 (Host.tanh : (⟨S1048576x24, .f32⟩ : BufTy).Contents (Elt F) → (⟨S1048576x24, .f32⟩ : BufTy).Contents (Elt F)),
    binary main_v4 main_arg3 main_v5 ((fun l r => Host.dotGeneral dot_S1048576x24_S24x24_S1048576x24_1_0_0_1_n_n none l r) : (⟨S1048576x24, .f32⟩ : BufTy).Contents (Elt F) → (⟨S24x24, .f32⟩ : BufTy).Contents (Elt F) → (⟨S1048576x24, .f32⟩ : BufTy).Contents (Elt F)),
    unary main_arg4 main_v6 (broadcastInDim S1x24 ![1] bcast_S24_S1x24_1 : (⟨S24, .f32⟩ : BufTy).Contents (Elt F) → (⟨S1x24, .f32⟩ : BufTy).Contents (Elt F)),
    unary main_v6 main_v7 (broadcastInDim S1048576x24 ![0, 1] bcast_S1x24_S1048576x24_0_1 : (⟨S1x24, .f32⟩ : BufTy).Contents (Elt F) → (⟨S1048576x24, .f32⟩ : BufTy).Contents (Elt F)),
    binary main_v5 main_v7 main_v8 (addf : (⟨S1048576x24, .f32⟩ : BufTy).Contents (Elt F) → (⟨S1048576x24, .f32⟩ : BufTy).Contents (Elt F) → (⟨S1048576x24, .f32⟩ : BufTy).Contents (Elt F)),
    unary main_v8 main_v9 (Host.tanh : (⟨S1048576x24, .f32⟩ : BufTy).Contents (Elt F) → (⟨S1048576x24, .f32⟩ : BufTy).Contents (Elt F)),
    binary main_v9 main_arg5 main_v10 ((fun l r => Host.dotGeneral dot_S1048576x24_S24x24_S1048576x24_1_0_0_1_n_n none l r) : (⟨S1048576x24, .f32⟩ : BufTy).Contents (Elt F) → (⟨S24x24, .f32⟩ : BufTy).Contents (Elt F) → (⟨S1048576x24, .f32⟩ : BufTy).Contents (Elt F)),
    unary main_arg6 main_v11 (broadcastInDim S1x24 ![1] bcast_S24_S1x24_1 : (⟨S24, .f32⟩ : BufTy).Contents (Elt F) → (⟨S1x24, .f32⟩ : BufTy).Contents (Elt F)),
    unary main_v11 main_v12 (broadcastInDim S1048576x24 ![0, 1] bcast_S1x24_S1048576x24_0_1 : (⟨S1x24, .f32⟩ : BufTy).Contents (Elt F) → (⟨S1048576x24, .f32⟩ : BufTy).Contents (Elt F)),
    binary main_v10 main_v12 main_v13 (addf : (⟨S1048576x24, .f32⟩ : BufTy).Contents (Elt F) → (⟨S1048576x24, .f32⟩ : BufTy).Contents (Elt F) → (⟨S1048576x24, .f32⟩ : BufTy).Contents (Elt F)),
    unary main_v13 main_v14 (Host.tanh : (⟨S1048576x24, .f32⟩ : BufTy).Contents (Elt F) → (⟨S1048576x24, .f32⟩ : BufTy).Contents (Elt F)),
    binary main_v9 main_arg7 main_v15 ((fun l r => Host.dotGeneral dot_S1048576x24_S24x24_S1048576x24_1_0_0_1_n_n none l r) : (⟨S1048576x24, .f32⟩ : BufTy).Contents (Elt F) → (⟨S24x24, .f32⟩ : BufTy).Contents (Elt F) → (⟨S1048576x24, .f32⟩ : BufTy).Contents (Elt F)),
    unary main_arg8 main_v16 (broadcastInDim S1x24 ![1] bcast_S24_S1x24_1 : (⟨S24, .f32⟩ : BufTy).Contents (Elt F) → (⟨S1x24, .f32⟩ : BufTy).Contents (Elt F)),
    unary main_v16 main_v17 (broadcastInDim S1048576x24 ![0, 1] bcast_S1x24_S1048576x24_0_1 : (⟨S1x24, .f32⟩ : BufTy).Contents (Elt F) → (⟨S1048576x24, .f32⟩ : BufTy).Contents (Elt F)),
    binary main_v15 main_v17 main_v18 (addf : (⟨S1048576x24, .f32⟩ : BufTy).Contents (Elt F) → (⟨S1048576x24, .f32⟩ : BufTy).Contents (Elt F) → (⟨S1048576x24, .f32⟩ : BufTy).Contents (Elt F)),
    unary main_v18 main_v19 (Host.tanh : (⟨S1048576x24, .f32⟩ : BufTy).Contents (Elt F) → (⟨S1048576x24, .f32⟩ : BufTy).Contents (Elt F)),
    binary main_arg0 main_arg9 main_v20 ((fun l r => Host.dotGeneral dot_S1048576x64_S64x8_S1048576x8_1_0_0_1_n_n none l r) : (⟨S1048576x64, .f32⟩ : BufTy).Contents (Elt F) → (⟨S64x8, .f32⟩ : BufTy).Contents (Elt F) → (⟨S1048576x8, .f32⟩ : BufTy).Contents (Elt F)),
    unary main_arg10 main_v21 (broadcastInDim S1x8 ![1] bcast_S8_S1x8_1 : (⟨S8, .f32⟩ : BufTy).Contents (Elt F) → (⟨S1x8, .f32⟩ : BufTy).Contents (Elt F)),
    unary main_v21 main_v22 (broadcastInDim S1048576x8 ![0, 1] bcast_S1x8_S1048576x8_0_1 : (⟨S1x8, .f32⟩ : BufTy).Contents (Elt F) → (⟨S1048576x8, .f32⟩ : BufTy).Contents (Elt F)),
    binary main_v20 main_v22 main_v23 (addf : (⟨S1048576x8, .f32⟩ : BufTy).Contents (Elt F) → (⟨S1048576x8, .f32⟩ : BufTy).Contents (Elt F) → (⟨S1048576x8, .f32⟩ : BufTy).Contents (Elt F)),
    unary main_v23 main_v24 (Host.tanh : (⟨S1048576x8, .f32⟩ : BufTy).Contents (Elt F) → (⟨S1048576x8, .f32⟩ : BufTy).Contents (Elt F)),
    binary main_v24 main_arg11 main_v25 ((fun l r => Host.dotGeneral dot_S1048576x8_S8x2_S1048576x2_1_0_0_1_n_n none l r) : (⟨S1048576x8, .f32⟩ : BufTy).Contents (Elt F) → (⟨S8x2, .f32⟩ : BufTy).Contents (Elt F) → (⟨S1048576x2, .f32⟩ : BufTy).Contents (Elt F)),
    unary main_arg12 main_v26 (broadcastInDim S1x2 ![1] bcast_S2_S1x2_1 : (⟨S2, .f32⟩ : BufTy).Contents (Elt F) → (⟨S1x2, .f32⟩ : BufTy).Contents (Elt F)),
    unary main_v26 main_v27 (broadcastInDim S1048576x2 ![0, 1] bcast_S1x2_S1048576x2_0_1 : (⟨S1x2, .f32⟩ : BufTy).Contents (Elt F) → (⟨S1048576x2, .f32⟩ : BufTy).Contents (Elt F)),
    binary main_v25 main_v27 main_v28 (addf : (⟨S1048576x2, .f32⟩ : BufTy).Contents (Elt F) → (⟨S1048576x2, .f32⟩ : BufTy).Contents (Elt F) → (⟨S1048576x2, .f32⟩ : BufTy).Contents (Elt F)),
    nullary main_cst (constant S_ .f32 0xFF800000#32),
    binary main_v28 main_cst main_v29 ((fun x v => Host.reduce FloatOps.maximumf x v reducesTo_S1048576x2_S1048576_d1 h_S_) : (⟨S1048576x2, .f32⟩ : BufTy).Contents (Elt F) → (⟨S_, .f32⟩ : BufTy).Contents (Elt F) → (⟨S1048576, .f32⟩ : BufTy).Contents (Elt F)),
    nullary main_cst_0 (constant S_ .f32 0xFF800000#32),
    unary main_cst_0 main_v30 (broadcastInDim S1048576 ![] bcast_S_S1048576 : (⟨S_, .f32⟩ : BufTy).Contents (Elt F) → (⟨S1048576, .f32⟩ : BufTy).Contents (Elt F)),
    binary main_v30 main_v29 main_v31 (maximumf : (⟨S1048576, .f32⟩ : BufTy).Contents (Elt F) → (⟨S1048576, .f32⟩ : BufTy).Contents (Elt F) → (⟨S1048576, .f32⟩ : BufTy).Contents (Elt F)),
    unary main_v31 main_v32 (broadcastInDim S1048576x1 ![0] bcast_S1048576_S1048576x1_0 : (⟨S1048576, .f32⟩ : BufTy).Contents (Elt F) → (⟨S1048576x1, .f32⟩ : BufTy).Contents (Elt F)),
    unary main_v32 main_v33 (broadcastInDim S1048576x2 ![0, 1] bcast_S1048576x1_S1048576x2_0_1 : (⟨S1048576x1, .f32⟩ : BufTy).Contents (Elt F) → (⟨S1048576x2, .f32⟩ : BufTy).Contents (Elt F)),
    binary main_v28 main_v33 main_v34 (subf : (⟨S1048576x2, .f32⟩ : BufTy).Contents (Elt F) → (⟨S1048576x2, .f32⟩ : BufTy).Contents (Elt F) → (⟨S1048576x2, .f32⟩ : BufTy).Contents (Elt F)),
    unary main_v34 main_v35 (Host.exp : (⟨S1048576x2, .f32⟩ : BufTy).Contents (Elt F) → (⟨S1048576x2, .f32⟩ : BufTy).Contents (Elt F)),
    nullary main_cst_1 (constant S_ .f32 0x00000000#32),
    binary main_v35 main_cst_1 main_v36 ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F)),
    unary main_v36 main_v37 (broadcastInDim S1048576x1 ![0] bcast_S1048576_S1048576x1_0 : (⟨S1048576, .f32⟩ : BufTy).Contents (Elt F) → (⟨S1048576x1, .f32⟩ : BufTy).Contents (Elt F)),
    unary main_v37 main_v38 (broadcastInDim S1048576x2 ![0, 1] bcast_S1048576x1_S1048576x2_0_1 : (⟨S1048576x1, .f32⟩ : BufTy).Contents (Elt F) → (⟨S1048576x2, .f32⟩ : BufTy).Contents (Elt F)),
    binary main_v35 main_v38 main_v39 (Host.divf : (⟨S1048576x2, .f32⟩ : BufTy).Contents (Elt F) → (⟨S1048576x2, .f32⟩ : BufTy).Contents (Elt F) → (⟨S1048576x2, .f32⟩ : BufTy).Contents (Elt F)),
    unary main_v39 main_v40 ((extractStridedSlice S1048576x1 ![0, 0] · slices_S1048576x2_S1048576x1_0_0) : (⟨S1048576x2, .f32⟩ : BufTy).Contents (Elt F) → (⟨S1048576x1, .f32⟩ : BufTy).Contents (Elt F)),
    unary main_v40 main_v41 (broadcastInDim S1048576x24 ![0, 1] bcast_S1048576x1_S1048576x24_0_1 : (⟨S1048576x1, .f32⟩ : BufTy).Contents (Elt F) → (⟨S1048576x24, .f32⟩ : BufTy).Contents (Elt F)),
    binary main_v41 main_v14 main_v42 (mulf : (⟨S1048576x24, .f32⟩ : BufTy).Contents (Elt F) → (⟨S1048576x24, .f32⟩ : BufTy).Contents (Elt F) → (⟨S1048576x24, .f32⟩ : BufTy).Contents (Elt F)),
    unary main_v39 main_v43 ((extractStridedSlice S1048576x1 ![0, 1] · slices_S1048576x2_S1048576x1_0_1) : (⟨S1048576x2, .f32⟩ : BufTy).Contents (Elt F) → (⟨S1048576x1, .f32⟩ : BufTy).Contents (Elt F)),
    unary main_v43 main_v44 (broadcastInDim S1048576x24 ![0, 1] bcast_S1048576x1_S1048576x24_0_1 : (⟨S1048576x1, .f32⟩ : BufTy).Contents (Elt F) → (⟨S1048576x24, .f32⟩ : BufTy).Contents (Elt F)),
    binary main_v44 main_v19 main_v45 (mulf : (⟨S1048576x24, .f32⟩ : BufTy).Contents (Elt F) → (⟨S1048576x24, .f32⟩ : BufTy).Contents (Elt F) → (⟨S1048576x24, .f32⟩ : BufTy).Contents (Elt F)),
    binary main_v42 main_v45 main_v46 (addf : (⟨S1048576x24, .f32⟩ : BufTy).Contents (Elt F) → (⟨S1048576x24, .f32⟩ : BufTy).Contents (Elt F) → (⟨S1048576x24, .f32⟩ : BufTy).Contents (Elt F)),
    binary main_v46 main_arg13 main_v47 ((fun l r => Host.dotGeneral dot_S1048576x24_S24x1_S1048576x1_1_0_0_1_n_n none l r) : (⟨S1048576x24, .f32⟩ : BufTy).Contents (Elt F) → (⟨S24x1, .f32⟩ : BufTy).Contents (Elt F) → (⟨S1048576x1, .f32⟩ : BufTy).Contents (Elt F)),
    unary main_arg14 main_v48 (broadcastInDim S1x1 ![1] bcast_S1_S1x1_1 : (⟨S1, .f32⟩ : BufTy).Contents (Elt F) → (⟨S1x1, .f32⟩ : BufTy).Contents (Elt F)),
    unary main_v48 main_v49 (broadcastInDim S1048576x1 ![0, 1] bcast_S1x1_S1048576x1_0_1 : (⟨S1x1, .f32⟩ : BufTy).Contents (Elt F) → (⟨S1048576x1, .f32⟩ : BufTy).Contents (Elt F)),
    binary main_v47 main_v49 main_v50 (addf : (⟨S1048576x1, .f32⟩ : BufTy).Contents (Elt F) → (⟨S1048576x1, .f32⟩ : BufTy).Contents (Elt F) → (⟨S1048576x1, .f32⟩ : BufTy).Contents (Elt F)),
    binary main_v46 main_arg15 main_v51 ((fun l r => Host.dotGeneral dot_S1048576x24_S24x1_S1048576x1_1_0_0_1_n_n none l r) : (⟨S1048576x24, .f32⟩ : BufTy).Contents (Elt F) → (⟨S24x1, .f32⟩ : BufTy).Contents (Elt F) → (⟨S1048576x1, .f32⟩ : BufTy).Contents (Elt F)),
    unary main_arg16 main_v52 (broadcastInDim S1x1 ![1] bcast_S1_S1x1_1 : (⟨S1, .f32⟩ : BufTy).Contents (Elt F) → (⟨S1x1, .f32⟩ : BufTy).Contents (Elt F)),
    unary main_v52 main_v53 (broadcastInDim S1048576x1 ![0, 1] bcast_S1x1_S1048576x1_0_1 : (⟨S1x1, .f32⟩ : BufTy).Contents (Elt F) → (⟨S1048576x1, .f32⟩ : BufTy).Contents (Elt F)),
    binary main_v51 main_v53 main_v54 (addf : (⟨S1048576x1, .f32⟩ : BufTy).Contents (Elt F) → (⟨S1048576x1, .f32⟩ : BufTy).Contents (Elt F) → (⟨S1048576x1, .f32⟩ : BufTy).Contents (Elt F)),
    binary main_v46 main_arg17 main_v55 ((fun l r => Host.dotGeneral dot_S1048576x24_S24x1_S1048576x1_1_0_0_1_n_n none l r) : (⟨S1048576x24, .f32⟩ : BufTy).Contents (Elt F) → (⟨S24x1, .f32⟩ : BufTy).Contents (Elt F) → (⟨S1048576x1, .f32⟩ : BufTy).Contents (Elt F)),
    unary main_arg18 main_v56 (broadcastInDim S1x1 ![1] bcast_S1_S1x1_1 : (⟨S1, .f32⟩ : BufTy).Contents (Elt F) → (⟨S1x1, .f32⟩ : BufTy).Contents (Elt F)),
    unary main_v56 main_v57 (broadcastInDim S1048576x1 ![0, 1] bcast_S1x1_S1048576x1_0_1 : (⟨S1x1, .f32⟩ : BufTy).Contents (Elt F) → (⟨S1048576x1, .f32⟩ : BufTy).Contents (Elt F)),
    binary main_v55 main_v57 main_v58 (addf : (⟨S1048576x1, .f32⟩ : BufTy).Contents (Elt F) → (⟨S1048576x1, .f32⟩ : BufTy).Contents (Elt F) → (⟨S1048576x1, .f32⟩ : BufTy).Contents (Elt F)) ]

/-- The last three operations: the concatenation of the three heads' columns, the offsets repeated along the rows, and
    their sum. -/
abbrev last3 : List (HloOp τ sig (Elt F)) :=
  [ nary ![main_v50, main_v54, main_v58] main_v59 (fun u => concatenate S1048576x3 1 [⟨S1048576x1, u 0⟩, ⟨S1048576x1, u 1⟩, ⟨S1048576x1, u 2⟩] concatenates_S1048576x1_S1048576x1_S1048576x1_S1048576x3_d1),
    unary main_arg19 main_v60 (broadcastInDim S1048576x3 ![0, 1] bcast_S1x3_S1048576x3_0_1 : (⟨S1x3, .f32⟩ : BufTy).Contents (Elt F) → (⟨S1048576x3, .f32⟩ : BufTy).Contents (Elt F)),
    binary main_v59 main_v60 main_v61 (addf : (⟨S1048576x3, .f32⟩ : BufTy).Contents (Elt F) → (⟨S1048576x3, .f32⟩ : BufTy).Contents (Elt F) → (⟨S1048576x3, .f32⟩ : BufTy).Contents (Elt F)) ]

set_option maxRecDepth 65536 in
theorem ops_eq : (ops : List (HloOp τ sig (Elt F))) = pre ++ last3 := rfl

/-- Running two lines one after the other is running their concatenation. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 65536 in
set_option maxHeartbeats 4000000 in
/-- After the first 62 operations the first head's column is its stage function of the arguments. -/
theorem pre_v50 (m : (ℓ : Loc nD τ sig) → Buf (Elt F) ℓ) (c : Dev nD) :
    after pre (launchContents m c) (Proc.devRef .tc main_v50)
      = ReadP.val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  after_results_simp <;> rfl

set_option maxRecDepth 65536 in
set_option maxHeartbeats 4000000 in
/-- After the first 62 operations the second head's column is its stage function of the arguments. -/
theorem pre_v54 (m : (ℓ : Loc nD τ sig) → Buf (Elt F) ℓ) (c : Dev nD) :
    after pre (launchContents m c) (Proc.devRef .tc main_v54)
      = ReadP.val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) := by
  after_results_simp <;> rfl

set_option maxRecDepth 65536 in
set_option maxHeartbeats 4000000 in
/-- After the first 62 operations the third head's column is its stage function of the arguments. -/
theorem pre_v58 (m : (ℓ : Loc nD τ sig) → Buf (Elt F) ℓ) (c : Dev nD) :
    after pre (launchContents m c) (Proc.devRef .tc main_v58)
      = ReadP.val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg17)) (m ((c.tc : Thread nD τ).loc main_arg18)) := by
  after_results_simp <;> rfl

set_option maxRecDepth 65536 in
set_option maxHeartbeats 4000000 in
/-- The first 62 operations leave the row of offsets as it was. -/
theorem pre_arg19 (m : (ℓ : Loc nD τ sig) → Buf (Elt F) ℓ) (c : Dev nD) :
    after pre (launchContents m c) (Proc.devRef .tc main_arg19)
      = m ((c.tc : Thread nD τ).loc main_arg19) := by
  after_results_simp <;> rfl

set_option maxRecDepth 65536 in
set_option maxHeartbeats 4000000 in
/-- After all 65 operations the result buffer holds the last stage function of the arguments: the three heads'
    columns side by side, plus the offsets repeated along the rows. The first 62 operations give the three columns
    (and leave the offsets alone); the last three are read off one at a time. -/
theorem res_eq (m : (ℓ : Loc nD τ sig) → Buf (Elt F) ℓ) (c : Dev nD) :
    after ops (launchContents m c) (Proc.devRef .tc main_v61)
      = ReadP.val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  have h50 := pre_v50 (F := F) m c
  have h54 := pre_v54 (F := F) m c
  have h58 := pre_v58 (F := F) m c
  have h19 := pre_arg19 (F := F) m c
  rw [ops_eq, after_append']
  generalize after pre (launchContents m c) = W at h50 h54 h58 h19 ⊢
  after_results
  show addf (concatenate S1048576x3 1 [⟨S1048576x1, W (Proc.devRef .tc main_v50)⟩, ⟨S1048576x1, W (Proc.devRef .tc main_v54)⟩,
      ⟨S1048576x1, W (Proc.devRef .tc main_v58)⟩] concatenates_S1048576x1_S1048576x1_S1048576x1_S1048576x3_d1)
    (broadcastInDim S1048576x3 ![0, 1] bcast_S1x3_S1048576x3_0_1 (W (Proc.devRef .tc main_arg19))) = _
  rw [h50, h54, h58, h19]
  rfl

set_option maxRecDepth 65536 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nary_bufs_sub .., unary_bufs_sub .., binary_bufs_sub ..⟩

set_option maxRecDepth 65536 in
set_option maxHeartbeats 26000000 in
/-- On every device, for any float values, from any memory with zero counters: every weakly fair execution of
    @main terminates with the result at its stage function of the arguments (the reference read one operation at a time) and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = ReadP.val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v61).trans (res_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl)⟩)
    (run_seq scopedRefs_eq scopedSems_eq defs main (fun _ => ops) main_eq (fun _ => ops_sub) m ρ)

end Cert.ReferenceIdeal.RefRun

end
-- ==== Proof.Algebraic.lean ====
/-
  The two idealized programs compute one function of the arguments.

  Kernel side: the result array after the run is, row by row, the fused arrangement `Cert.Moe.outCat` of the arrays
  the call finds (`Cert.KerArray.G`). Those arrays are the batch, three parameter arrays passed as they are, and
  eight that the host operations laid out from the separate parameters: joins side by side, joins end to end,
  one-row re-shapes, and the heads' biases plus the offset (`Cert.HostV`). Under the precondition the gate's second
  layer (weights and biases) is real-valued (`Cert.Finite`), which is all the algebra needs: every hidden unit is a
  tanh, hence a real number, so the two logits are real, the logistic of their difference is the first softmax
  weight and the second is its complement, and `e₂ + w₀·(e₁ − e₂) = w₀·e₁ + w₁·e₂` is an identity of real numbers;
  the fused heads differ from the separate ones only by associativity of addition (`Cert.Bridge`).

  Reference side: its result is the separate arrangement `Cert.Moe.outR` of the arguments, row by row
  (`Cert.RefAt`), from memories that agree with the kernel's on the twenty arguments.
-/
import proofs.«101308_j75230647156978_2_alg».proof.Defs
import proofs.«101308_j75230647156978_2_alg».proof.Proof.KerArray
import proofs.«101308_j75230647156978_2_alg».proof.Proof.PayAt
import proofs.«101308_j75230647156978_2_alg».proof.Proof.HostV
import proofs.«101308_j75230647156978_2_alg».proof.Proof.Bridge
import proofs.«101308_j75230647156978_2_alg».proof.Proof.Finite
import proofs.«101308_j75230647156978_2_alg».proof.Proof.RefAtTail
import proofs.«101308_j75230647156978_2_alg».proof.Proof.RefRun
import proofs.«101308_j75230647156978_2_alg».proof.Proof.Gen.Pre_finite_inputs

set_option maxRecDepth 65536

noncomputable section

namespace Cert.Alg

open Idealize.ShloMosaic Idealize.ShloMosaic.TcCoe Idealize.SL.Sem Idealize.ShloMosaic.ValueIdx

/-- The kernel's result at row `r`, column `j` is the separate arrangement of the ARGUMENTS' row `r`: the arrays the
    call finds are the arguments laid out, and the fused arrangement of that layout is the separate arrangement
    when the gate's second layer is real-valued, which the precondition says. -/
theorem G_at (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) = (fun _ => 1#1))
    (r : Fin 1048576) (j : Fin 3) :
    Cert.KerArray.G m c (ix2 r j) = Cert.Moe.outR (fun k => (m ((c.tc : Thread Cert.KernelIdeal.nD Cert.KernelIdeal.τ).loc Cert.KernelIdeal.main_arg0)) (ix2 r k)) (fun k q => (m ((c.tc : Thread Cert.KernelIdeal.nD Cert.KernelIdeal.τ).loc Cert.KernelIdeal.main_arg1)) (ix2 k q)) (fun q => (m ((c.tc : Thread Cert.KernelIdeal.nD Cert.KernelIdeal.τ).loc Cert.KernelIdeal.main_arg2)) (ix1 q)) (fun k q => (m ((c.tc : Thread Cert.KernelIdeal.nD Cert.KernelIdeal.τ).loc Cert.KernelIdeal.main_arg3)) (ix2 k q)) (fun q => (m ((c.tc : Thread Cert.KernelIdeal.nD Cert.KernelIdeal.τ).loc Cert.KernelIdeal.main_arg4)) (ix1 q)) (fun k q => (m ((c.tc : Thread Cert.KernelIdeal.nD Cert.KernelIdeal.τ).loc Cert.KernelIdeal.main_arg5)) (ix2 k q)) (fun q => (m ((c.tc : Thread Cert.KernelIdeal.nD Cert.KernelIdeal.τ).loc Cert.KernelIdeal.main_arg6)) (ix1 q)) (fun k q => (m ((c.tc : Thread Cert.KernelIdeal.nD Cert.KernelIdeal.τ).loc Cert.KernelIdeal.main_arg7)) (ix2 k q)) (fun q => (m ((c.tc : Thread Cert.KernelIdeal.nD Cert.KernelIdeal.τ).loc Cert.KernelIdeal.main_arg8)) (ix1 q)) (fun k q => (m ((c.tc : Thread Cert.KernelIdeal.nD Cert.KernelIdeal.τ).loc Cert.KernelIdeal.main_arg9)) (ix2 k q)) (fun q => (m ((c.tc : Thread Cert.KernelIdeal.nD Cert.KernelIdeal.τ).loc Cert.KernelIdeal.main_arg10)) (ix1 q)) (fun k q => (m ((c.tc : Thread Cert.KernelIdeal.nD Cert.KernelIdeal.τ).loc Cert.KernelIdeal.main_arg11)) (ix2 k q)) (fun q => (m ((c.tc : Thread Cert.KernelIdeal.nD Cert.KernelIdeal.τ).loc Cert.KernelIdeal.main_arg12)) (ix1 q)) (fun k => (m ((c.tc : Thread Cert.KernelIdeal.nD Cert.KernelIdeal.τ).loc Cert.KernelIdeal.main_arg13)) (ix2 k 0)) (fun k => (m ((c.tc : Thread Cert.KernelIdeal.nD Cert.KernelIdeal.τ).loc Cert.KernelIdeal.main_arg15)) (ix2 k 0)) (fun k => (m ((c.tc : Thread Cert.KernelIdeal.nD Cert.KernelIdeal.τ).loc Cert.KernelIdeal.main_arg17)) (ix2 k 0)) ((m ((c.tc : Thread Cert.KernelIdeal.nD Cert.KernelIdeal.τ).loc Cert.KernelIdeal.main_arg14)) (ix1 0)) ((m ((c.tc : Thread Cert.KernelIdeal.nD Cert.KernelIdeal.τ).loc Cert.KernelIdeal.main_arg16)) (ix1 0)) ((m ((c.tc : Thread Cert.KernelIdeal.nD Cert.KernelIdeal.τ).loc Cert.KernelIdeal.main_arg18)) (ix1 0)) (fun j => (m ((c.tc : Thread Cert.KernelIdeal.nD Cert.KernelIdeal.τ).loc Cert.KernelIdeal.main_arg19)) (ix2 0 j)) j := by
  have e : Cert.KerArray.G m c (ix2 r j)
      = Cert.Moe.outCat (fun k => Cert.KernelIdeal.Fr.V m c Cert.KernelIdeal.main_arg0 (ix2 r k))
          (fun k q => Cert.KernelIdeal.Fr.V m c Cert.KernelIdeal.main_v0 (ix2 k q))
          (fun q => Cert.KernelIdeal.Fr.V m c Cert.KernelIdeal.main_v2 (ix2 0 q))
          (fun k q => Cert.KernelIdeal.Fr.V m c Cert.KernelIdeal.main_arg3 (ix2 k q))
          (fun q => Cert.KernelIdeal.Fr.V m c Cert.KernelIdeal.main_v10 (ix2 0 q))
          (fun k q => Cert.KernelIdeal.Fr.V m c Cert.KernelIdeal.main_v3 (ix2 k q))
          (fun q => Cert.KernelIdeal.Fr.V m c Cert.KernelIdeal.main_v5 (ix2 0 q))
          (fun k q => Cert.KernelIdeal.Fr.V m c Cert.KernelIdeal.main_arg11 (ix2 k q))
          (fun q => Cert.KernelIdeal.Fr.V m c Cert.KernelIdeal.main_v11 (ix2 0 q))
          (fun k q => Cert.KernelIdeal.Fr.V m c Cert.KernelIdeal.main_v6 (ix2 k q))
          (fun q => Cert.KernelIdeal.Fr.V m c Cert.KernelIdeal.main_v9 (ix2 0 q)) j := rfl
  have e0 : (fun k => Cert.KernelIdeal.Fr.V m c Cert.KernelIdeal.main_arg0 (ix2 r k))
      = (fun k => (m ((c.tc : Thread Cert.KernelIdeal.nD Cert.KernelIdeal.τ).loc Cert.KernelIdeal.main_arg0)) (ix2 r k)) :=
    funext fun k => congrFun (Cert.KernelIdeal.Fr.V_main_arg0 m c) (ix2 r k)
  have e1 : (fun k q => Cert.KernelIdeal.Fr.V m c Cert.KernelIdeal.main_v0 (ix2 k q))
      = Cert.Moe.hcat 32 (fun k q => (m ((c.tc : Thread Cert.KernelIdeal.nD Cert.KernelIdeal.τ).loc Cert.KernelIdeal.main_arg1)) (ix2 k q)) (fun k q => (m ((c.tc : Thread Cert.KernelIdeal.nD Cert.KernelIdeal.τ).loc Cert.KernelIdeal.main_arg9)) (ix2 k q)) :=
    funext fun k => funext fun q => Cert.HostV.v0_at m c k q
  have e2 : (fun q => Cert.KernelIdeal.Fr.V m c Cert.KernelIdeal.main_v2 (ix2 0 q))
      = Cert.Moe.vcat 32 (fun q => (m ((c.tc : Thread Cert.KernelIdeal.nD Cert.KernelIdeal.τ).loc Cert.KernelIdeal.main_arg2)) (ix1 q)) (fun q => (m ((c.tc : Thread Cert.KernelIdeal.nD Cert.KernelIdeal.τ).loc Cert.KernelIdeal.main_arg10)) (ix1 q)) :=
    funext fun q => Cert.HostV.v2_at m c q
  have e3 : (fun k q => Cert.KernelIdeal.Fr.V m c Cert.KernelIdeal.main_arg3 (ix2 k q))
      = (fun k q => (m ((c.tc : Thread Cert.KernelIdeal.nD Cert.KernelIdeal.τ).loc Cert.KernelIdeal.main_arg3)) (ix2 k q)) :=
    funext fun k => funext fun q => congrFun (Cert.KernelIdeal.Fr.V_main_arg3 m c) (ix2 k q)
  have e4 : (fun q => Cert.KernelIdeal.Fr.V m c Cert.KernelIdeal.main_v10 (ix2 0 q))
      = (fun q => (m ((c.tc : Thread Cert.KernelIdeal.nD Cert.KernelIdeal.τ).loc Cert.KernelIdeal.main_arg4)) (ix1 q)) :=
    funext fun q => Cert.HostV.v10_at m c q
  have e5 : (fun k q => Cert.KernelIdeal.Fr.V m c Cert.KernelIdeal.main_v3 (ix2 k q))
      = Cert.Moe.hcat 48 (fun k q => (m ((c.tc : Thread Cert.KernelIdeal.nD Cert.KernelIdeal.τ).loc Cert.KernelIdeal.main_arg5)) (ix2 k q)) (fun k q => (m ((c.tc : Thread Cert.KernelIdeal.nD Cert.KernelIdeal.τ).loc Cert.KernelIdeal.main_arg7)) (ix2 k q)) :=
    funext fun k => funext fun q => Cert.HostV.v3_at m c k q
  have e6 : (fun q => Cert.KernelIdeal.Fr.V m c Cert.KernelIdeal.main_v5 (ix2 0 q))
      = Cert.Moe.vcat 48 (fun q => (m ((c.tc : Thread Cert.KernelIdeal.nD Cert.KernelIdeal.τ).loc Cert.KernelIdeal.main_arg6)) (ix1 q)) (fun q => (m ((c.tc : Thread Cert.KernelIdeal.nD Cert.KernelIdeal.τ).loc Cert.KernelIdeal.main_arg8)) (ix1 q)) :=
    funext fun q => Cert.HostV.v5_at m c q
  have e7 : (fun k q => Cert.KernelIdeal.Fr.V m c Cert.KernelIdeal.main_arg11 (ix2 k q))
      = (fun k q => (m ((c.tc : Thread Cert.KernelIdeal.nD Cert.KernelIdeal.τ).loc Cert.KernelIdeal.main_arg11)) (ix2 k q)) :=
    funext fun k => funext fun q => congrFun (Cert.KernelIdeal.Fr.V_main_arg11 m c) (ix2 k q)
  have e8 : (fun q => Cert.KernelIdeal.Fr.V m c Cert.KernelIdeal.main_v11 (ix2 0 q))
      = (fun q => (m ((c.tc : Thread Cert.KernelIdeal.nD Cert.KernelIdeal.τ).loc Cert.KernelIdeal.main_arg12)) (ix1 q)) :=
    funext fun q => Cert.HostV.v11_at m c q
  have e9 : (fun k q => Cert.KernelIdeal.Fr.V m c Cert.KernelIdeal.main_v6 (ix2 k q))
      = (fun k q => Cert.Moe.sel3 ((m ((c.tc : Thread Cert.KernelIdeal.nD Cert.KernelIdeal.τ).loc Cert.KernelIdeal.main_arg13)) (ix2 k 0)) ((m ((c.tc : Thread Cert.KernelIdeal.nD Cert.KernelIdeal.τ).loc Cert.KernelIdeal.main_arg15)) (ix2 k 0)) ((m ((c.tc : Thread Cert.KernelIdeal.nD Cert.KernelIdeal.τ).loc Cert.KernelIdeal.main_arg17)) (ix2 k 0)) q) :=
    funext fun k => funext fun q => Cert.HostV.v6_at m c k q
  have e10 : (fun q => Cert.KernelIdeal.Fr.V m c Cert.KernelIdeal.main_v9 (ix2 0 q))
      = (fun q => Cert.Moe.sel3 ((m ((c.tc : Thread Cert.KernelIdeal.nD Cert.KernelIdeal.τ).loc Cert.KernelIdeal.main_arg14)) (ix1 0)) ((m ((c.tc : Thread Cert.KernelIdeal.nD Cert.KernelIdeal.τ).loc Cert.KernelIdeal.main_arg16)) (ix1 0)) ((m ((c.tc : Thread Cert.KernelIdeal.nD Cert.KernelIdeal.τ).loc Cert.KernelIdeal.main_arg18)) (ix1 0)) q + (m ((c.tc : Thread Cert.KernelIdeal.nD Cert.KernelIdeal.τ).loc Cert.KernelIdeal.main_arg19)) (ix2 0 q)) :=
    funext fun q => Cert.HostV.v9_at m c q
  rw [e, e0, e1, e2, e3, e4, e5, e6, e7, e8, e9, e10]
  exact Cert.Bridge.outCat_eq_outR (fun k => (m ((c.tc : Thread Cert.KernelIdeal.nD Cert.KernelIdeal.τ).loc Cert.KernelIdeal.main_arg0)) (ix2 r k)) (fun k q => (m ((c.tc : Thread Cert.KernelIdeal.nD Cert.KernelIdeal.τ).loc Cert.KernelIdeal.main_arg1)) (ix2 k q)) (fun q => (m ((c.tc : Thread Cert.KernelIdeal.nD Cert.KernelIdeal.τ).loc Cert.KernelIdeal.main_arg2)) (ix1 q)) (fun k q => (m ((c.tc : Thread Cert.KernelIdeal.nD Cert.KernelIdeal.τ).loc Cert.KernelIdeal.main_arg3)) (ix2 k q)) (fun q => (m ((c.tc : Thread Cert.KernelIdeal.nD Cert.KernelIdeal.τ).loc Cert.KernelIdeal.main_arg4)) (ix1 q)) (fun k q => (m ((c.tc : Thread Cert.KernelIdeal.nD Cert.KernelIdeal.τ).loc Cert.KernelIdeal.main_arg5)) (ix2 k q)) (fun q => (m ((c.tc : Thread Cert.KernelIdeal.nD Cert.KernelIdeal.τ).loc Cert.KernelIdeal.main_arg6)) (ix1 q)) (fun k q => (m ((c.tc : Thread Cert.KernelIdeal.nD Cert.KernelIdeal.τ).loc Cert.KernelIdeal.main_arg7)) (ix2 k q)) (fun q => (m ((c.tc : Thread Cert.KernelIdeal.nD Cert.KernelIdeal.τ).loc Cert.KernelIdeal.main_arg8)) (ix1 q)) (fun k q => (m ((c.tc : Thread Cert.KernelIdeal.nD Cert.KernelIdeal.τ).loc Cert.KernelIdeal.main_arg9)) (ix2 k q)) (fun q => (m ((c.tc : Thread Cert.KernelIdeal.nD Cert.KernelIdeal.τ).loc Cert.KernelIdeal.main_arg10)) (ix1 q)) (fun k q => (m ((c.tc : Thread Cert.KernelIdeal.nD Cert.KernelIdeal.τ).loc Cert.KernelIdeal.main_arg11)) (ix2 k q)) (fun q => (m ((c.tc : Thread Cert.KernelIdeal.nD Cert.KernelIdeal.τ).loc Cert.KernelIdeal.main_arg12)) (ix1 q)) (fun k => (m ((c.tc : Thread Cert.KernelIdeal.nD Cert.KernelIdeal.τ).loc Cert.KernelIdeal.main_arg13)) (ix2 k 0)) (fun k => (m ((c.tc : Thread Cert.KernelIdeal.nD Cert.KernelIdeal.τ).loc Cert.KernelIdeal.main_arg15)) (ix2 k 0)) (fun k => (m ((c.tc : Thread Cert.KernelIdeal.nD Cert.KernelIdeal.τ).loc Cert.KernelIdeal.main_arg17)) (ix2 k 0)) ((m ((c.tc : Thread Cert.KernelIdeal.nD Cert.KernelIdeal.τ).loc Cert.KernelIdeal.main_arg14)) (ix1 0)) ((m ((c.tc : Thread Cert.KernelIdeal.nD Cert.KernelIdeal.τ).loc Cert.KernelIdeal.main_arg16)) (ix1 0)) ((m ((c.tc : Thread Cert.KernelIdeal.nD Cert.KernelIdeal.τ).loc Cert.KernelIdeal.main_arg18)) (ix1 0)) (fun j => (m ((c.tc : Thread Cert.KernelIdeal.nD Cert.KernelIdeal.τ).loc Cert.KernelIdeal.main_arg19)) (ix2 0 j))
    (fun k q => Cert.Finite.g_W2_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (ix2 k q))
    (fun q => Cert.Finite.g_b2_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) hpre (ix1 q)) j

/-- The reference runs to the end and leaves its arguments as launched: its run, the result dropped. -/
theorem frame_ref : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end, with equal results: each row of the kernel's is
    the separate arrangement of the arguments' row (`G_at`), and so is each row of the reference's. -/
theorem algebraic : Cert.algebraic_KernelIdeal_ReferenceIdeal := by
  intro m ρ m' ρ' hpre hagree
  refine ⟨fun c => Cert.KerArray.G m c, Cert.KerArray.run m ρ Cert.PayAt.pay_at, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]
  funext i
  obtain ⟨r, j, rfl⟩ : ∃ (r : Fin 1048576) (j : Fin 3), i = ix2 r j := ⟨i 0, i 1, eq_ix2 i⟩
  rw [Cert.RefAt.ref_at]
  exact (G_at m c (hpre c) r j).symm

end Cert.Alg

end
-- ==== Proof.lean ====
/-
  The certificate of a mixture-of-two-experts network evaluated by ONE pipelined call over 64 blocks of 16384 rows,
  against the same network written layer by layer.

  Per row the network is a two-layer tanh backbone, two tanh experts fed by it, a gate whose two logits weigh the
  experts by a two-way softmax, and three linear heads plus an offset. The call fuses the backbone's and the gate's
  first layers into one, the two experts into one, the three heads (with the offset folded into their bias) into
  one, and takes the first softmax weight as the logistic of the logits' difference, mixing as `e₂ + w₀·(e₁ − e₂)`.

  * Frames (`Cert.Kernel.Fr`, `Cert.KernelIdeal.Fr`, at any float instance): the host operations only lay parameters
    out, the call reads eleven windows and overwrites the result's block whole at every grid point, so the program
    terminates without a fault and every argument array ends as launched. The reference is host operations only;
    its frame is its run with the result dropped.
  * Nothing was rewritten between the printed kernel and its idealization, so the preservation claim is empty.
  * Value (`Cert.Alg`): on the extended reals the call's result and the reference's are the same function of the
    arguments, row by row — given that the gate's second layer is real-valued, which the finiteness precondition
    provides; every other step is a re-indexing of sums or associativity of addition.
-/
import proofs.«101308_j75230647156978_2_alg».proof.Defs
import proofs.«101308_j75230647156978_2_alg».proof.Proof.Gen.Kernel
import proofs.«101308_j75230647156978_2_alg».proof.Proof.Gen.KernelIdeal
import proofs.«101308_j75230647156978_2_alg».proof.Proof.Gen.ReferenceIdeal
import proofs.«101308_j75230647156978_2_alg».proof.Proof.Gen.Pre_finite_inputs
import proofs.«101308_j75230647156978_2_alg».proof.Proof.FrameKernel
import proofs.«101308_j75230647156978_2_alg».proof.Proof.FrameIdeal
import proofs.«101308_j75230647156978_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    Cert.Alg.frame_ref,
    trivial,
    Cert.Alg.algebraic⟩

end Cert.Proof

end
